-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x8000000 : Shape := ⟨2, ![2, 8000000]⟩
abbrev S8000000x2 : Shape := ⟨2, ![8000000, 2]⟩
abbrev S1000000 : Shape := ⟨1, ![1000000]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S8000000x2 : S_.BroadcastsInDim S8000000x2 (![] : Fin 0 → Fin S8000000x2.rank)
  reducesTo_S8000000x2_S_d0_1 : S8000000x2.ReducesTo [0, 1] S_

variable [Facts]

def fn {F : FTy → Type} [FloatOps F] (main_arg0 : FVec F S1000000x1 .f32) (main_arg1 : FVec F S1000000x1 .f32) (main_arg2 : IVec S2x8000000 32) (main_arg3 : FVec F S8000000x2 .f32) (main_arg4 : IVec S1000000 32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S8000000x2 .f32 := Host.absf main_arg3
  let main_cst_2 : FVec F S_ .f32 := constant S_ .f32 0x7F800000#32
  let main_v10 : FVec F S8000000x2 .f32 := broadcastInDim S8000000x2 ![] bcast_S_S8000000x2 main_cst_2
  let main_v11 : IVec S8000000x2 1 := cmpf .olt main_v9 main_v10
  let main_c_3 : IVec S_ 1 := constantI S_ 1 1#1
  let main_v12 : IVec S_ 1 := (fun x v => Host.reduce IntOp.andi x v reducesTo_S8000000x2_S_d0_1 h_S_) main_v11 main_c_3
  let main_v13 : IVec S_ 1 := andi main_v8 main_v12
  main_v13
-- ==== Kernel.lean ====
abbrev S1000000x1 : Shape := ⟨2, ![1000000, 1]⟩
abbrev S2x8000000 : Shape := ⟨2, ![2, 8000000]⟩
abbrev S8000000x2 : Shape := ⟨2, ![8000000, 2]⟩
abbrev S1000000 : Shape := ⟨1, ![1000000]⟩
abbrev S1x8000000 : Shape := ⟨2, ![1, 8000000]⟩
abbrev S8000000 : Shape := ⟨1, ![8000000]⟩
abbrev S8000000x1 : Shape := ⟨2, ![8000000, 1]⟩
abbrev S_ : Shape := ⟨0, ![]⟩
abbrev S62500x128 : Shape := ⟨2, ![62500, 128]⟩
abbrev S3072x128 : Shape := ⟨2, ![3072, 128]⟩
abbrev S8000000x4 : Shape := ⟨2, ![8000000, 4]⟩
abbrev S1000000x4 : Shape := ⟨2, ![1000000, 4]⟩
abbrev S1000000x2 : Shape := ⟨2, ![1000000, 2]⟩

abbrev nBuf : Space → Nat
  | .hbm => 141
  | .vmem => 28
  | .smem => 0
  | _ => 0

abbrev hbmTy0_0 (i : Nat) : BufTy := match i % 128 with
  | 0 => ⟨S1000000x1, .f32⟩
  | 1 => ⟨S1000000x1, .f32⟩
  | 2 => ⟨S2x8000000, .i32⟩
  | 3 => ⟨S8000000x2, .f32⟩
  | 4 => ⟨S1000000, .i32⟩
  | 5 => ⟨S1x8000000, .i32⟩
  | 6 => ⟨S8000000, .i32⟩
  | 7 => ⟨S1x8000000, .i32⟩
  | 8 => ⟨S8000000, .i32⟩
  | 9 => ⟨S1000000, .f32⟩
  | 10 => ⟨S1000000, .f32⟩
  | 11 => ⟨S8000000x1, .f32⟩
  | 12 => ⟨S8000000, .f32⟩
  | 13 => ⟨S8000000x1, .f32⟩
  | 14 => ⟨S8000000, .f32⟩
  | 15 => ⟨S_, .i32⟩
  | 16 => ⟨S8000000, .i32⟩
  | 17 => ⟨S8000000, .i1⟩
  | 18 => ⟨S_, .i32⟩
  | 19 => ⟨S8000000, .i32⟩
  | 20 => ⟨S8000000, .i32⟩
  | 21 => ⟨S8000000, .i32⟩
  | 22 => ⟨S8000000x1, .i32⟩
  | 23 => ⟨S8000000, .f32⟩
  | 24 => ⟨S62500x128, .f32⟩
  | 25 => ⟨S_, .i32⟩
  | 26 => ⟨S8000000, .i32⟩
  | 27 => ⟨S8000000, .i1⟩
  | 28 => ⟨S_, .i32⟩
  | 29 => ⟨S8000000, .i32⟩
  | 30 => ⟨S8000000, .i32⟩
  | 31 => ⟨S8000000, .i32⟩
  | 32 => ⟨S8000000x1, .i32⟩
  | 33 => ⟨S8000000, .f32⟩
  | 34 => ⟨S62500x128, .f32⟩
  | 35 => ⟨S62500x128, .f32⟩
  | 36 => ⟨S62500x128, .f32⟩
  | 37 => ⟨S62500x128, .f32⟩
  | 38 => ⟨S62500x128, .f32⟩
  | 39 => ⟨S8000000, .f32⟩
  | 40 => ⟨S8000000, .f32⟩
  | 41 => ⟨S_, .f32⟩
  | 42 => ⟨S8000000, .f32⟩
  | 43 => ⟨S8000000, .i1⟩
  | 44 => ⟨S8000000, .f32⟩
  | 45 => ⟨S_, .f32⟩
  | 46 => ⟨S8000000, .f32⟩
  | 47 => ⟨S8000000, .i1⟩
  | 48 => ⟨S8000000, .f32⟩
  | 49 => ⟨S8000000x1, .f32⟩
  | 50 => ⟨S8000000x1, .f32⟩
  | 51 => ⟨S8000000x1, .f32⟩
  | 52 => ⟨S8000000x1, .f32⟩
  | 53 => ⟨S8000000x4, .f32⟩
  | 54 => ⟨S_, .f32⟩
  | 55 => ⟨S1000000x4, .f32⟩
  | 56 => ⟨S8000000x1, .i32⟩
  | 57 => ⟨S1000000x4, .f32⟩
  | 58 => ⟨S1000000x1, .f32⟩
  | 59 => ⟨S1000000, .f32⟩
  | 60 => ⟨S1000000x1, .f32⟩
  | 61 => ⟨S1000000, .f32⟩
  | 62 => ⟨S1000000x1, .f32⟩
  | 63 => ⟨S1000000, .f32⟩
  | 64 => ⟨S1000000x1, .f32⟩
  | 65 => ⟨S1000000, .f32⟩
  | 66 => ⟨S_, .f32⟩
  | 67 => ⟨S1000000, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S1000000x1, .f32⟩
  | 77 => ⟨S1000000x1, .f32⟩
  | 78 => ⟨S1000000x2, .f32⟩
  | 79 => ⟨S_, .i32⟩
  | 80 => ⟨S8000000, .i32⟩
  | 81 => ⟨S8000000, .i1⟩
  | 82 => ⟨S_, .i32⟩
  | 83 => ⟨S8000000, .i32⟩
  | 84 => ⟨S8000000, .i32⟩
  | 85 => ⟨S8000000, .i32⟩
  | 86 => ⟨S8000000x1, .i32⟩
  | 87 => ⟨S8000000x2, .f32⟩
  | 88 => ⟨S_, .i32⟩
  | 89 => ⟨S8000000, .i32⟩
  | 90 => ⟨S8000000, .i1⟩
  | 91 => ⟨S_, .i32⟩
  | 92 => ⟨S8000000, .i32⟩
  | 93 => ⟨S8000000, .i32⟩
  | 94 => ⟨S8000000, .i32⟩
  | 95 => ⟨S8000000x1, .i32⟩
  | 96 => ⟨S8000000x2, .f32⟩
  | 97 => ⟨S8000000x1, .f32⟩
  | 98 => ⟨S8000000, .f32⟩
  | 99 => ⟨S62500x128, .f32⟩
  | 100 => ⟨S8000000x1, .f32⟩
  | 101 => ⟨S8000000, .f32⟩
  | 102 => ⟨S62500x128, .f32⟩
  | 103 => ⟨S8000000x1, .f32⟩
  | 104 => ⟨S8000000, .f32⟩
  | 105 => ⟨S62500x128, .f32⟩
  | 106 => ⟨S8000000x1, .f32⟩
  | 107 => ⟨S8000000, .f32⟩
  | 108 => ⟨S62500x128, .f32⟩
  | 109 => ⟨S62500x128, .f32⟩
  | 110 => ⟨S62500x128, .f32⟩
  | 111 => ⟨S8000000, .f32⟩
  | 112 => ⟨S8000000, .f32⟩
  | 113 => ⟨S8000000x1, .f32⟩
  | 114 => ⟨S8000000x1, .f32⟩
  | 115 => ⟨S8000000x2, .f32⟩
  | 116 => ⟨S_, .f32⟩
  | 117 => ⟨S1000000x2, .f32⟩
  | 118 => ⟨S8000000x1, .i32⟩
  | 119 => ⟨S1000000x2, .f32⟩
  | 120 => ⟨S1000000x1, .f32⟩
  | 121 => ⟨S1000000, .f32⟩
  | 122 => ⟨S1000000x1, .f32⟩
  | 123 => ⟨S1000000, .f32⟩
  | 124 => ⟨S_, .f32⟩
  | 125 => ⟨S1000000, .f32⟩
  | 126 => ⟨S1000000, .f32⟩
  | 127 => ⟨S1000000, .f32⟩
  | _ => ⟨S1000000x1, .f32⟩

abbrev hbmTy0_1 (i : Nat) : BufTy := match i % 128 with
  | 0 => ⟨S_, .f32⟩
  | 1 => ⟨S1000000, .f32⟩
  | 2 => ⟨S1000000, .f32⟩
  | 3 => ⟨S1000000, .f32⟩
  | 4 => ⟨S1000000, .f32⟩
  | 5 => ⟨S_, .f32⟩
  | 6 => ⟨S1000000, .f32⟩
  | 7 => ⟨S1000000, .f32⟩
  | 8 => ⟨S1000000, .f32⟩
  | 9 => ⟨S_, .f32⟩
  | 10 => ⟨S1000000, .f32⟩
  | 11 => ⟨S1000000, .f32⟩
  | 12 => ⟨S1000000, .f32⟩
  | _ => ⟨S1000000x1, .f32⟩

abbrev hbmTy (i : Nat) : BufTy := match i / 128 with
  | 0 => hbmTy0_0 i
  | 1 => hbmTy0_1 i
  | _ => ⟨S1000000x1, .f32⟩

abbrev bufTy : (tb : Table) → Fin (tcTables nBuf tb) → BufTy
  | .hbm, ⟨i, _⟩ => hbmTy i
  | .local _ .vmem, ⟨0, _⟩ => ⟨S3072x128, .f32⟩
  | .local _ .vmem, ⟨1, _⟩ => ⟨S3072x128, .f32⟩
  | .local _ .vmem, ⟨2, _⟩ => ⟨S3072x128, .f32⟩
  | .local _ .vmem, ⟨3, _⟩ => ⟨S3072x128, .f32⟩
  | .local _ .vmem, ⟨4, _⟩ => ⟨S3072x128, .f32⟩
  | .local _ .vmem, ⟨5, _⟩ => ⟨S3072x128, .f32⟩
  | .local _ .vmem, ⟨6, _⟩ => ⟨S3072x128, .f32⟩
  | .local _ .vmem, ⟨7, _⟩ => ⟨S3072x128, .f32⟩
  | .local _ .vmem, ⟨8, _⟩ => ⟨S3072x128, .f32⟩
  | .local _ .vmem, ⟨9, _⟩ => ⟨S3072x128, .f32⟩
  | .local _ .vmem, ⟨10, _⟩ => ⟨S3072x128, .f32⟩
  | .local _ .vmem, ⟨11, _⟩ => ⟨S3072x128, .f32⟩
  | .local _ .vmem, ⟨12, _⟩ => ⟨S3072x128, .f32⟩
  | .local _ .vmem, ⟨13, _⟩ => ⟨S3072x128, .f32⟩
  | .local _ .vmem, ⟨14, _⟩ => ⟨S3072x128, .f32⟩
  | .local _ .vmem, ⟨15, _⟩ => ⟨S3072x128, .f32⟩
  | .local _ .vmem, ⟨16, _⟩ => ⟨S3072x128, .f32⟩
  | .local _ .vmem, ⟨17, _⟩ => ⟨S3072x128, .f32⟩
  | .local _ .vmem, ⟨18, _⟩ => ⟨S3072x128, .f32⟩
  | .local _ .vmem, ⟨19, _⟩ => ⟨S3072x128, .f32⟩
  | .local _ .vmem, ⟨20, _⟩ => ⟨S3072x128, .f32⟩
  | .local _ .vmem, ⟨21, _⟩ => ⟨S3072x128, .f32⟩
  | .local _ .vmem, ⟨22, _⟩ => ⟨S3072x128, .f32⟩
  | .local _ .vmem, ⟨23, _⟩ => ⟨S3072x128, .f32⟩
  | .local _ .vmem, ⟨24, _⟩ => ⟨S3072x128, .f32⟩
  | .local _ .vmem, ⟨25, _⟩ => ⟨S3072x128, .f32⟩
  | .local _ .vmem, ⟨26, _⟩ => ⟨S3072x128, .f32⟩
  | .local _ .vmem, ⟨27, _⟩ => ⟨S3072x128, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c_7 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_9 : Ref sig .tc := ⟨.hbm, 88, rfl⟩
abbrev main_v71 : Ref sig .tc := ⟨.hbm, 89, rfl⟩
abbrev main_v72 : Ref sig .tc := ⟨.hbm, 90, rfl⟩
abbrev main_c_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90_0 : Ref sig .tc := ⟨.hbm, 109, rfl⟩
abbrev main_v90_1 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_11 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_12 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_13 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_14 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_15 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![21], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3072x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3072x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3072x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3072x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3072x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3072x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S3072x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3072x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  shapeCasts_S1000000x1_S1000000 : S1000000x1.ShapeCasts S1000000
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000_S62500x128 : S8000000.ShapeCasts S62500x128
  inb_S3072x128_S3072x128_0_0 : ∀ a, (![0, 0] : Fin 2 → Nat) a + S3072x128.size a ≤ S3072x128.size a
  h_S3072x128 : 0 < S3072x128.numel
  shapeCasts_S3072x128_S3072x128 : S3072x128.ShapeCasts S3072x128
  shapeCasts_S62500x128_S8000000 : S62500x128.ShapeCasts S8000000
  concatenates_S8000000x1_S8000000x1_S8000000x1_S8000000x1_S8000000x4_d1 : Shape.Concatenates [S8000000x1, S8000000x1, S8000000x1, S8000000x1] S8000000x4 1
  bcast_S_S1000000x4 : S_.BroadcastsInDim S1000000x4 (![] : Fin 0 → Fin S1000000x4.rank)
  slices_S1000000x4_S1000000x1_0_0 : S1000000x4.Slices ![0, 0] S1000000x1
  slices_S1000000x4_S1000000x1_0_1 : S1000000x4.Slices ![0, 1] S1000000x1
  slices_S1000000x4_S1000000x1_0_2 : S1000000x4.Slices ![0, 2] S1000000x1
  slices_S1000000x4_S1000000x1_0_3 : S1000000x4.Slices ![0, 3] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  concatenates_S8000000x1_S8000000x1_S8000000x2_d1 : Shape.Concatenates [S8000000x1, S8000000x1] S8000000x2 1
  bcast_S_S1000000x2 : S_.BroadcastsInDim S1000000x2 (![] : Fin 0 → Fin S1000000x2.rank)
  slices_S1000000x2_S1000000x1_0_0 : S1000000x2.Slices ![0, 0] S1000000x1
  slices_S1000000x2_S1000000x1_0_1 : S1000000x2.Slices ![0, 1] S1000000x1
  gather_S1000000_S8000000x1_S8000000_n_0_n_n_0_1_1_wf : GatherDims.WF S1000000 S8000000x1 S8000000 [] [0] [] [0] [] 1 ![1]
  scatter_S1000000x4_S8000000x1_S8000000x4_1_0_0_1_wf : ScatterDims.WF S1000000x4 S8000000x1 S8000000x4 [1] [0] [0] 1
  gather_S1000000x2_S8000000x1_S8000000x2_1_0_n_n_0_1_12_wf : GatherDims.WF S1000000x2 S8000000x1 S8000000x2 [1] [0] [] [0] [] 1 ![1, 2]
  scatter_S1000000x2_S8000000x1_S8000000x2_1_0_0_1_wf : ScatterDims.WF S1000000x2 S8000000x1 S8000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3072x128.size a < S62500x128.size a
  hwx0_0 : ∀ i : grid0.Coords, EltTy.bits .f32 = 32 ∨ (Rect.unit (s := S62500x128) (fun a => cc0_transform_0 i a * S3072x128.size a) (fun a => (Pipeline.Clip.of (cc0_transform_0 i a) (S3072x128.size a) (S62500x128.size a)).extent (S3072x128.size a)) fun a => Pipeline.Clip.inb (Pipeline.Clip.ok_of (hstart0_0 i a))).WholeWords (EltTy.packing .f32)
  hwxs0_0 : ∀ i : grid0.Coords, EltTy.bits .f32 = 32 ∨ (Rect.unit (s := S3072x128) (fun _ => 0) (fun a => (Pipeline.Clip.of (cc0_transform_0 i a) (S3072x128.size a) (S62500x128.size a)).extent (S3072x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3072x128.size a < S62500x128.size a
  hwx0_1 : ∀ i : grid0.Coords, EltTy.bits .f32 = 32 ∨ (Rect.unit (s := S62500x128) (fun a => cc0_transform_1 i a * S3072x128.size a) (fun a => (Pipeline.Clip.of (cc0_transform_1 i a) (S3072x128.size a) (S62500x128.size a)).extent (S3072x128.size a)) fun a => Pipeline.Clip.inb (Pipeline.Clip.ok_of (hstart0_1 i a))).WholeWords (EltTy.packing .f32)
  hwxs0_1 : ∀ i : grid0.Coords, EltTy.bits .f32 = 32 ∨ (Rect.unit (s := S3072x128) (fun _ => 0) (fun a => (Pipeline.Clip.of (cc0_transform_1 i a) (S3072x128.size a) (S62500x128.size a)).extent (S3072x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S3072x128.size a < S62500x128.size a
  hwx0_2 : ∀ i : grid0.Coords, EltTy.bits .f32 = 32 ∨ (Rect.unit (s := S62500x128) (fun a => cc0_transform_2 i a * S3072x128.size a) (fun a => (Pipeline.Clip.of (cc0_transform_2 i a) (S3072x128.size a) (S62500x128.size a)).extent (S3072x128.size a)) fun a => Pipeline.Clip.inb (Pipeline.Clip.ok_of (hstart0_2 i a))).WholeWords (EltTy.packing .f32)
  hwxs0_2 : ∀ i : grid0.Coords, EltTy.bits .f32 = 32 ∨ (Rect.unit (s := S3072x128) (fun _ => 0) (fun a => (Pipeline.Clip.of (cc0_transform_2 i a) (S3072x128.size a) (S62500x128.size a)).extent (S3072x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S3072x128.size a < S62500x128.size a
  hwx0_3 : ∀ i : grid0.Coords, EltTy.bits .f32 = 32 ∨ (Rect.unit (s := S62500x128) (fun a => cc0_transform_3 i a * S3072x128.size a) (fun a => (Pipeline.Clip.of (cc0_transform_3 i a) (S3072x128.size a) (S62500x128.size a)).extent (S3072x128.size a)) fun a => Pipeline.Clip.inb (Pipeline.Clip.ok_of (hstart0_3 i a))).WholeWords (EltTy.packing .f32)
  hwxs0_3 : ∀ i : grid0.Coords, EltTy.bits .f32 = 32 ∨ (Rect.unit (s := S3072x128) (fun _ => 0) (fun a => (Pipeline.Clip.of (cc0_transform_3 i a) (S3072x128.size a) (S62500x128.size a)).extent (S3072x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S3072x128.size a < S62500x128.size a
  hwx0_4 : ∀ i : grid0.Coords, EltTy.bits .f32 = 32 ∨ (Rect.unit (s := S62500x128) (fun a => cc0_transform_4 i a * S3072x128.size a) (fun a => (Pipeline.Clip.of (cc0_transform_4 i a) (S3072x128.size a) (S62500x128.size a)).extent (S3072x128.size a)) fun a => Pipeline.Clip.inb (Pipeline.Clip.ok_of (hstart0_4 i a))).WholeWords (EltTy.packing .f32)
  hwxs0_4 : ∀ i : grid0.Coords, EltTy.bits .f32 = 32 ∨ (Rect.unit (s := S3072x128) (fun _ => 0) (fun a => (Pipeline.Clip.of (cc0_transform_4 i a) (S3072x128.size a) (S62500x128.size a)).extent (S3072x128.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S3072x128.size a < S62500x128.size a
  hwx0_5 : ∀ i : grid0.Coords, EltTy.bits .f32 = 32 ∨ (Rect.unit (s := S62500x128) (fun a => cc0_transform_5 i a * S3072x128.size a) (fun a => (Pipeline.Clip.of (cc0_transform_5 i a) (S3072x128.size a) (S62500x128.size a)).extent (S3072x128.size a)) fun a => Pipeline.Clip.inb (Pipeline.Clip.ok_of (hstart0_5 i a))).WholeWords (EltTy.packing .f32)
  hwxs0_5 : ∀ i : grid0.Coords, EltTy.bits .f32 = 32 ∨ (Rect.unit (s := S3072x128) (fun _ => 0) (fun a => (Pipeline.Clip.of (cc0_transform_5 i a) (S3072x128.size a) (S62500x128.size a)).extent (S3072x128.size a)) fun a => (Nat.zero_add _).trans_le (Pipeline.Clip.extent_le (Pipeline.Clip.ok_of (hstart0_5 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S3072x128.size a < S62500x128.size a
  hwx1_0 : ∀ i : grid1.Coords, EltTy.bits .f32 = 32 ∨ (Rect.unit (s := S62500x128) (fun a => cc1_transform_0 i a * S3072x128.size a) (fun a => (Pipeline.Clip.of (cc1_transform_0 i a) (S3072x128.size a) (S62500x128.size a)).extent (S3072x128.size a)) fun a => Pipeline.Clip.inb (Pipeline.Clip.ok_of (hstart1_0 i a))).WholeWords (EltTy.packing .f32)
  hwxs1_0 : ∀ i : grid1.Coords, EltTy.bits .f32 = 32 ∨ (Rect.unit (s := S3072x128) (fun _ => 0) (fun a => (Pipeline.Clip.of (cc1_transform_0 i a) (S3072x128.size a) (S62500x128.size a)).extent (S3072x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S3072x128.size a < S62500x128.size a
  hwx1_1 : ∀ i : grid1.Coords, EltTy.bits .f32 = 32 ∨ (Rect.unit (s := S62500x128) (fun a => cc1_transform_1 i a * S3072x128.size a) (fun a => (Pipeline.Clip.of (cc1_transform_1 i a) (S3072x128.size a) (S62500x128.size a)).extent (S3072x128.size a)) fun a => Pipeline.Clip.inb (Pipeline.Clip.ok_of (hstart1_1 i a))).WholeWords (EltTy.packing .f32)
  hwxs1_1 : ∀ i : grid1.Coords, EltTy.bits .f32 = 32 ∨ (Rect.unit (s := S3072x128) (fun _ => 0) (fun a => (Pipeline.Clip.of (cc1_transform_1 i a) (S3072x128.size a) (S62500x128.size a)).extent (S3072x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S3072x128.size a < S62500x128.size a
  hwx1_2 : ∀ i : grid1.Coords, EltTy.bits .f32 = 32 ∨ (Rect.unit (s := S62500x128) (fun a => cc1_transform_2 i a * S3072x128.size a) (fun a => (Pipeline.Clip.of (cc1_transform_2 i a) (S3072x128.size a) (S62500x128.size a)).extent (S3072x128.size a)) fun a => Pipeline.Clip.inb (Pipeline.Clip.ok_of (hstart1_2 i a))).WholeWords (EltTy.packing .f32)
  hwxs1_2 : ∀ i : grid1.Coords, EltTy.bits .f32 = 32 ∨ (Rect.unit (s := S3072x128) (fun _ => 0) (fun a => (Pipeline.Clip.of (cc1_transform_2 i a) (S3072x128.size a) (S62500x128.size a)).extent (S3072x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S3072x128.size a < S62500x128.size a
  hwx1_3 : ∀ i : grid1.Coords, EltTy.bits .f32 = 32 ∨ (Rect.unit (s := S62500x128) (fun a => cc1_transform_3 i a * S3072x128.size a) (fun a => (Pipeline.Clip.of (cc1_transform_3 i a) (S3072x128.size a) (S62500x128.size a)).extent (S3072x128.size a)) fun a => Pipeline.Clip.inb (Pipeline.Clip.ok_of (hstart1_3 i a))).WholeWords (EltTy.packing .f32)
  hwxs1_3 : ∀ i : grid1.Coords, EltTy.bits .f32 = 32 ∨ (Rect.unit (s := S3072x128) (fun _ => 0) (fun a => (Pipeline.Clip.of (cc1_transform_3 i a) (S3072x128.size a) (S62500x128.size a)).extent (S3072x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S3072x128.size a < S62500x128.size a
  hwx1_4 : ∀ i : grid1.Coords, EltTy.bits .f32 = 32 ∨ (Rect.unit (s := S62500x128) (fun a => cc1_transform_4 i a * S3072x128.size a) (fun a => (Pipeline.Clip.of (cc1_transform_4 i a) (S3072x128.size a) (S62500x128.size a)).extent (S3072x128.size a)) fun a => Pipeline.Clip.inb (Pipeline.Clip.ok_of (hstart1_4 i a))).WholeWords (EltTy.packing .f32)
  hwxs1_4 : ∀ i : grid1.Coords, EltTy.bits .f32 = 32 ∨ (Rect.unit (s := S3072x128) (fun _ => 0) (fun a => (Pipeline.Clip.of (cc1_transform_4 i a) (S3072x128.size a) (S62500x128.size a)).extent (S3072x128.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S3072x128.size a < S62500x128.size a
  hwx1_5 : ∀ i : grid1.Coords, EltTy.bits .f32 = 32 ∨ (Rect.unit (s := S62500x128) (fun a => cc1_transform_5 i a * S3072x128.size a) (fun a => (Pipeline.Clip.of (cc1_transform_5 i a) (S3072x128.size a) (S62500x128.size a)).extent (S3072x128.size a)) fun a => Pipeline.Clip.inb (Pipeline.Clip.ok_of (hstart1_5 i a))).WholeWords (EltTy.packing .f32)
  hwxs1_5 : ∀ i : grid1.Coords, EltTy.bits .f32 = 32 ∨ (Rect.unit (s := S3072x128) (fun _ => 0) (fun a => (Pipeline.Clip.of (cc1_transform_5 i a) (S3072x128.size a) (S62500x128.size a)).extent (S3072x128.size a)) fun a => (Nat.zero_add _).trans_le (Pipeline.Clip.extent_le (Pipeline.Clip.ok_of (hstart1_5 i a)))).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S3072x128.size a < S62500x128.size a
  hwx1_6 : ∀ i : grid1.Coords, EltTy.bits .f32 = 32 ∨ (Rect.unit (s := S62500x128) (fun a => cc1_transform_6 i a * S3072x128.size a) (fun a => (Pipeline.Clip.of (cc1_transform_6 i a) (S3072x128.size a) (S62500x128.size a)).extent (S3072x128.size a)) fun a => Pipeline.Clip.inb (Pipeline.Clip.ok_of (hstart1_6 i a))).WholeWords (EltTy.packing .f32)
  hwxs1_6 : ∀ i : grid1.Coords, EltTy.bits .f32 = 32 ∨ (Rect.unit (s := S3072x128) (fun _ => 0) (fun a => (Pipeline.Clip.of (cc1_transform_6 i a) (S3072x128.size a) (S62500x128.size a)).extent (S3072x128.size a)) fun a => (Nat.zero_add _).trans_le (Pipeline.Clip.extent_le (Pipeline.Clip.ok_of (hstart1_6 i a)))).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S3072x128.size a < S62500x128.size a
  hwx1_7 : ∀ i : grid1.Coords, EltTy.bits .f32 = 32 ∨ (Rect.unit (s := S62500x128) (fun a => cc1_transform_7 i a * S3072x128.size a) (fun a => (Pipeline.Clip.of (cc1_transform_7 i a) (S3072x128.size a) (S62500x128.size a)).extent (S3072x128.size a)) fun a => Pipeline.Clip.inb (Pipeline.Clip.ok_of (hstart1_7 i a))).WholeWords (EltTy.packing .f32)
  hwxs1_7 : ∀ i : grid1.Coords, EltTy.bits .f32 = 32 ∨ (Rect.unit (s := S3072x128) (fun _ => 0) (fun a => (Pipeline.Clip.of (cc1_transform_7 i a) (S3072x128.size a) (S62500x128.size a)).extent (S3072x128.size a)) fun a => (Nat.zero_add _).trans_le (Pipeline.Clip.extent_le (Pipeline.Clip.ok_of (hstart1_7 i a)))).WholeWords (EltTy.packing .f32)

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000x4_S8000000x1_S8000000x4_1_0_0_1 : ScatterDims S1000000x4 S8000000x1 S8000000x4 where
  updateWindowDims := [1]
  insertedWindowDims := [0]
  scatterDimsToOperandDims := [0]
  indexVectorDim := 1
  wf := scatter_S1000000x4_S8000000x1_S8000000x4_1_0_0_1_wf
def gather_S1000000x2_S8000000x1_S8000000x2_1_0_n_n_0_1_12 : GatherDims S1000000x2 S8000000x1 S8000000x2 where
  offsetDims := [1]
  collapsedSliceDims := [0]
  operandBatchingDims := []
  startIndicesBatchingDims := []
  startIndexMap := [0]
  indexVectorDim := 1
  sliceSizes := ![1, 2]
  wf := gather_S1000000x2_S8000000x1_S8000000x2_1_0_n_n_0_1_12_wf
def scatter_S1000000x2_S8000000x1_S8000000x2_1_0_0_1 : ScatterDims S1000000x2 S8000000x1 S8000000x2 where
  updateWindowDims := [1]
  insertedWindowDims := [0]
  scatterDimsToOperandDims := [0]
  indexVectorDim := 1
  wf := scatter_S1000000x2_S8000000x1_S8000000x2_1_0_0_1_wf

abbrev win0_0 : Pipeline.Window sig grid0 :=
  Pipeline.Window.ofSpecClip (Memref.whole main_v17) S3072x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v25) S3072x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v26) S3072x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v27) S3072x128.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v28_0) S3072x128.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v28_1) S3072x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpecClip (Memref.whole main_v80) S3072x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v86) S3072x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v83) S3072x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v89) S3072x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v26) S3072x128.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v27) S3072x128.size cc1_transform_5 reads1_5 false false 2 stage1_5 sem1_5
    hrank1 hreads1_5 hstart1_5 nbuf1_5 (Memref.isWhole_whole _) hwx1_5 hwxs1_5 hstage1_5

abbrev win1_6 : Pipeline.Window sig grid1 :=
  Pipeline.Window.ofSpecClip (Memref.whole main_v90_0) S3072x128.size cc1_transform_6 reads1_6 true false 2 stage1_6 sem1_6
    hrank1 hreads1_6 hstart1_6 nbuf1_6 (Memref.isWhole_whole _) hwx1_6 hwxs1_6 hstage1_6

abbrev win1_7 : Pipeline.Window sig grid1 :=
  Pipeline.Window.ofSpecClip (Memref.whole main_v90_1) S3072x128.size cc1_transform_7 reads1_7 true false 2 stage1_7 sem1_7
    hrank1 hreads1_7 hstart1_7 nbuf1_7 (Memref.isWhole_whole _) hwx1_7 hwxs1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1000000x1 : Shape := ⟨2, ![1000000, 1]⟩
abbrev S2x8000000 : Shape := ⟨2, ![2, 8000000]⟩
abbrev S8000000x2 : Shape := ⟨2, ![8000000, 2]⟩
abbrev S1000000 : Shape := ⟨1, ![1000000]⟩
abbrev S1x8000000 : Shape := ⟨2, ![1, 8000000]⟩
abbrev S8000000 : Shape := ⟨1, ![8000000]⟩
abbrev S8000000x1 : Shape := ⟨2, ![8000000, 1]⟩
abbrev S_ : Shape := ⟨0, ![]⟩
abbrev S1000000x2 : Shape := ⟨2, ![1000000, 2]⟩

abbrev nBuf : Space → Nat
  | .hbm => 211
  | .vmem => 0
  | .smem => 0
  | _ => 0

abbrev hbmTy0_0 (i : Nat) : BufTy := match i % 128 with
  | 0 => ⟨S1000000x1, .f32⟩
  | 1 => ⟨S1000000x1, .f32⟩
  | 2 => ⟨S2x8000000, .i32⟩
  | 3 => ⟨S8000000x2, .f32⟩
  | 4 => ⟨S1000000, .i32⟩
  | 5 => ⟨S1x8000000, .i32⟩
  | 6 => ⟨S8000000, .i32⟩
  | 7 => ⟨S1x8000000, .i32⟩
  | 8 => ⟨S8000000, .i32⟩
  | 9 => ⟨S8000000x1, .f32⟩
  | 10 => ⟨S8000000, .f32⟩
  | 11 => ⟨S_, .f32⟩
  | 12 => ⟨S8000000, .f32⟩
  | 13 => ⟨S8000000, .i1⟩
  | 14 => ⟨S8000000x1, .f32⟩
  | 15 => ⟨S8000000, .f32⟩
  | 16 => ⟨S_, .f32⟩
  | 17 => ⟨S8000000, .f32⟩
  | 18 => ⟨S8000000, .i1⟩
  | 19 => ⟨S1000000, .f32⟩
  | 20 => ⟨S8000000x1, .f32⟩
  | 21 => ⟨S8000000, .f32⟩
  | 22 => ⟨S_, .f32⟩
  | 23 => ⟨S_, .f32⟩
  | 24 => ⟨S8000000, .f32⟩
  | 25 => ⟨S8000000, .f32⟩
  | 26 => ⟨S_, .i32⟩
  | 27 => ⟨S8000000, .i32⟩
  | 28 => ⟨S8000000, .i1⟩
  | 29 => ⟨S_, .i32⟩
  | 30 => ⟨S8000000, .i32⟩
  | 31 => ⟨S8000000, .i32⟩
  | 32 => ⟨S8000000, .i32⟩
  | 33 => ⟨S8000000x1, .i32⟩
  | 34 => ⟨S8000000, .f32⟩
  | 35 => ⟨S_, .i32⟩
  | 36 => ⟨S8000000, .i32⟩
  | 37 => ⟨S8000000, .i1⟩
  | 38 => ⟨S_, .i32⟩
  | 39 => ⟨S8000000, .i32⟩
  | 40 => ⟨S8000000, .i32⟩
  | 41 => ⟨S8000000, .i32⟩
  | 42 => ⟨S8000000x1, .i32⟩
  | 43 => ⟨S8000000, .f32⟩
  | 44 => ⟨S8000000, .f32⟩
  | 45 => ⟨S8000000, .f32⟩
  | 46 => ⟨S_, .f32⟩
  | 47 => ⟨S_, .f32⟩
  | 48 => ⟨S8000000, .f32⟩
  | 49 => ⟨S8000000, .f32⟩
  | 50 => ⟨S_, .f32⟩
  | 51 => ⟨S1000000, .f32⟩
  | 52 => ⟨S8000000x1, .i32⟩
  | 53 => ⟨S1000000, .f32⟩
  | 54 => ⟨S8000000, .f32⟩
  | 55 => ⟨S_, .f32⟩
  | 56 => ⟨S1000000, .f32⟩
  | 57 => ⟨S8000000x1, .i32⟩
  | 58 => ⟨S1000000, .f32⟩
  | 59 => ⟨S_, .f32⟩
  | 60 => ⟨S1000000, .f32⟩
  | 61 => ⟨S1000000, .f32⟩
  | 62 => ⟨S1000000, .f32⟩
  | 63 => ⟨S1000000, .f32⟩
  | 64 => ⟨S8000000x1, .f32⟩
  | 65 => ⟨S8000000, .f32⟩
  | 66 => ⟨S_, .f32⟩
  | 67 => ⟨S_, .f32⟩
  | 68 => ⟨S8000000, .f32⟩
  | 69 => ⟨S8000000, .f32⟩
  | 70 => ⟨S_, .i32⟩
  | 71 => ⟨S8000000, .i32⟩
  | 72 => ⟨S8000000, .i1⟩
  | 73 => ⟨S_, .i32⟩
  | 74 => ⟨S8000000, .i32⟩
  | 75 => ⟨S8000000, .i32⟩
  | 76 => ⟨S8000000, .i32⟩
  | 77 => ⟨S8000000x1, .i32⟩
  | 78 => ⟨S8000000, .f32⟩
  | 79 => ⟨S_, .i32⟩
  | 80 => ⟨S8000000, .i32⟩
  | 81 => ⟨S8000000, .i1⟩
  | 82 => ⟨S_, .i32⟩
  | 83 => ⟨S8000000, .i32⟩
  | 84 => ⟨S8000000, .i32⟩
  | 85 => ⟨S8000000, .i32⟩
  | 86 => ⟨S8000000x1, .i32⟩
  | 87 => ⟨S8000000, .f32⟩
  | 88 => ⟨S8000000, .f32⟩
  | 89 => ⟨S8000000, .f32⟩
  | 90 => ⟨S_, .f32⟩
  | 91 => ⟨S_, .f32⟩
  | 92 => ⟨S8000000, .f32⟩
  | 93 => ⟨S8000000, .f32⟩
  | 94 => ⟨S_, .f32⟩
  | 95 => ⟨S1000000, .f32⟩
  | 96 => ⟨S8000000x1, .i32⟩
  | 97 => ⟨S1000000, .f32⟩
  | 98 => ⟨S8000000, .f32⟩
  | 99 => ⟨S_, .f32⟩
  | 100 => ⟨S1000000, .f32⟩
  | 101 => ⟨S8000000x1, .i32⟩
  | 102 => ⟨S1000000, .f32⟩
  | 103 => ⟨S_, .f32⟩
  | 104 => ⟨S1000000, .f32⟩
  | 105 => ⟨S1000000, .f32⟩
  | 106 => ⟨S1000000, .f32⟩
  | 107 => ⟨S1000000x1, .f32⟩
  | 108 => ⟨S1000000x1, .f32⟩
  | 109 => ⟨S1000000x2, .f32⟩
  | 110 => ⟨S1000000x2, .f32⟩
  | 111 => ⟨S1000000x2, .f32⟩
  | 112 => ⟨S1000000x1, .f32⟩
  | 113 => ⟨S1000000, .f32⟩
  | 114 => ⟨S8000000x1, .f32⟩
  | 115 => ⟨S8000000, .f32⟩
  | 116 => ⟨S_, .f32⟩
  | 117 => ⟨S_, .f32⟩
  | 118 => ⟨S8000000, .f32⟩
  | 119 => ⟨S8000000, .f32⟩
  | 120 => ⟨S_, .i32⟩
  | 121 => ⟨S8000000, .i32⟩
  | 122 => ⟨S8000000, .i1⟩
  | 123 => ⟨S_, .i32⟩
  | 124 => ⟨S8000000, .i32⟩
  | 125 => ⟨S8000000, .i32⟩
  | 126 => ⟨S8000000, .i32⟩
  | 127 => ⟨S8000000x1, .i32⟩
  | _ => ⟨S1000000x1, .f32⟩

abbrev hbmTy0_1 (i : Nat) : BufTy := match i % 128 with
  | 0 => ⟨S8000000, .f32⟩
  | 1 => ⟨S_, .i32⟩
  | 2 => ⟨S8000000, .i32⟩
  | 3 => ⟨S8000000, .i1⟩
  | 4 => ⟨S_, .i32⟩
  | 5 => ⟨S8000000, .i32⟩
  | 6 => ⟨S8000000, .i32⟩
  | 7 => ⟨S8000000, .i32⟩
  | 8 => ⟨S8000000x1, .i32⟩
  | 9 => ⟨S8000000, .f32⟩
  | 10 => ⟨S8000000, .f32⟩
  | 11 => ⟨S8000000, .f32⟩
  | 12 => ⟨S_, .f32⟩
  | 13 => ⟨S_, .f32⟩
  | 14 => ⟨S8000000, .f32⟩
  | 15 => ⟨S8000000, .f32⟩
  | 16 => ⟨S_, .f32⟩
  | 17 => ⟨S1000000, .f32⟩
  | 18 => ⟨S8000000x1, .i32⟩
  | 19 => ⟨S1000000, .f32⟩
  | 20 => ⟨S8000000, .f32⟩
  | 21 => ⟨S_, .f32⟩
  | 22 => ⟨S1000000, .f32⟩
  | 23 => ⟨S8000000x1, .i32⟩
  | 24 => ⟨S1000000, .f32⟩
  | 25 => ⟨S_, .f32⟩
  | 26 => ⟨S1000000, .f32⟩
  | 27 => ⟨S1000000, .f32⟩
  | 28 => ⟨S1000000, .f32⟩
  | 29 => ⟨S1000000x1, .f32⟩
  | 30 => ⟨S1000000, .f32⟩
  | 31 => ⟨S8000000x1, .f32⟩
  | 32 => ⟨S8000000, .f32⟩
  | 33 => ⟨S_, .f32⟩
  | 34 => ⟨S_, .f32⟩
  | 35 => ⟨S8000000, .f32⟩
  | 36 => ⟨S8000000, .f32⟩
  | 37 => ⟨S_, .i32⟩
  | 38 => ⟨S8000000, .i32⟩
  | 39 => ⟨S8000000, .i1⟩
  | 40 => ⟨S_, .i32⟩
  | 41 => ⟨S8000000, .i32⟩
  | 42 => ⟨S8000000, .i32⟩
  | 43 => ⟨S8000000, .i32⟩
  | 44 => ⟨S8000000x1, .i32⟩
  | 45 => ⟨S8000000, .f32⟩
  | 46 => ⟨S_, .i32⟩
  | 47 => ⟨S8000000, .i32⟩
  | 48 => ⟨S8000000, .i1⟩
  | 49 => ⟨S_, .i32⟩
  | 50 => ⟨S8000000, .i32⟩
  | 51 => ⟨S8000000, .i32⟩
  | 52 => ⟨S8000000, .i32⟩
  | 53 => ⟨S8000000x1, .i32⟩
  | 54 => ⟨S8000000, .f32⟩
  | 55 => ⟨S8000000, .f32⟩
  | 56 => ⟨S8000000, .f32⟩
  | 57 => ⟨S_, .f32⟩
  | 58 => ⟨S_, .f32⟩
  | 59 => ⟨S8000000, .f32⟩
  | 60 => ⟨S8000000, .f32⟩
  | 61 => ⟨S_, .f32⟩
  | 62 => ⟨S1000000, .f32⟩
  | 63 => ⟨S8000000x1, .i32⟩
  | 64 => ⟨S1000000, .f32⟩
  | 65 => ⟨S8000000, .f32⟩
  | 66 => ⟨S_, .f32⟩
  | 67 => ⟨S1000000, .f32⟩
  | 68 => ⟨S8000000x1, .i32⟩
  | 69 => ⟨S1000000, .f32⟩
  | 70 => ⟨S_, .f32⟩
  | 71 => ⟨S1000000, .f32⟩
  | 72 => ⟨S1000000, .f32⟩
  | 73 => ⟨S1000000, .f32⟩
  | 74 => ⟨S1000000, .f32⟩
  | 75 => ⟨S_, .f32⟩
  | 76 => ⟨S1000000, .f32⟩
  | 77 => ⟨S1000000, .f32⟩
  | 78 => ⟨S1000000, .f32⟩
  | 79 => ⟨S_, .f32⟩
  | 80 => ⟨S1000000, .f32⟩
  | 81 => ⟨S1000000, .f32⟩
  | 82 => ⟨S1000000, .f32⟩
  | _ => ⟨S1000000x1, .f32⟩

abbrev hbmTy (i : Nat) : BufTy := match i / 128 with
  | 0 => hbmTy0_0 i
  | 1 => hbmTy0_1 i
  | _ => ⟨S1000000x1, .f32⟩

abbrev bufTy : (tb : Table) → Fin (tcTables nBuf tb) → BufTy
  | .hbm, ⟨i, _⟩ => hbmTy i
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_c_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v63 : Ref sig .tc := ⟨.hbm, 93, rfl⟩
abbrev main_cst_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_call4_v0 : Ref sig .tc := ⟨.hbm, 117, rfl⟩
abbrev main_call4_v1 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_21 : Ref sig .tc := ⟨.hbm, 129, rfl⟩
abbrev main_v91 : Ref sig .tc := ⟨.hbm, 130, rfl⟩
abbrev main_v92 : Ref sig .tc := ⟨.hbm, 131, rfl⟩
abbrev main_c_22 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_23 : Ref sig .tc := ⟨.hbm, 140, rfl⟩
abbrev main_call5_v0 : Ref sig .tc := ⟨.hbm, 141, rfl⟩
abbrev main_call5_v1 : Ref sig .tc := ⟨.hbm, 142, rfl⟩
abbrev main_v100 : Ref sig .tc := ⟨.hbm, 143, rfl⟩
abbrev main_cst_24 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_25 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_26 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_27 : Ref sig .tc := ⟨.hbm, 161, rfl⟩
abbrev main_call6_v0 : Ref sig .tc := ⟨.hbm, 162, rfl⟩
abbrev main_call6_v1 : Ref sig .tc := ⟨.hbm, 163, rfl⟩
abbrev main_v115 : Ref sig .tc := ⟨.hbm, 164, rfl⟩
abbrev main_c_28 : Ref sig .tc := ⟨.hbm, 165, rfl⟩
abbrev main_v116 : Ref sig .tc := ⟨.hbm, 166, rfl⟩
abbrev main_v117 : Ref sig .tc := ⟨.hbm, 167, rfl⟩
abbrev main_c_29 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_30 : Ref sig .tc := ⟨.hbm, 174, rfl⟩
abbrev main_v123 : Ref sig .tc := ⟨.hbm, 175, rfl⟩
abbrev main_v124 : Ref sig .tc := ⟨.hbm, 176, rfl⟩
abbrev main_c_31 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_32 : Ref sig .tc := ⟨.hbm, 185, rfl⟩
abbrev main_call7_v0 : Ref sig .tc := ⟨.hbm, 186, rfl⟩
abbrev main_call7_v1 : Ref sig .tc := ⟨.hbm, 187, rfl⟩
abbrev main_v132 : Ref sig .tc := ⟨.hbm, 188, rfl⟩
abbrev main_cst_33 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_34 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_35 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_36 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_37 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  slices_S8000000x2_S8000000x1_0_0 : S8000000x2.Slices ![0, 0] S8000000x1
  shapeCasts_S8000000x1_S8000000 : S8000000x1.ShapeCasts S8000000
  bcast_S_S8000000 : S_.BroadcastsInDim S8000000 (![] : Fin 0 → Fin S8000000.rank)
  slices_S8000000x2_S8000000x1_0_1 : S8000000x2.Slices ![0, 1] S8000000x1
  shapeCasts_S1000000x1_S1000000 : S1000000x1.ShapeCasts S1000000
  bcast_S8000000_S8000000x1_0 : S8000000.BroadcastsInDim S8000000x1 (![0] : Fin 1 → Fin S8000000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S1000000x1_S1000000x2_0_1 : S1000000x1.BroadcastsInDim S1000000x2 (![0, 1] : Fin 2 → Fin S1000000x2.rank)
  slices_S1000000x2_S1000000x1_0_0 : S1000000x2.Slices ![0, 0] S1000000x1
  slices_S1000000x2_S1000000x1_0_1 : S1000000x2.Slices ![0, 1] S1000000x1
  gather_S1000000_S8000000x1_S8000000_n_0_n_n_0_1_1_wf : GatherDims.WF S1000000 S8000000x1 S8000000 [] [0] [] [0] [] 1 ![1]
  scatter_S1000000_S8000000x1_S8000000_n_0_0_1_wf : ScatterDims.WF S1000000 S8000000x1 S8000000 [] [0] [0] 1

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000_S8000000x1_S8000000_n_0_0_1 : ScatterDims S1000000 S8000000x1 S8000000 where
  updateWindowDims := []
  insertedWindowDims := [0]
  scatterDimsToOperandDims := [0]
  indexVectorDim := 1
  wf := scatter_S1000000_S8000000x1_S8000000_n_0_0_1_wf

class Facts : Prop extends Facts₀ where

variable [Facts]
-- ==== Proof.KBody0.lean ====
/-
  Region 0 (the first message pass) of `Kernel`: what the body leaves in its staging buffers, its triple,
  the proof data of the pipeline and the body obligation at a generic grid point.

  The body reads its four input blocks whole (source values, destination values, the two attribute planes) and
  stores two blocks: for each attribute plane `a`, elementwise, `(xs - xd) / a` where `a ≠ 0` and `0` elsewhere.
  The edge blocks of the 62500-row arrays overhang them (62500 = 20 · 3072 + 1060): past the array's end a
  staging buffer holds words nothing names, so every statement below is about the rows inside the array only,
  and the filler past them is a word the proof picks.
-/
import proofs.«108219_j35407710388663_2_alg».proof.Proof.Gen.Kernel.Launch
import proofs.«108219_j35407710388663_2_alg».proof.Proof.Gen.Kernel.Skeleton
import proofs.«108219_j35407710388663_2_alg».proof.Proof.Gen.Kernel.Points
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- The word the proof puts past the array's end, where nothing is read. -/
abbrev zfill : S3072x128.Idx → Elt F .f32 := fun _ => Scalar.ofBits .f32 0#32

/-! ## What the body leaves in each output buffer -/

abbrev r0 : Rect S3072x128 := Rect.unit (s := S3072x128) ![0, 0] S3072x128.size inb_S3072x128_S3072x128_0_0

/-- The first result's buffer after the body, from the contents of the input buffers: its one whole store. -/
def out0_4 (x0 x1 x2 : Vec F S3072x128 .f32) : Vec F S3072x128 .f32 :=
  View.canon [⟨r0, k0_pay2 (View.ld x0 r0) (View.ld x1 r0) (View.ld x2 r0)⟩]
/-- The second result's. -/
def out0_5 (x0 x1 x3 : Vec F S3072x128 .f32) : Vec F S3072x128 .f32 :=
  View.canon [⟨r0, k0_pay3 (View.ld x0 r0) (View.ld x1 r0) (View.ld x3 r0)⟩]

/-- A whole store covers the buffer. -/
theorem cover0 (p0 : Vec F S3072x128 .f32) (y : S3072x128.Idx) :
    ∃ pc ∈ ([⟨r0, p0⟩] : List (View.Piece (Elt F) S3072x128 .f32)), y ∈ pc.1.set :=
  View.cover_of_tiled [⟨r0, p0⟩] S3072x128.size (by rfl) y

/-! ## The body's triple -/

set_option maxHeartbeats 4000000 in
/-- On whole staging memrefs, the inputs' at contents `x0 … x3` and the results' at anything, the body runs to its
    continuation with the inputs' as they were and the results' at `out0_4`, `out0_5` of them. -/
theorem sound_kernel0 (c : Dev nD) (E : Set ℕ) (i : grid0.Coords)
    (a1 : Memref sig .tc .vmem S3072x128 .f32) (h1 : a1.IsWhole) (a2 : Memref sig .tc .vmem S3072x128 .f32) (h2 : a2.IsWhole)
    (a3 : Memref sig .tc .vmem S3072x128 .f32) (h3 : a3.IsWhole) (a4 : Memref sig .tc .vmem S3072x128 .f32) (h4 : a4.IsWhole)
    (a5 : Memref sig .tc .vmem S3072x128 .f32) (h5 : a5.IsWhole) (a6 : Memref sig .tc .vmem S3072x128 .f32) (h6 : a6.IsWhole)
    (x0 x1 x2 x3 : Vec F S3072x128 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d) ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (out0_4 x0 x1 x2) ∗ owns (c : Thread nD τ) a6 fullShare (out0_5 x0 x1 x3)) -∗ K ⟨⟩))
      ⊢ wp frame (wpE (defs₀ (F := F)) Variants.none c none) E (cc0__msg_pass1_kernel i a1 h1 a2 h2 a3 h3 a4 h4 a5 h5 a6 h6) K := by
  simp only [cc0__msg_pass1_kernel_eq_skeleton]; unfold cc0__msg_pass1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  · iexists _; isplitr
    swap; · iexact H5
    ipureintro
    exact View.read_writes_eq_canon _ _ _ (cover0 _)

/-! ## The stores are pointwise -/

/-- One edge's message: the difference over the attribute where the attribute is not zero, zero where it is. -/
def msgS (x y a : F .f32) : F .f32 :=
  Scalar.select (FloatOps.cmpf .one a (Scalar.ofBits .f32 0x00000000#32))
    (FloatOps.divf (FloatOps.subf x y)
      (Scalar.select (FloatOps.cmpf .one a (Scalar.ofBits .f32 0x00000000#32)) a (Scalar.ofBits .f32 0x3F800000#32)))
    (Scalar.ofBits .f32 0x00000000#32)

theorem hz2 : (![0, 0] : Fin 2 → Nat) = fun _ => 0 := funext fun a => by fin_cases a <;> rfl

/-- The first result at an element is the message of the three inputs' elements there. -/
theorem out0_4_apply (x0 x1 x2 : Vec F S3072x128 .f32) (j : S3072x128.Idx) :
    out0_4 x0 x1 x2 j = msgS (x0 j) (x1 j) (x2 j) := by
  unfold out0_4
  rw [View.canon_unit_zero hz2]
  simp only [View.ld_unit_zero (S := S3072x128) hz2, k0_pay2, k0_pay1, shapeCast_self]
  rfl
/-- The second result's likewise. -/
theorem out0_5_apply (x0 x1 x3 : Vec F S3072x128 .f32) (j : S3072x128.Idx) :
    out0_5 x0 x1 x3 j = msgS (x0 j) (x1 j) (x3 j) := by
  unfold out0_5
  rw [View.canon_unit_zero hz2]
  simp only [View.ld_unit_zero (S := S3072x128) hz2, k0_pay3, k0_pay1, shapeCast_self]
  rfl

/-! ## The proof data -/

/-- The four input blocks at point `t`, their part inside the array (all six windows cut alike: one block shape). -/
def ib0_0 (c : Dev nD) (t : Fin cfg0.N) : (win0_0.xblock (grid0.coords t)).Idx → Elt F .f32 :=
  (win0_0.blk t).view.read (Elt F) (V c main_v17)
def ib0_1 (c : Dev nD) (t : Fin cfg0.N) : (win0_0.xblock (grid0.coords t)).Idx → Elt F .f32 :=
  (win0_1.blk t).view.read (Elt F) (V c main_v25)
def ib0_2 (c : Dev nD) (t : Fin cfg0.N) : (win0_0.xblock (grid0.coords t)).Idx → Elt F .f32 :=
  (win0_2.blk t).view.read (Elt F) (V c main_v26)
def ib0_3 (c : Dev nD) (t : Fin cfg0.N) : (win0_0.xblock (grid0.coords t)).Idx → Elt F .f32 :=
  (win0_3.blk t).view.read (Elt F) (V c main_v27)

/-- A block filled out to the staging buffer's shape with `d` past the array's end. -/
abbrev fb0 (t : Fin cfg0.N) (d : S3072x128.Idx → Elt F .f32) (b : (win0_0.xblock (grid0.coords t)).Idx → Elt F .f32) :
    S3072x128.Idx → Elt F .f32 := win0_0.fill (grid0.coords t) d b

/-- The proof data of the first pipeline on core `c`: the arrays as the region finds them; after the body at point `t`
    each input's buffer at its block and each result's at the messages of the blocks (filled out past the array's end with
    a word nothing reads); the scoped rest and the generator register as invariant; nothing owed; full shares. -/
def dat0 (c : Dev nD) : Dat τ (Elt F) Unit ℕ (UR sig nD τ) ℕ cfg0 c where
  A w := V c (Pipeline.arrRef spec0 w)
  after w t := match w with
    | ⟨0, _⟩ => fb0 t zfill (ib0_0 V c t)
    | ⟨1, _⟩ => fb0 t zfill (ib0_1 V c t)
    | ⟨2, _⟩ => fb0 t zfill (ib0_2 V c t)
    | ⟨3, _⟩ => fb0 t zfill (ib0_3 V c t)
    | ⟨4, _⟩ => out0_4 (fb0 t zfill (ib0_0 V c t)) (fb0 t zfill (ib0_1 V c t)) (fb0 t zfill (ib0_2 V c t))
    | ⟨5, _⟩ => out0_5 (fb0 t zfill (ib0_0 V c t)) (fb0 t zfill (ib0_1 V c t)) (fb0 t zfill (ib0_3 V c t))
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body finds: an input's buffer just fetched — its block on the rows inside the array, `d` elsewhere. -/
theorem before0_0 (c : Dev nD) (t : Fin cfg0.N) (d) : (dat0 V c).before 0 t d = fb0 t d (ib0_0 V c t) := by
  unfold Dat.before; rw [if_pos (fetch0_0 t)]; rfl
theorem before0_1 (c : Dev nD) (t : Fin cfg0.N) (d) : (dat0 V c).before 1 t d = fb0 t d (ib0_1 V c t) := by
  unfold Dat.before; rw [if_pos (fetch0_1 t)]; rfl
theorem before0_2 (c : Dev nD) (t : Fin cfg0.N) (d) : (dat0 V c).before 2 t d = fb0 t d (ib0_2 V c t) := by
  unfold Dat.before; rw [if_pos (fetch0_2 t)]; rfl
theorem before0_3 (c : Dev nD) (t : Fin cfg0.N) (d) : (dat0 V c).before 3 t d = fb0 t d (ib0_3 V c t) := by
  unfold Dat.before; rw [if_pos (fetch0_3 t)]; rfl

/-- The results' windows are never fetched. -/
theorem nofetch0_4 : ∀ t : Fin cfg0.N, (cfg0.win 4).fetch t = false :=
  (by decide +kernel : ∀ t : Fin grid0.N, win0_4.fetch t = false)
theorem nofetch0_5 : ∀ t : Fin cfg0.N, (cfg0.win 5).fetch t = false :=
  (by decide +kernel : ∀ t : Fin grid0.N, win0_5.fetch t = false)

/-- A result's buffer arrives at contents nothing names: never fetched, written back at every point. -/
theorem before0_4 (c : Dev nD) (t : Fin cfg0.N) (d) : (dat0 V c).before 4 t d = d := by
  unfold Dat.before
  rw [if_neg (by rw [nofetch0_4 t]; exact Bool.false_ne_true)]
  by_cases h0 : t.val = 0
  · rw [if_pos h0]
  · rw [if_neg h0]; exact if_pos (flush0_4 _)
theorem before0_5 (c : Dev nD) (t : Fin cfg0.N) (d) : (dat0 V c).before 5 t d = d := by
  unfold Dat.before
  rw [if_neg (by rw [nofetch0_5 t]; exact Bool.false_ne_true)]
  by_cases h0 : t.val = 0
  · rw [if_pos h0]
  · rw [if_neg h0]; exact if_pos (flush0_5 _)

/-- On the rows inside the array a result does not depend on what fills the inputs' buffers past the array's end. -/
theorem cut_out0_4 (t : Fin cfg0.N) (b0 b1 b2 : (win0_0.xblock (grid0.coords t)).Idx → Elt F .f32)
    (d0 d1 d2 e0 e1 e2 : S3072x128.Idx → Elt F .f32) :
    win0_0.cut (grid0.coords t) (out0_4 (fb0 t d0 b0) (fb0 t d1 b1) (fb0 t d2 b2))
      = win0_0.cut (grid0.coords t) (out0_4 (fb0 t e0 b0) (fb0 t e1 b1) (fb0 t e2 b2)) := by
  funext j
  show out0_4 _ _ _ (win0_0.xinj (grid0.coords t) j) = out0_4 _ _ _ (win0_0.xinj (grid0.coords t) j)
  rw [out0_4_apply, out0_4_apply]
  simp only [fb0, Window.fill_xinj]
theorem cut_out0_5 (t : Fin cfg0.N) (b0 b1 b2 : (win0_0.xblock (grid0.coords t)).Idx → Elt F .f32)
    (d0 d1 d2 e0 e1 e2 : S3072x128.Idx → Elt F .f32) :
    win0_0.cut (grid0.coords t) (out0_5 (fb0 t d0 b0) (fb0 t d1 b1) (fb0 t d2 b2))
      = win0_0.cut (grid0.coords t) (out0_5 (fb0 t e0 b0) (fb0 t e1 b1) (fb0 t e2 b2)) := by
  funext j
  show out0_5 _ _ _ (win0_0.xinj (grid0.coords t) j) = out0_5 _ _ _ (win0_0.xinj (grid0.coords t) j)
  rw [out0_5_apply, out0_5_apply]
  simp only [fb0, Window.fill_xinj]

end Cert.Kernel.Hand

end
-- ==== Proof.KOblig0.lean ====
/-
  The first message pass of `Kernel`: the body obligation at a generic grid point, from the body's triple.
-/
import proofs.«108219_j35407710388663_2_alg».proof.Proof.KBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the proof data say each buffer holds after the body -/

theorem after0_0 (c : Dev nD) (t : Fin cfg0.N) : (dat0 V c).after 0 t = fb0 t zfill (ib0_0 V c t) := by dsimp only [dat0]
theorem after0_1 (c : Dev nD) (t : Fin cfg0.N) : (dat0 V c).after 1 t = fb0 t zfill (ib0_1 V c t) := by dsimp only [dat0]
theorem after0_2 (c : Dev nD) (t : Fin cfg0.N) : (dat0 V c).after 2 t = fb0 t zfill (ib0_2 V c t) := by dsimp only [dat0]
theorem after0_3 (c : Dev nD) (t : Fin cfg0.N) : (dat0 V c).after 3 t = fb0 t zfill (ib0_3 V c t) := by dsimp only [dat0]
theorem after0_4 (c : Dev nD) (t : Fin cfg0.N) : (dat0 V c).after 4 t
    = out0_4 (fb0 t zfill (ib0_0 V c t)) (fb0 t zfill (ib0_1 V c t)) (fb0 t zfill (ib0_2 V c t)) := by dsimp only [dat0]
theorem after0_5 (c : Dev nD) (t : Fin cfg0.N) : (dat0 V c).after 5 t
    = out0_5 (fb0 t zfill (ib0_0 V c t)) (fb0 t zfill (ib0_1 V c t)) (fb0 t zfill (ib0_3 V c t)) := by dsimp only [dat0]

/-- An input's buffer, stated on the rows inside the array, is its block filled out with whatever lies past them. -/
theorem keep0_0 (t : Fin cfg0.N) (d : S3072x128.Idx → Elt F .f32) (b : (win0_0.xblock (grid0.coords t)).Idx → Elt F .f32) :
    (win0 0).fill (grid0.coords t) d ((win0 0).cut (grid0.coords t) (fb0 t zfill b)) = fb0 t d b := by
  show win0_0.fill _ d (win0_0.cut _ (win0_0.fill _ zfill b)) = _; rw [win0_0.cut_fill]
theorem keep0_1 (t : Fin cfg0.N) (d : S3072x128.Idx → Elt F .f32) (b : (win0_0.xblock (grid0.coords t)).Idx → Elt F .f32) :
    (win0 1).fill (grid0.coords t) d ((win0 1).cut (grid0.coords t) (fb0 t zfill b)) = fb0 t d b := by
  show win0_0.fill _ d (win0_0.cut _ (win0_0.fill _ zfill b)) = _; rw [win0_0.cut_fill]
theorem keep0_2 (t : Fin cfg0.N) (d : S3072x128.Idx → Elt F .f32) (b : (win0_0.xblock (grid0.coords t)).Idx → Elt F .f32) :
    (win0 2).fill (grid0.coords t) d ((win0 2).cut (grid0.coords t) (fb0 t zfill b)) = fb0 t d b := by
  show win0_0.fill _ d (win0_0.cut _ (win0_0.fill _ zfill b)) = _; rw [win0_0.cut_fill]
theorem keep0_3 (t : Fin cfg0.N) (d : S3072x128.Idx → Elt F .f32) (b : (win0_0.xblock (grid0.coords t)).Idx → Elt F .f32) :
    (win0 3).fill (grid0.coords t) d ((win0 3).cut (grid0.coords t) (fb0 t zfill b)) = fb0 t d b := by
  show win0_0.fill _ d (win0_0.cut _ (win0_0.fill _ zfill b)) = _; rw [win0_0.cut_fill]
/-- A result's buffer, stated on the rows inside the array, is what the body stored. -/
theorem keep0_4 (t : Fin cfg0.N) (b0 b1 b2 : (win0_0.xblock (grid0.coords t)).Idx → Elt F .f32) (d0 d1 d2 : S3072x128.Idx → Elt F .f32) :
    (win0 4).fill (grid0.coords t) (out0_4 (fb0 t d0 b0) (fb0 t d1 b1) (fb0 t d2 b2))
        ((win0 4).cut (grid0.coords t) (out0_4 (fb0 t zfill b0) (fb0 t zfill b1) (fb0 t zfill b2)))
      = out0_4 (fb0 t d0 b0) (fb0 t d1 b1) (fb0 t d2 b2) :=
  (win0 4).fill_congr_cut (grid0.coords t) (cut_out0_4 t b0 b1 b2 d0 d1 d2 zfill zfill zfill)
theorem keep0_5 (t : Fin cfg0.N) (b0 b1 b2 : (win0_0.xblock (grid0.coords t)).Idx → Elt F .f32) (d0 d1 d2 : S3072x128.Idx → Elt F .f32) :
    (win0 5).fill (grid0.coords t) (out0_5 (fb0 t d0 b0) (fb0 t d1 b1) (fb0 t d2 b2))
        ((win0 5).cut (grid0.coords t) (out0_5 (fb0 t zfill b0) (fb0 t zfill b1) (fb0 t zfill b2)))
      = out0_5 (fb0 t d0 b0) (fb0 t d1 b1) (fb0 t d2 b2) :=
  (win0 5).fill_congr_cut (grid0.coords t) (cut_out0_5 t b0 b1 b2 d0 d1 d2 zfill zfill zfill)

/-! ## The body obligation -/

set_option maxHeartbeats 2000000 in
/-- At every point: the inputs' buffers arrive holding their blocks filled out with some `d`, the results' holding
    anything; the body leaves the inputs' as they were and the results' at the messages, which on the rows inside the
    array are the proof data's — all that an obligation over windows whose edge blocks overhang states. -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  show _ ⊢ wp frame (wpE (defs₀ (F := F)) Variants.none c none) Set.univ (bodyAt0 (F := F) t) _
  iintro ⟨HΦ, Ho, ⟨%d0, H0⟩, ⟨%d1, H1⟩, ⟨%d2, H2⟩, ⟨%d3, H3⟩, ⟨%d4, H4⟩, ⟨%d5, H5⟩⟩
  rw [before0_0 V c t d0, before0_1 V c t d1, before0_2 V c t d2, before0_3 V c t d3, before0_4 V c t d4, before0_5 V c t d5]
  iapply (sound_kernel0 (F := F) c Set.univ (grid0.coords t) _ _ _ _ _ _ _ _ _ _ _ _
    (fb0 t d0 (ib0_0 V c t)) (fb0 t d1 (ib0_1 V c t)) (fb0 t d2 (ib0_2 V c t)) (fb0 t d3 (ib0_3 V c t)) _)
  isplitl [H0]; · iexact H0
  isplitl [H1]; · iexact H1
  isplitl [H2]; · iexact H2
  isplitl [H3]; · iexact H3
  isplitl [H4]; · iexists d4; iexact H4
  isplitl [H5]; · iexists d5; iexact H5
  iintro ⟨H0, H1, H2, H3, H4, H5⟩
  isplitl [HΦ]; · iexact HΦ
  isplitl [Ho]; · iexact Ho
  rw [after0_0 V c t, after0_1 V c t, after0_2 V c t, after0_3 V c t, after0_4 V c t, after0_5 V c t]
  isplitl [H0]
  · iexists d0; rw [keep0_0]; iexact H0
  isplitl [H1]
  · iexists d1; rw [keep0_1]; iexact H1
  isplitl [H2]
  · iexists d2; rw [keep0_2]; iexact H2
  isplitl [H3]
  · iexists d3; rw [keep0_3]; iexact H3
  isplitl [H4]
  · iexists out0_4 (fb0 t d0 (ib0_0 V c t)) (fb0 t d1 (ib0_1 V c t)) (fb0 t d2 (ib0_2 V c t))
    rw [keep0_4]; iexact H4
  · iexists out0_5 (fb0 t d0 (ib0_0 V c t)) (fb0 t d1 (ib0_1 V c t)) (fb0 t d3 (ib0_3 V c t))
    rw [keep0_5]; iexact H5

end Cert.Kernel.Hand

end
-- ==== Proof.KBody1.lean ====
/-
  Region 1 (the second message pass) of `Kernel`: what the body leaves in its staging buffers, its triple,
  the proof data of the pipeline and the body obligation at a generic grid point.

  The body reads six input blocks whole — source and destination values of the first flow component, of the second,
  and the two attribute planes — and stores two blocks: elementwise, for the first component against the first
  attribute plane and for the second against the second, `(s - d) / a` where `a ≠ 0` and `0` elsewhere. The edge
  blocks overhang the arrays as in the first pass, and every statement is about the rows inside the array.
-/
import proofs.«108219_j35407710388663_2_alg».proof.Proof.KOblig0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## What the body leaves in each output buffer -/

/-- The first result's buffer after the body: its one whole store, of the first component's two blocks and the
    first attribute plane's. -/
def out1_6 (x0 x1 x4 : Vec F S3072x128 .f32) : Vec F S3072x128 .f32 :=
  View.canon [⟨r0, k1_pay1 (View.ld x0 r0) (View.ld x1 r0) (View.ld x4 r0)⟩]
/-- The second result's, of the second component's two blocks and the second attribute plane's. -/
def out1_7 (x2 x3 x5 : Vec F S3072x128 .f32) : Vec F S3072x128 .f32 :=
  View.canon [⟨r0, k1_pay2 (View.ld x2 r0) (View.ld x3 r0) (View.ld x5 r0)⟩]

/-! ## The body's triple -/

set_option maxHeartbeats 4000000 in
/-- On whole staging memrefs, the inputs' at contents `x0 … x5` and the results' at anything, the body runs to its
    continuation with the inputs' as they were and the results' at `out1_6`, `out1_7` of them. -/
theorem sound_kernel1 (c : Dev nD) (E : Set ℕ) (i : grid1.Coords)
    (a1 : Memref sig .tc .vmem S3072x128 .f32) (h1 : a1.IsWhole) (a2 : Memref sig .tc .vmem S3072x128 .f32) (h2 : a2.IsWhole) (a3 : Memref sig .tc .vmem S3072x128 .f32) (h3 : a3.IsWhole) (a4 : Memref sig .tc .vmem S3072x128 .f32) (h4 : a4.IsWhole) (a5 : Memref sig .tc .vmem S3072x128 .f32) (h5 : a5.IsWhole) (a6 : Memref sig .tc .vmem S3072x128 .f32) (h6 : a6.IsWhole) (a7 : Memref sig .tc .vmem S3072x128 .f32) (h7 : a7.IsWhole) (a8 : Memref sig .tc .vmem S3072x128 .f32) (h8 : a8.IsWhole)
    (x0 x1 x2 x3 x4 x5 : Vec F S3072x128 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
        ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
            ∗ owns (c : Thread nD τ) a7 fullShare (out1_6 x0 x1 x4) ∗ owns (c : Thread nD τ) a8 fullShare (out1_7 x2 x3 x5)) -∗ K ⟨⟩))
      ⊢ wp frame (wpE (defs₀ (F := F)) Variants.none c none) E (cc1__msg_pass2_kernel i a1 h1 a2 h2 a3 h3 a4 h4 a5 h5 a6 h6 a7 h7 a8 h8) K := by
  simp only [cc1__msg_pass2_kernel_eq_skeleton]; unfold cc1__msg_pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  · iexists _; isplitr
    swap; · iexact H7
    ipureintro
    exact View.read_writes_eq_canon _ _ _ (cover0 _)

/-! ## The stores are pointwise -/

theorem out1_6_apply (x0 x1 x4 : Vec F S3072x128 .f32) (j : S3072x128.Idx) :
    out1_6 x0 x1 x4 j = msgS (x0 j) (x1 j) (x4 j) := by
  unfold out1_6
  rw [View.canon_unit_zero hz2]
  simp only [View.ld_unit_zero (S := S3072x128) hz2, k1_pay1, shapeCast_self]
  rfl
theorem out1_7_apply (x2 x3 x5 : Vec F S3072x128 .f32) (j : S3072x128.Idx) :
    out1_7 x2 x3 x5 j = msgS (x2 j) (x3 j) (x5 j) := by
  unfold out1_7
  rw [View.canon_unit_zero hz2]
  simp only [View.ld_unit_zero (S := S3072x128) hz2, k1_pay2, shapeCast_self]
  rfl

/-! ## The proof data -/

def ib1_0 (c : Dev nD) (t : Fin cfg1.N) : (win1_0.xblock (grid1.coords t)).Idx → Elt F .f32 :=
  (win1_0.blk t).view.read (Elt F) (V c main_v80)
def ib1_1 (c : Dev nD) (t : Fin cfg1.N) : (win1_0.xblock (grid1.coords t)).Idx → Elt F .f32 :=
  (win1_1.blk t).view.read (Elt F) (V c main_v86)
def ib1_2 (c : Dev nD) (t : Fin cfg1.N) : (win1_0.xblock (grid1.coords t)).Idx → Elt F .f32 :=
  (win1_2.blk t).view.read (Elt F) (V c main_v83)
def ib1_3 (c : Dev nD) (t : Fin cfg1.N) : (win1_0.xblock (grid1.coords t)).Idx → Elt F .f32 :=
  (win1_3.blk t).view.read (Elt F) (V c main_v89)
def ib1_4 (c : Dev nD) (t : Fin cfg1.N) : (win1_0.xblock (grid1.coords t)).Idx → Elt F .f32 :=
  (win1_4.blk t).view.read (Elt F) (V c main_v26)
def ib1_5 (c : Dev nD) (t : Fin cfg1.N) : (win1_0.xblock (grid1.coords t)).Idx → Elt F .f32 :=
  (win1_5.blk t).view.read (Elt F) (V c main_v27)

/-- A block filled out to the staging buffer's shape with `d` past the array's end. -/
abbrev fb1 (t : Fin cfg1.N) (d : S3072x128.Idx → Elt F .f32) (b : (win1_0.xblock (grid1.coords t)).Idx → Elt F .f32) :
    S3072x128.Idx → Elt F .f32 := win1_0.fill (grid1.coords t) d b

/-- The proof data of the second pipeline on core `c`, as the first's. -/
def dat1 (c : Dev nD) : Dat τ (Elt F) Unit ℕ (UR sig nD τ) ℕ cfg1 c where
  A w := V c (Pipeline.arrRef spec1 w)
  after w t := match w with
    | ⟨0, _⟩ => fb1 t zfill (ib1_0 V c t)
    | ⟨1, _⟩ => fb1 t zfill (ib1_1 V c t)
    | ⟨2, _⟩ => fb1 t zfill (ib1_2 V c t)
    | ⟨3, _⟩ => fb1 t zfill (ib1_3 V c t)
    | ⟨4, _⟩ => fb1 t zfill (ib1_4 V c t)
    | ⟨5, _⟩ => fb1 t zfill (ib1_5 V c t)
    | ⟨6, _⟩ => out1_6 (fb1 t zfill (ib1_0 V c t)) (fb1 t zfill (ib1_1 V c t)) (fb1 t zfill (ib1_4 V c t))
    | ⟨7, _⟩ => out1_7 (fb1 t zfill (ib1_2 V c t)) (fb1 t zfill (ib1_3 V c t)) (fb1 t zfill (ib1_5 V c t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem before1_0 (c : Dev nD) (t : Fin cfg1.N) (d) : (dat1 V c).before 0 t d = fb1 t d (ib1_0 V c t) := by
  unfold Dat.before; rw [if_pos (fetch1_0 t)]; rfl
theorem before1_1 (c : Dev nD) (t : Fin cfg1.N) (d) : (dat1 V c).before 1 t d = fb1 t d (ib1_1 V c t) := by
  unfold Dat.before; rw [if_pos (fetch1_1 t)]; rfl
theorem before1_2 (c : Dev nD) (t : Fin cfg1.N) (d) : (dat1 V c).before 2 t d = fb1 t d (ib1_2 V c t) := by
  unfold Dat.before; rw [if_pos (fetch1_2 t)]; rfl
theorem before1_3 (c : Dev nD) (t : Fin cfg1.N) (d) : (dat1 V c).before 3 t d = fb1 t d (ib1_3 V c t) := by
  unfold Dat.before; rw [if_pos (fetch1_3 t)]; rfl
theorem before1_4 (c : Dev nD) (t : Fin cfg1.N) (d) : (dat1 V c).before 4 t d = fb1 t d (ib1_4 V c t) := by
  unfold Dat.before; rw [if_pos (fetch1_4 t)]; rfl
theorem before1_5 (c : Dev nD) (t : Fin cfg1.N) (d) : (dat1 V c).before 5 t d = fb1 t d (ib1_5 V c t) := by
  unfold Dat.before; rw [if_pos (fetch1_5 t)]; rfl

theorem nofetch1_6 : ∀ t : Fin cfg1.N, (cfg1.win 6).fetch t = false :=
  (by decide +kernel : ∀ t : Fin grid1.N, win1_6.fetch t = false)
theorem nofetch1_7 : ∀ t : Fin cfg1.N, (cfg1.win 7).fetch t = false :=
  (by decide +kernel : ∀ t : Fin grid1.N, win1_7.fetch t = false)

theorem before1_6 (c : Dev nD) (t : Fin cfg1.N) (d) : (dat1 V c).before 6 t d = d := by
  unfold Dat.before
  rw [if_neg (by rw [nofetch1_6 t]; exact Bool.false_ne_true)]
  by_cases h0 : t.val = 0
  · rw [if_pos h0]
  · rw [if_neg h0]; exact if_pos (flush1_6 _)
theorem before1_7 (c : Dev nD) (t : Fin cfg1.N) (d) : (dat1 V c).before 7 t d = d := by
  unfold Dat.before
  rw [if_neg (by rw [nofetch1_7 t]; exact Bool.false_ne_true)]
  by_cases h0 : t.val = 0
  · rw [if_pos h0]
  · rw [if_neg h0]; exact if_pos (flush1_7 _)

theorem cut_out1_6 (t : Fin cfg1.N) (b0 b1 b2 : (win1_0.xblock (grid1.coords t)).Idx → Elt F .f32)
    (d0 d1 d2 e0 e1 e2 : S3072x128.Idx → Elt F .f32) :
    win1_0.cut (grid1.coords t) (out1_6 (fb1 t d0 b0) (fb1 t d1 b1) (fb1 t d2 b2))
      = win1_0.cut (grid1.coords t) (out1_6 (fb1 t e0 b0) (fb1 t e1 b1) (fb1 t e2 b2)) := by
  funext j
  show out1_6 _ _ _ (win1_0.xinj (grid1.coords t) j) = out1_6 _ _ _ (win1_0.xinj (grid1.coords t) j)
  rw [out1_6_apply, out1_6_apply]
  simp only [fb1, Window.fill_xinj]
theorem cut_out1_7 (t : Fin cfg1.N) (b0 b1 b2 : (win1_0.xblock (grid1.coords t)).Idx → Elt F .f32)
    (d0 d1 d2 e0 e1 e2 : S3072x128.Idx → Elt F .f32) :
    win1_0.cut (grid1.coords t) (out1_7 (fb1 t d0 b0) (fb1 t d1 b1) (fb1 t d2 b2))
      = win1_0.cut (grid1.coords t) (out1_7 (fb1 t e0 b0) (fb1 t e1 b1) (fb1 t e2 b2)) := by
  funext j
  show out1_7 _ _ _ (win1_0.xinj (grid1.coords t) j) = out1_7 _ _ _ (win1_0.xinj (grid1.coords t) j)
  rw [out1_7_apply, out1_7_apply]
  simp only [fb1, Window.fill_xinj]

end Cert.Kernel.Hand

end
-- ==== Proof.KOblig1.lean ====
/-
  The second message pass of `Kernel`: the body obligation at a generic grid point, from the body's triple.
-/
import proofs.«108219_j35407710388663_2_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the proof data say each buffer holds after the body -/

theorem after1_0 (c : Dev nD) (t : Fin cfg1.N) : (dat1 V c).after 0 t = fb1 t zfill (ib1_0 V c t) := by dsimp only [dat1]
theorem after1_1 (c : Dev nD) (t : Fin cfg1.N) : (dat1 V c).after 1 t = fb1 t zfill (ib1_1 V c t) := by dsimp only [dat1]
theorem after1_2 (c : Dev nD) (t : Fin cfg1.N) : (dat1 V c).after 2 t = fb1 t zfill (ib1_2 V c t) := by dsimp only [dat1]
theorem after1_3 (c : Dev nD) (t : Fin cfg1.N) : (dat1 V c).after 3 t = fb1 t zfill (ib1_3 V c t) := by dsimp only [dat1]
theorem after1_4 (c : Dev nD) (t : Fin cfg1.N) : (dat1 V c).after 4 t = fb1 t zfill (ib1_4 V c t) := by dsimp only [dat1]
theorem after1_5 (c : Dev nD) (t : Fin cfg1.N) : (dat1 V c).after 5 t = fb1 t zfill (ib1_5 V c t) := by dsimp only [dat1]
theorem after1_6 (c : Dev nD) (t : Fin cfg1.N) : (dat1 V c).after 6 t
    = out1_6 (fb1 t zfill (ib1_0 V c t)) (fb1 t zfill (ib1_1 V c t)) (fb1 t zfill (ib1_4 V c t)) := by dsimp only [dat1]
theorem after1_7 (c : Dev nD) (t : Fin cfg1.N) : (dat1 V c).after 7 t
    = out1_7 (fb1 t zfill (ib1_2 V c t)) (fb1 t zfill (ib1_3 V c t)) (fb1 t zfill (ib1_5 V c t)) := by dsimp only [dat1]

theorem keep1_0 (t : Fin cfg1.N) (d : S3072x128.Idx → Elt F .f32) (b : (win1_0.xblock (grid1.coords t)).Idx → Elt F .f32) :
    (win1 0).fill (grid1.coords t) d ((win1 0).cut (grid1.coords t) (fb1 t zfill b)) = fb1 t d b := by
  show win1_0.fill _ d (win1_0.cut _ (win1_0.fill _ zfill b)) = _; rw [win1_0.cut_fill]
theorem keep1_1 (t : Fin cfg1.N) (d : S3072x128.Idx → Elt F .f32) (b : (win1_0.xblock (grid1.coords t)).Idx → Elt F .f32) :
    (win1 1).fill (grid1.coords t) d ((win1 1).cut (grid1.coords t) (fb1 t zfill b)) = fb1 t d b := by
  show win1_0.fill _ d (win1_0.cut _ (win1_0.fill _ zfill b)) = _; rw [win1_0.cut_fill]
theorem keep1_2 (t : Fin cfg1.N) (d : S3072x128.Idx → Elt F .f32) (b : (win1_0.xblock (grid1.coords t)).Idx → Elt F .f32) :
    (win1 2).fill (grid1.coords t) d ((win1 2).cut (grid1.coords t) (fb1 t zfill b)) = fb1 t d b := by
  show win1_0.fill _ d (win1_0.cut _ (win1_0.fill _ zfill b)) = _; rw [win1_0.cut_fill]
theorem keep1_3 (t : Fin cfg1.N) (d : S3072x128.Idx → Elt F .f32) (b : (win1_0.xblock (grid1.coords t)).Idx → Elt F .f32) :
    (win1 3).fill (grid1.coords t) d ((win1 3).cut (grid1.coords t) (fb1 t zfill b)) = fb1 t d b := by
  show win1_0.fill _ d (win1_0.cut _ (win1_0.fill _ zfill b)) = _; rw [win1_0.cut_fill]
theorem keep1_4 (t : Fin cfg1.N) (d : S3072x128.Idx → Elt F .f32) (b : (win1_0.xblock (grid1.coords t)).Idx → Elt F .f32) :
    (win1 4).fill (grid1.coords t) d ((win1 4).cut (grid1.coords t) (fb1 t zfill b)) = fb1 t d b := by
  show win1_0.fill _ d (win1_0.cut _ (win1_0.fill _ zfill b)) = _; rw [win1_0.cut_fill]
theorem keep1_5 (t : Fin cfg1.N) (d : S3072x128.Idx → Elt F .f32) (b : (win1_0.xblock (grid1.coords t)).Idx → Elt F .f32) :
    (win1 5).fill (grid1.coords t) d ((win1 5).cut (grid1.coords t) (fb1 t zfill b)) = fb1 t d b := by
  show win1_0.fill _ d (win1_0.cut _ (win1_0.fill _ zfill b)) = _; rw [win1_0.cut_fill]
theorem keep1_6 (t : Fin cfg1.N) (b0 b1 b2 : (win1_0.xblock (grid1.coords t)).Idx → Elt F .f32) (d0 d1 d2 : S3072x128.Idx → Elt F .f32) :
    (win1 6).fill (grid1.coords t) (out1_6 (fb1 t d0 b0) (fb1 t d1 b1) (fb1 t d2 b2))
        ((win1 6).cut (grid1.coords t) (out1_6 (fb1 t zfill b0) (fb1 t zfill b1) (fb1 t zfill b2)))
      = out1_6 (fb1 t d0 b0) (fb1 t d1 b1) (fb1 t d2 b2) :=
  (win1 6).fill_congr_cut (grid1.coords t) (cut_out1_6 t b0 b1 b2 d0 d1 d2 zfill zfill zfill)
theorem keep1_7 (t : Fin cfg1.N) (b0 b1 b2 : (win1_0.xblock (grid1.coords t)).Idx → Elt F .f32) (d0 d1 d2 : S3072x128.Idx → Elt F .f32) :
    (win1 7).fill (grid1.coords t) (out1_7 (fb1 t d0 b0) (fb1 t d1 b1) (fb1 t d2 b2))
        ((win1 7).cut (grid1.coords t) (out1_7 (fb1 t zfill b0) (fb1 t zfill b1) (fb1 t zfill b2)))
      = out1_7 (fb1 t d0 b0) (fb1 t d1 b1) (fb1 t d2 b2) :=
  (win1 7).fill_congr_cut (grid1.coords t) (cut_out1_7 t b0 b1 b2 d0 d1 d2 zfill zfill zfill)

/-! ## The body obligation -/

set_option maxHeartbeats 2000000 in
/-- At every point, as for the first pass: the inputs' buffers arrive holding their blocks filled out with some `d`, the
    results' holding anything; the body leaves the inputs' as they were and the results' at the messages. -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  show _ ⊢ wp frame (wpE (defs₀ (F := F)) Variants.none c none) Set.univ (bodyAt1 (F := F) t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before1_0 V c t d0, before1_1 V c t d1, before1_2 V c t d2, before1_3 V c t d3, before1_4 V c t d4, before1_5 V c t d5, before1_6 V c t d6, before1_7 V c t d7]
  iapply (sound_kernel1 (F := F) c Set.univ (grid1.coords t) _ _ _ _ _ _ _ _ _ _ _ _ _ _ _ _
    (fb1 t d0 (ib1_0 V c t)) (fb1 t d1 (ib1_1 V c t)) (fb1 t d2 (ib1_2 V c t)) (fb1 t d3 (ib1_3 V c t)) (fb1 t d4 (ib1_4 V c t)) (fb1 t d5 (ib1_5 V c t)) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  iintro ⟨H0, H1, H2, H3, H4, H5, H6, H7⟩
  isplitl [HΦ]; · iexact HΦ
  isplitl [Ho]; · iexact Ho
  rw [after1_0 V c t, after1_1 V c t, after1_2 V c t, after1_3 V c t, after1_4 V c t, after1_5 V c t, after1_6 V c t, after1_7 V c t]
  isplitl [H0]
  · iexists d0; rw [keep1_0]; iexact H0
  isplitl [H1]
  · iexists d1; rw [keep1_1]; iexact H1
  isplitl [H2]
  · iexists d2; rw [keep1_2]; iexact H2
  isplitl [H3]
  · iexists d3; rw [keep1_3]; iexact H3
  isplitl [H4]
  · iexists d4; rw [keep1_4]; iexact H4
  isplitl [H5]
  · iexists d5; rw [keep1_5]; iexact H5
  isplitl [H6]
  · iexists out1_6 (fb1 t d0 (ib1_0 V c t)) (fb1 t d1 (ib1_1 V c t)) (fb1 t d4 (ib1_4 V c t))
    rw [keep1_6]; iexact H6
  · iexists out1_7 (fb1 t d2 (ib1_2 V c t)) (fb1 t d3 (ib1_3 V c t)) (fb1 t d5 (ib1_5 V c t))
    rw [keep1_7]; iexact H7

end Cert.Kernel.Hand

end
-- ==== Proof.KRun.lean ====
/-
  The run of `Kernel`'s @main: three stretches of host operations around two kernel regions. Between two
  segments the TensorCore holds every unscoped buffer at contents computed from the launch memory — a stretch applies its
  operations' functions, a region leaves its input arrays as entered and each result array at its write-backs folded in
  grid order — beside the generator register and nothing owed. Every weakly fair execution terminates, nothing faulting,
  and every unscoped buffer ends at the last of these contents.
-/
import proofs.«108219_j35407710388663_2_alg».proof.Proof.KOblig1
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the first stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch (the return). -/
abbrev W5 : Dev nD → Valuation τ sig (Elt F) := fun c => StableHlo.after hostOps2 (W4 m ρ c)

/-! ## What the stretches write -/

abbrev hostOps0_W : List (Ref sig .tc) := [main_v0, main_v1, main_v2, main_v3, main_v4, main_v5, main_v6, main_v7, main_v8, main_v9, main_c, main_v10, main_v11, main_c_0, main_v12, main_v13, main_v14, main_v15, main_v16, main_v17, main_c_1, main_v18, main_v19, main_c_2, main_v20, main_v21, main_v22, main_v23, main_v24, main_v25, main_v26, main_v27]
abbrev hostOps1_W : List (Ref sig .tc) := [main_v29, main_v30, main_cst, main_v31, main_v32, main_v33, main_cst_3, main_v34, main_v35, main_v36, main_v37, main_v38, main_v39, main_v40, main_v41, main_cst_4, main_v42, main_v43, main_v44, main_v45, main_v46, main_v47, main_v48, main_v49, main_v50, main_v51, main_v52, main_cst_5, main_v53, main_v54, main_v55, main_cst_6, main_v56, main_v57, main_v58, main_v59, main_v60, main_v61, main_v62, main_v63, main_c_7, main_v64, main_v65, main_c_8, main_v66, main_v67, main_v68, main_v69, main_v70, main_c_9, main_v71, main_v72, main_c_10, main_v73, main_v74, main_v75, main_v76, main_v77, main_v78, main_v79, main_v80, main_v81, main_v82, main_v83, main_v84, main_v85, main_v86, main_v87, main_v88, main_v89]
abbrev hostOps2_W : List (Ref sig .tc) := [main_v91, main_v92, main_v93, main_v94, main_v95, main_cst_11, main_v96, main_v97, main_v98, main_v99, main_v100, main_v101, main_v102, main_cst_12, main_v103, main_v104, main_v105, main_cst_13, main_v106, main_v107, main_v108, main_v109, main_cst_14, main_v110, main_v111, main_v112, main_cst_15, main_v113, main_v114, main_v115]

set_option maxHeartbeats 4000000 in
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps2_writes : (hostOps2 : List (HloOp τ sig (Elt F))).Forall fun op => op.writes ⊆ (hostOps2_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-- A buffer no stretch writes and no region holds as an array ends as launched. -/
theorem W5_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  (W5_of m ρ c r h2).trans <| (W4_of_ne m ρ c r ha1).trans <| (W3_of m ρ c r h1).trans <| (W2_of_ne m ρ c r ha0).trans <|
    (W1_of m ρ c r h0).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at what the pipeline leaves; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at what the pipeline leaves; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN, at any `F`: from any memory with zero counters every weakly fair execution of @main on the TensorCore
    terminates, nothing faulting, and every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Hand

end
-- ==== Proof.KIBody0.lean ====
/-
  Region 0 (the first message pass) of `KernelIdeal`: what the body leaves in its staging buffers, its triple,
  the proof data of the pipeline and the body obligation at a generic grid point.

  The body reads its four input blocks whole (source values, destination values, the two attribute planes) and
  stores two blocks: for each attribute plane `a`, elementwise, `(xs - xd) / a` where `a ≠ 0` and `0` elsewhere.
  The edge blocks of the 62500-row arrays overhang them (62500 = 20 · 3072 + 1060): past the array's end a
  staging buffer holds words nothing names, so every statement below is about the rows inside the array only,
  and the filler past them is a word the proof picks.
-/
import proofs.«108219_j35407710388663_2_alg».proof.Proof.Gen.KernelIdeal.Launch
import proofs.«108219_j35407710388663_2_alg».proof.Proof.Gen.KernelIdeal.Skeleton
import proofs.«108219_j35407710388663_2_alg».proof.Proof.Gen.KernelIdeal.Points
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- The word the proof puts past the array's end, where nothing is read. -/
abbrev zfill : S3072x128.Idx → Elt F .f32 := fun _ => Scalar.ofBits .f32 0#32

/-! ## What the body leaves in each output buffer -/

abbrev r0 : Rect S3072x128 := Rect.unit (s := S3072x128) ![0, 0] S3072x128.size inb_S3072x128_S3072x128_0_0

/-- The first result's buffer after the body, from the contents of the input buffers: its one whole store. -/
def out0_4 (x0 x1 x2 : Vec F S3072x128 .f32) : Vec F S3072x128 .f32 :=
  View.canon [⟨r0, k0_pay2 (View.ld x0 r0) (View.ld x1 r0) (View.ld x2 r0)⟩]
/-- The second result's. -/
def out0_5 (x0 x1 x3 : Vec F S3072x128 .f32) : Vec F S3072x128 .f32 :=
  View.canon [⟨r0, k0_pay3 (View.ld x0 r0) (View.ld x1 r0) (View.ld x3 r0)⟩]

/-- A whole store covers the buffer. -/
theorem cover0 (p0 : Vec F S3072x128 .f32) (y : S3072x128.Idx) :
    ∃ pc ∈ ([⟨r0, p0⟩] : List (View.Piece (Elt F) S3072x128 .f32)), y ∈ pc.1.set :=
  View.cover_of_tiled [⟨r0, p0⟩] S3072x128.size (by rfl) y

/-! ## The body's triple -/

set_option maxHeartbeats 4000000 in
/-- On whole staging memrefs, the inputs' at contents `x0 … x3` and the results' at anything, the body runs to its
    continuation with the inputs' as they were and the results' at `out0_4`, `out0_5` of them. -/
theorem sound_kernel0 (c : Dev nD) (E : Set ℕ) (i : grid0.Coords)
    (a1 : Memref sig .tc .vmem S3072x128 .f32) (h1 : a1.IsWhole) (a2 : Memref sig .tc .vmem S3072x128 .f32) (h2 : a2.IsWhole)
    (a3 : Memref sig .tc .vmem S3072x128 .f32) (h3 : a3.IsWhole) (a4 : Memref sig .tc .vmem S3072x128 .f32) (h4 : a4.IsWhole)
    (a5 : Memref sig .tc .vmem S3072x128 .f32) (h5 : a5.IsWhole) (a6 : Memref sig .tc .vmem S3072x128 .f32) (h6 : a6.IsWhole)
    (x0 x1 x2 x3 : Vec F S3072x128 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d) ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (out0_4 x0 x1 x2) ∗ owns (c : Thread nD τ) a6 fullShare (out0_5 x0 x1 x3)) -∗ K ⟨⟩))
      ⊢ wp frame (wpE (defs₀ (F := F)) Variants.none c none) E (cc0__msg_pass1_kernel i a1 h1 a2 h2 a3 h3 a4 h4 a5 h5 a6 h6) K := by
  simp only [cc0__msg_pass1_kernel_eq_skeleton]; unfold cc0__msg_pass1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  · iexists _; isplitr
    swap; · iexact H5
    ipureintro
    exact View.read_writes_eq_canon _ _ _ (cover0 _)

/-! ## The stores are pointwise -/

/-- One edge's message: the difference over the attribute where the attribute is not zero, zero where it is. -/
def msgS (x y a : F .f32) : F .f32 :=
  Scalar.select (FloatOps.cmpf .one a (Scalar.ofBits .f32 0x00000000#32))
    (FloatOps.divf (FloatOps.subf x y)
      (Scalar.select (FloatOps.cmpf .one a (Scalar.ofBits .f32 0x00000000#32)) a (Scalar.ofBits .f32 0x3F800000#32)))
    (Scalar.ofBits .f32 0x00000000#32)

theorem hz2 : (![0, 0] : Fin 2 → Nat) = fun _ => 0 := funext fun a => by fin_cases a <;> rfl

/-- The first result at an element is the message of the three inputs' elements there. -/
theorem out0_4_apply (x0 x1 x2 : Vec F S3072x128 .f32) (j : S3072x128.Idx) :
    out0_4 x0 x1 x2 j = msgS (x0 j) (x1 j) (x2 j) := by
  unfold out0_4
  rw [View.canon_unit_zero hz2]
  simp only [View.ld_unit_zero (S := S3072x128) hz2, k0_pay2, k0_pay1, shapeCast_self]
  rfl
/-- The second result's likewise. -/
theorem out0_5_apply (x0 x1 x3 : Vec F S3072x128 .f32) (j : S3072x128.Idx) :
    out0_5 x0 x1 x3 j = msgS (x0 j) (x1 j) (x3 j) := by
  unfold out0_5
  rw [View.canon_unit_zero hz2]
  simp only [View.ld_unit_zero (S := S3072x128) hz2, k0_pay3, k0_pay1, shapeCast_self]
  rfl

/-! ## The proof data -/

/-- The four input blocks at point `t`, their part inside the array (all six windows cut alike: one block shape). -/
def ib0_0 (c : Dev nD) (t : Fin cfg0.N) : (win0_0.xblock (grid0.coords t)).Idx → Elt F .f32 :=
  (win0_0.blk t).view.read (Elt F) (V c main_v17)
def ib0_1 (c : Dev nD) (t : Fin cfg0.N) : (win0_0.xblock (grid0.coords t)).Idx → Elt F .f32 :=
  (win0_1.blk t).view.read (Elt F) (V c main_v25)
def ib0_2 (c : Dev nD) (t : Fin cfg0.N) : (win0_0.xblock (grid0.coords t)).Idx → Elt F .f32 :=
  (win0_2.blk t).view.read (Elt F) (V c main_v26)
def ib0_3 (c : Dev nD) (t : Fin cfg0.N) : (win0_0.xblock (grid0.coords t)).Idx → Elt F .f32 :=
  (win0_3.blk t).view.read (Elt F) (V c main_v27)

/-- A block filled out to the staging buffer's shape with `d` past the array's end. -/
abbrev fb0 (t : Fin cfg0.N) (d : S3072x128.Idx → Elt F .f32) (b : (win0_0.xblock (grid0.coords t)).Idx → Elt F .f32) :
    S3072x128.Idx → Elt F .f32 := win0_0.fill (grid0.coords t) d b

/-- The proof data of the first pipeline on core `c`: the arrays as the region finds them; after the body at point `t`
    each input's buffer at its block and each result's at the messages of the blocks (filled out past the array's end with
    a word nothing reads); the scoped rest and the generator register as invariant; nothing owed; full shares. -/
def dat0 (c : Dev nD) : Dat τ (Elt F) Unit ℕ (UR sig nD τ) ℕ cfg0 c where
  A w := V c (Pipeline.arrRef spec0 w)
  after w t := match w with
    | ⟨0, _⟩ => fb0 t zfill (ib0_0 V c t)
    | ⟨1, _⟩ => fb0 t zfill (ib0_1 V c t)
    | ⟨2, _⟩ => fb0 t zfill (ib0_2 V c t)
    | ⟨3, _⟩ => fb0 t zfill (ib0_3 V c t)
    | ⟨4, _⟩ => out0_4 (fb0 t zfill (ib0_0 V c t)) (fb0 t zfill (ib0_1 V c t)) (fb0 t zfill (ib0_2 V c t))
    | ⟨5, _⟩ => out0_5 (fb0 t zfill (ib0_0 V c t)) (fb0 t zfill (ib0_1 V c t)) (fb0 t zfill (ib0_3 V c t))
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body finds: an input's buffer just fetched — its block on the rows inside the array, `d` elsewhere. -/
theorem before0_0 (c : Dev nD) (t : Fin cfg0.N) (d) : (dat0 V c).before 0 t d = fb0 t d (ib0_0 V c t) := by
  unfold Dat.before; rw [if_pos (fetch0_0 t)]; rfl
theorem before0_1 (c : Dev nD) (t : Fin cfg0.N) (d) : (dat0 V c).before 1 t d = fb0 t d (ib0_1 V c t) := by
  unfold Dat.before; rw [if_pos (fetch0_1 t)]; rfl
theorem before0_2 (c : Dev nD) (t : Fin cfg0.N) (d) : (dat0 V c).before 2 t d = fb0 t d (ib0_2 V c t) := by
  unfold Dat.before; rw [if_pos (fetch0_2 t)]; rfl
theorem before0_3 (c : Dev nD) (t : Fin cfg0.N) (d) : (dat0 V c).before 3 t d = fb0 t d (ib0_3 V c t) := by
  unfold Dat.before; rw [if_pos (fetch0_3 t)]; rfl

/-- The results' windows are never fetched. -/
theorem nofetch0_4 : ∀ t : Fin cfg0.N, (cfg0.win 4).fetch t = false :=
  (by decide +kernel : ∀ t : Fin grid0.N, win0_4.fetch t = false)
theorem nofetch0_5 : ∀ t : Fin cfg0.N, (cfg0.win 5).fetch t = false :=
  (by decide +kernel : ∀ t : Fin grid0.N, win0_5.fetch t = false)

/-- A result's buffer arrives at contents nothing names: never fetched, written back at every point. -/
theorem before0_4 (c : Dev nD) (t : Fin cfg0.N) (d) : (dat0 V c).before 4 t d = d := by
  unfold Dat.before
  rw [if_neg (by rw [nofetch0_4 t]; exact Bool.false_ne_true)]
  by_cases h0 : t.val = 0
  · rw [if_pos h0]
  · rw [if_neg h0]; exact if_pos (flush0_4 _)
theorem before0_5 (c : Dev nD) (t : Fin cfg0.N) (d) : (dat0 V c).before 5 t d = d := by
  unfold Dat.before
  rw [if_neg (by rw [nofetch0_5 t]; exact Bool.false_ne_true)]
  by_cases h0 : t.val = 0
  · rw [if_pos h0]
  · rw [if_neg h0]; exact if_pos (flush0_5 _)

/-- On the rows inside the array a result does not depend on what fills the inputs' buffers past the array's end. -/
theorem cut_out0_4 (t : Fin cfg0.N) (b0 b1 b2 : (win0_0.xblock (grid0.coords t)).Idx → Elt F .f32)
    (d0 d1 d2 e0 e1 e2 : S3072x128.Idx → Elt F .f32) :
    win0_0.cut (grid0.coords t) (out0_4 (fb0 t d0 b0) (fb0 t d1 b1) (fb0 t d2 b2))
      = win0_0.cut (grid0.coords t) (out0_4 (fb0 t e0 b0) (fb0 t e1 b1) (fb0 t e2 b2)) := by
  funext j
  show out0_4 _ _ _ (win0_0.xinj (grid0.coords t) j) = out0_4 _ _ _ (win0_0.xinj (grid0.coords t) j)
  rw [out0_4_apply, out0_4_apply]
  simp only [fb0, Window.fill_xinj]
theorem cut_out0_5 (t : Fin cfg0.N) (b0 b1 b2 : (win0_0.xblock (grid0.coords t)).Idx → Elt F .f32)
    (d0 d1 d2 e0 e1 e2 : S3072x128.Idx → Elt F .f32) :
    win0_0.cut (grid0.coords t) (out0_5 (fb0 t d0 b0) (fb0 t d1 b1) (fb0 t d2 b2))
      = win0_0.cut (grid0.coords t) (out0_5 (fb0 t e0 b0) (fb0 t e1 b1) (fb0 t e2 b2)) := by
  funext j
  show out0_5 _ _ _ (win0_0.xinj (grid0.coords t) j) = out0_5 _ _ _ (win0_0.xinj (grid0.coords t) j)
  rw [out0_5_apply, out0_5_apply]
  simp only [fb0, Window.fill_xinj]

end Cert.KernelIdeal.Hand

end
-- ==== Proof.KIOblig0.lean ====
/-
  The first message pass of `KernelIdeal`: the body obligation at a generic grid point, from the body's triple.
-/
import proofs.«108219_j35407710388663_2_alg».proof.Proof.KIBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the proof data say each buffer holds after the body -/

theorem after0_0 (c : Dev nD) (t : Fin cfg0.N) : (dat0 V c).after 0 t = fb0 t zfill (ib0_0 V c t) := by dsimp only [dat0]
theorem after0_1 (c : Dev nD) (t : Fin cfg0.N) : (dat0 V c).after 1 t = fb0 t zfill (ib0_1 V c t) := by dsimp only [dat0]
theorem after0_2 (c : Dev nD) (t : Fin cfg0.N) : (dat0 V c).after 2 t = fb0 t zfill (ib0_2 V c t) := by dsimp only [dat0]
theorem after0_3 (c : Dev nD) (t : Fin cfg0.N) : (dat0 V c).after 3 t = fb0 t zfill (ib0_3 V c t) := by dsimp only [dat0]
theorem after0_4 (c : Dev nD) (t : Fin cfg0.N) : (dat0 V c).after 4 t
    = out0_4 (fb0 t zfill (ib0_0 V c t)) (fb0 t zfill (ib0_1 V c t)) (fb0 t zfill (ib0_2 V c t)) := by dsimp only [dat0]
theorem after0_5 (c : Dev nD) (t : Fin cfg0.N) : (dat0 V c).after 5 t
    = out0_5 (fb0 t zfill (ib0_0 V c t)) (fb0 t zfill (ib0_1 V c t)) (fb0 t zfill (ib0_3 V c t)) := by dsimp only [dat0]

/-- An input's buffer, stated on the rows inside the array, is its block filled out with whatever lies past them. -/
theorem keep0_0 (t : Fin cfg0.N) (d : S3072x128.Idx → Elt F .f32) (b : (win0_0.xblock (grid0.coords t)).Idx → Elt F .f32) :
    (win0 0).fill (grid0.coords t) d ((win0 0).cut (grid0.coords t) (fb0 t zfill b)) = fb0 t d b := by
  show win0_0.fill _ d (win0_0.cut _ (win0_0.fill _ zfill b)) = _; rw [win0_0.cut_fill]
theorem keep0_1 (t : Fin cfg0.N) (d : S3072x128.Idx → Elt F .f32) (b : (win0_0.xblock (grid0.coords t)).Idx → Elt F .f32) :
    (win0 1).fill (grid0.coords t) d ((win0 1).cut (grid0.coords t) (fb0 t zfill b)) = fb0 t d b := by
  show win0_0.fill _ d (win0_0.cut _ (win0_0.fill _ zfill b)) = _; rw [win0_0.cut_fill]
theorem keep0_2 (t : Fin cfg0.N) (d : S3072x128.Idx → Elt F .f32) (b : (win0_0.xblock (grid0.coords t)).Idx → Elt F .f32) :
    (win0 2).fill (grid0.coords t) d ((win0 2).cut (grid0.coords t) (fb0 t zfill b)) = fb0 t d b := by
  show win0_0.fill _ d (win0_0.cut _ (win0_0.fill _ zfill b)) = _; rw [win0_0.cut_fill]
theorem keep0_3 (t : Fin cfg0.N) (d : S3072x128.Idx → Elt F .f32) (b : (win0_0.xblock (grid0.coords t)).Idx → Elt F .f32) :
    (win0 3).fill (grid0.coords t) d ((win0 3).cut (grid0.coords t) (fb0 t zfill b)) = fb0 t d b := by
  show win0_0.fill _ d (win0_0.cut _ (win0_0.fill _ zfill b)) = _; rw [win0_0.cut_fill]
/-- A result's buffer, stated on the rows inside the array, is what the body stored. -/
theorem keep0_4 (t : Fin cfg0.N) (b0 b1 b2 : (win0_0.xblock (grid0.coords t)).Idx → Elt F .f32) (d0 d1 d2 : S3072x128.Idx → Elt F .f32) :
    (win0 4).fill (grid0.coords t) (out0_4 (fb0 t d0 b0) (fb0 t d1 b1) (fb0 t d2 b2))
        ((win0 4).cut (grid0.coords t) (out0_4 (fb0 t zfill b0) (fb0 t zfill b1) (fb0 t zfill b2)))
      = out0_4 (fb0 t d0 b0) (fb0 t d1 b1) (fb0 t d2 b2) :=
  (win0 4).fill_congr_cut (grid0.coords t) (cut_out0_4 t b0 b1 b2 d0 d1 d2 zfill zfill zfill)
theorem keep0_5 (t : Fin cfg0.N) (b0 b1 b2 : (win0_0.xblock (grid0.coords t)).Idx → Elt F .f32) (d0 d1 d2 : S3072x128.Idx → Elt F .f32) :
    (win0 5).fill (grid0.coords t) (out0_5 (fb0 t d0 b0) (fb0 t d1 b1) (fb0 t d2 b2))
        ((win0 5).cut (grid0.coords t) (out0_5 (fb0 t zfill b0) (fb0 t zfill b1) (fb0 t zfill b2)))
      = out0_5 (fb0 t d0 b0) (fb0 t d1 b1) (fb0 t d2 b2) :=
  (win0 5).fill_congr_cut (grid0.coords t) (cut_out0_5 t b0 b1 b2 d0 d1 d2 zfill zfill zfill)

/-! ## The body obligation -/

set_option maxHeartbeats 2000000 in
/-- At every point: the inputs' buffers arrive holding their blocks filled out with some `d`, the results' holding
    anything; the body leaves the inputs' as they were and the results' at the messages, which on the rows inside the
    array are the proof data's — all that an obligation over windows whose edge blocks overhang states. -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  show _ ⊢ wp frame (wpE (defs₀ (F := F)) Variants.none c none) Set.univ (bodyAt0 (F := F) t) _
  iintro ⟨HΦ, Ho, ⟨%d0, H0⟩, ⟨%d1, H1⟩, ⟨%d2, H2⟩, ⟨%d3, H3⟩, ⟨%d4, H4⟩, ⟨%d5, H5⟩⟩
  rw [before0_0 V c t d0, before0_1 V c t d1, before0_2 V c t d2, before0_3 V c t d3, before0_4 V c t d4, before0_5 V c t d5]
  iapply (sound_kernel0 (F := F) c Set.univ (grid0.coords t) _ _ _ _ _ _ _ _ _ _ _ _
    (fb0 t d0 (ib0_0 V c t)) (fb0 t d1 (ib0_1 V c t)) (fb0 t d2 (ib0_2 V c t)) (fb0 t d3 (ib0_3 V c t)) _)
  isplitl [H0]; · iexact H0
  isplitl [H1]; · iexact H1
  isplitl [H2]; · iexact H2
  isplitl [H3]; · iexact H3
  isplitl [H4]; · iexists d4; iexact H4
  isplitl [H5]; · iexists d5; iexact H5
  iintro ⟨H0, H1, H2, H3, H4, H5⟩
  isplitl [HΦ]; · iexact HΦ
  isplitl [Ho]; · iexact Ho
  rw [after0_0 V c t, after0_1 V c t, after0_2 V c t, after0_3 V c t, after0_4 V c t, after0_5 V c t]
  isplitl [H0]
  · iexists d0; rw [keep0_0]; iexact H0
  isplitl [H1]
  · iexists d1; rw [keep0_1]; iexact H1
  isplitl [H2]
  · iexists d2; rw [keep0_2]; iexact H2
  isplitl [H3]
  · iexists d3; rw [keep0_3]; iexact H3
  isplitl [H4]
  · iexists out0_4 (fb0 t d0 (ib0_0 V c t)) (fb0 t d1 (ib0_1 V c t)) (fb0 t d2 (ib0_2 V c t))
    rw [keep0_4]; iexact H4
  · iexists out0_5 (fb0 t d0 (ib0_0 V c t)) (fb0 t d1 (ib0_1 V c t)) (fb0 t d3 (ib0_3 V c t))
    rw [keep0_5]; iexact H5

end Cert.KernelIdeal.Hand

end
-- ==== Proof.KIBody1.lean ====
/-
  Region 1 (the second message pass) of `KernelIdeal`: what the body leaves in its staging buffers, its triple,
  the proof data of the pipeline and the body obligation at a generic grid point.

  The body reads six input blocks whole — source and destination values of the first flow component, of the second,
  and the two attribute planes — and stores two blocks: elementwise, for the first component against the first
  attribute plane and for the second against the second, `(s - d) / a` where `a ≠ 0` and `0` elsewhere. The edge
  blocks overhang the arrays as in the first pass, and every statement is about the rows inside the array.
-/
import proofs.«108219_j35407710388663_2_alg».proof.Proof.KIOblig0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## What the body leaves in each output buffer -/

/-- The first result's buffer after the body: its one whole store, of the first component's two blocks and the
    first attribute plane's. -/
def out1_6 (x0 x1 x4 : Vec F S3072x128 .f32) : Vec F S3072x128 .f32 :=
  View.canon [⟨r0, k1_pay1 (View.ld x0 r0) (View.ld x1 r0) (View.ld x4 r0)⟩]
/-- The second result's, of the second component's two blocks and the second attribute plane's. -/
def out1_7 (x2 x3 x5 : Vec F S3072x128 .f32) : Vec F S3072x128 .f32 :=
  View.canon [⟨r0, k1_pay2 (View.ld x2 r0) (View.ld x3 r0) (View.ld x5 r0)⟩]

/-! ## The body's triple -/

set_option maxHeartbeats 4000000 in
/-- On whole staging memrefs, the inputs' at contents `x0 … x5` and the results' at anything, the body runs to its
    continuation with the inputs' as they were and the results' at `out1_6`, `out1_7` of them. -/
theorem sound_kernel1 (c : Dev nD) (E : Set ℕ) (i : grid1.Coords)
    (a1 : Memref sig .tc .vmem S3072x128 .f32) (h1 : a1.IsWhole) (a2 : Memref sig .tc .vmem S3072x128 .f32) (h2 : a2.IsWhole) (a3 : Memref sig .tc .vmem S3072x128 .f32) (h3 : a3.IsWhole) (a4 : Memref sig .tc .vmem S3072x128 .f32) (h4 : a4.IsWhole) (a5 : Memref sig .tc .vmem S3072x128 .f32) (h5 : a5.IsWhole) (a6 : Memref sig .tc .vmem S3072x128 .f32) (h6 : a6.IsWhole) (a7 : Memref sig .tc .vmem S3072x128 .f32) (h7 : a7.IsWhole) (a8 : Memref sig .tc .vmem S3072x128 .f32) (h8 : a8.IsWhole)
    (x0 x1 x2 x3 x4 x5 : Vec F S3072x128 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
        ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
            ∗ owns (c : Thread nD τ) a7 fullShare (out1_6 x0 x1 x4) ∗ owns (c : Thread nD τ) a8 fullShare (out1_7 x2 x3 x5)) -∗ K ⟨⟩))
      ⊢ wp frame (wpE (defs₀ (F := F)) Variants.none c none) E (cc1__msg_pass2_kernel i a1 h1 a2 h2 a3 h3 a4 h4 a5 h5 a6 h6 a7 h7 a8 h8) K := by
  simp only [cc1__msg_pass2_kernel_eq_skeleton]; unfold cc1__msg_pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  · iexists _; isplitr
    swap; · iexact H7
    ipureintro
    exact View.read_writes_eq_canon _ _ _ (cover0 _)

/-! ## The stores are pointwise -/

theorem out1_6_apply (x0 x1 x4 : Vec F S3072x128 .f32) (j : S3072x128.Idx) :
    out1_6 x0 x1 x4 j = msgS (x0 j) (x1 j) (x4 j) := by
  unfold out1_6
  rw [View.canon_unit_zero hz2]
  simp only [View.ld_unit_zero (S := S3072x128) hz2, k1_pay1, shapeCast_self]
  rfl
theorem out1_7_apply (x2 x3 x5 : Vec F S3072x128 .f32) (j : S3072x128.Idx) :
    out1_7 x2 x3 x5 j = msgS (x2 j) (x3 j) (x5 j) := by
  unfold out1_7
  rw [View.canon_unit_zero hz2]
  simp only [View.ld_unit_zero (S := S3072x128) hz2, k1_pay2, shapeCast_self]
  rfl

/-! ## The proof data -/

def ib1_0 (c : Dev nD) (t : Fin cfg1.N) : (win1_0.xblock (grid1.coords t)).Idx → Elt F .f32 :=
  (win1_0.blk t).view.read (Elt F) (V c main_v80)
def ib1_1 (c : Dev nD) (t : Fin cfg1.N) : (win1_0.xblock (grid1.coords t)).Idx → Elt F .f32 :=
  (win1_1.blk t).view.read (Elt F) (V c main_v86)
def ib1_2 (c : Dev nD) (t : Fin cfg1.N) : (win1_0.xblock (grid1.coords t)).Idx → Elt F .f32 :=
  (win1_2.blk t).view.read (Elt F) (V c main_v83)
def ib1_3 (c : Dev nD) (t : Fin cfg1.N) : (win1_0.xblock (grid1.coords t)).Idx → Elt F .f32 :=
  (win1_3.blk t).view.read (Elt F) (V c main_v89)
def ib1_4 (c : Dev nD) (t : Fin cfg1.N) : (win1_0.xblock (grid1.coords t)).Idx → Elt F .f32 :=
  (win1_4.blk t).view.read (Elt F) (V c main_v26)
def ib1_5 (c : Dev nD) (t : Fin cfg1.N) : (win1_0.xblock (grid1.coords t)).Idx → Elt F .f32 :=
  (win1_5.blk t).view.read (Elt F) (V c main_v27)

/-- A block filled out to the staging buffer's shape with `d` past the array's end. -/
abbrev fb1 (t : Fin cfg1.N) (d : S3072x128.Idx → Elt F .f32) (b : (win1_0.xblock (grid1.coords t)).Idx → Elt F .f32) :
    S3072x128.Idx → Elt F .f32 := win1_0.fill (grid1.coords t) d b

/-- The proof data of the second pipeline on core `c`, as the first's. -/
def dat1 (c : Dev nD) : Dat τ (Elt F) Unit ℕ (UR sig nD τ) ℕ cfg1 c where
  A w := V c (Pipeline.arrRef spec1 w)
  after w t := match w with
    | ⟨0, _⟩ => fb1 t zfill (ib1_0 V c t)
    | ⟨1, _⟩ => fb1 t zfill (ib1_1 V c t)
    | ⟨2, _⟩ => fb1 t zfill (ib1_2 V c t)
    | ⟨3, _⟩ => fb1 t zfill (ib1_3 V c t)
    | ⟨4, _⟩ => fb1 t zfill (ib1_4 V c t)
    | ⟨5, _⟩ => fb1 t zfill (ib1_5 V c t)
    | ⟨6, _⟩ => out1_6 (fb1 t zfill (ib1_0 V c t)) (fb1 t zfill (ib1_1 V c t)) (fb1 t zfill (ib1_4 V c t))
    | ⟨7, _⟩ => out1_7 (fb1 t zfill (ib1_2 V c t)) (fb1 t zfill (ib1_3 V c t)) (fb1 t zfill (ib1_5 V c t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem before1_0 (c : Dev nD) (t : Fin cfg1.N) (d) : (dat1 V c).before 0 t d = fb1 t d (ib1_0 V c t) := by
  unfold Dat.before; rw [if_pos (fetch1_0 t)]; rfl
theorem before1_1 (c : Dev nD) (t : Fin cfg1.N) (d) : (dat1 V c).before 1 t d = fb1 t d (ib1_1 V c t) := by
  unfold Dat.before; rw [if_pos (fetch1_1 t)]; rfl
theorem before1_2 (c : Dev nD) (t : Fin cfg1.N) (d) : (dat1 V c).before 2 t d = fb1 t d (ib1_2 V c t) := by
  unfold Dat.before; rw [if_pos (fetch1_2 t)]; rfl
theorem before1_3 (c : Dev nD) (t : Fin cfg1.N) (d) : (dat1 V c).before 3 t d = fb1 t d (ib1_3 V c t) := by
  unfold Dat.before; rw [if_pos (fetch1_3 t)]; rfl
theorem before1_4 (c : Dev nD) (t : Fin cfg1.N) (d) : (dat1 V c).before 4 t d = fb1 t d (ib1_4 V c t) := by
  unfold Dat.before; rw [if_pos (fetch1_4 t)]; rfl
theorem before1_5 (c : Dev nD) (t : Fin cfg1.N) (d) : (dat1 V c).before 5 t d = fb1 t d (ib1_5 V c t) := by
  unfold Dat.before; rw [if_pos (fetch1_5 t)]; rfl

theorem nofetch1_6 : ∀ t : Fin cfg1.N, (cfg1.win 6).fetch t = false :=
  (by decide +kernel : ∀ t : Fin grid1.N, win1_6.fetch t = false)
theorem nofetch1_7 : ∀ t : Fin cfg1.N, (cfg1.win 7).fetch t = false :=
  (by decide +kernel : ∀ t : Fin grid1.N, win1_7.fetch t = false)

theorem before1_6 (c : Dev nD) (t : Fin cfg1.N) (d) : (dat1 V c).before 6 t d = d := by
  unfold Dat.before
  rw [if_neg (by rw [nofetch1_6 t]; exact Bool.false_ne_true)]
  by_cases h0 : t.val = 0
  · rw [if_pos h0]
  · rw [if_neg h0]; exact if_pos (flush1_6 _)
theorem before1_7 (c : Dev nD) (t : Fin cfg1.N) (d) : (dat1 V c).before 7 t d = d := by
  unfold Dat.before
  rw [if_neg (by rw [nofetch1_7 t]; exact Bool.false_ne_true)]
  by_cases h0 : t.val = 0
  · rw [if_pos h0]
  · rw [if_neg h0]; exact if_pos (flush1_7 _)

theorem cut_out1_6 (t : Fin cfg1.N) (b0 b1 b2 : (win1_0.xblock (grid1.coords t)).Idx → Elt F .f32)
    (d0 d1 d2 e0 e1 e2 : S3072x128.Idx → Elt F .f32) :
    win1_0.cut (grid1.coords t) (out1_6 (fb1 t d0 b0) (fb1 t d1 b1) (fb1 t d2 b2))
      = win1_0.cut (grid1.coords t) (out1_6 (fb1 t e0 b0) (fb1 t e1 b1) (fb1 t e2 b2)) := by
  funext j
  show out1_6 _ _ _ (win1_0.xinj (grid1.coords t) j) = out1_6 _ _ _ (win1_0.xinj (grid1.coords t) j)
  rw [out1_6_apply, out1_6_apply]
  simp only [fb1, Window.fill_xinj]
theorem cut_out1_7 (t : Fin cfg1.N) (b0 b1 b2 : (win1_0.xblock (grid1.coords t)).Idx → Elt F .f32)
    (d0 d1 d2 e0 e1 e2 : S3072x128.Idx → Elt F .f32) :
    win1_0.cut (grid1.coords t) (out1_7 (fb1 t d0 b0) (fb1 t d1 b1) (fb1 t d2 b2))
      = win1_0.cut (grid1.coords t) (out1_7 (fb1 t e0 b0) (fb1 t e1 b1) (fb1 t e2 b2)) := by
  funext j
  show out1_7 _ _ _ (win1_0.xinj (grid1.coords t) j) = out1_7 _ _ _ (win1_0.xinj (grid1.coords t) j)
  rw [out1_7_apply, out1_7_apply]
  simp only [fb1, Window.fill_xinj]

end Cert.KernelIdeal.Hand

end
-- ==== Proof.KIOblig1.lean ====
/-
  The second message pass of `KernelIdeal`: the body obligation at a generic grid point, from the body's triple.
-/
import proofs.«108219_j35407710388663_2_alg».proof.Proof.KIBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the proof data say each buffer holds after the body -/

theorem after1_0 (c : Dev nD) (t : Fin cfg1.N) : (dat1 V c).after 0 t = fb1 t zfill (ib1_0 V c t) := by dsimp only [dat1]
theorem after1_1 (c : Dev nD) (t : Fin cfg1.N) : (dat1 V c).after 1 t = fb1 t zfill (ib1_1 V c t) := by dsimp only [dat1]
theorem after1_2 (c : Dev nD) (t : Fin cfg1.N) : (dat1 V c).after 2 t = fb1 t zfill (ib1_2 V c t) := by dsimp only [dat1]
theorem after1_3 (c : Dev nD) (t : Fin cfg1.N) : (dat1 V c).after 3 t = fb1 t zfill (ib1_3 V c t) := by dsimp only [dat1]
theorem after1_4 (c : Dev nD) (t : Fin cfg1.N) : (dat1 V c).after 4 t = fb1 t zfill (ib1_4 V c t) := by dsimp only [dat1]
theorem after1_5 (c : Dev nD) (t : Fin cfg1.N) : (dat1 V c).after 5 t = fb1 t zfill (ib1_5 V c t) := by dsimp only [dat1]
theorem after1_6 (c : Dev nD) (t : Fin cfg1.N) : (dat1 V c).after 6 t
    = out1_6 (fb1 t zfill (ib1_0 V c t)) (fb1 t zfill (ib1_1 V c t)) (fb1 t zfill (ib1_4 V c t)) := by dsimp only [dat1]
theorem after1_7 (c : Dev nD) (t : Fin cfg1.N) : (dat1 V c).after 7 t
    = out1_7 (fb1 t zfill (ib1_2 V c t)) (fb1 t zfill (ib1_3 V c t)) (fb1 t zfill (ib1_5 V c t)) := by dsimp only [dat1]

theorem keep1_0 (t : Fin cfg1.N) (d : S3072x128.Idx → Elt F .f32) (b : (win1_0.xblock (grid1.coords t)).Idx → Elt F .f32) :
    (win1 0).fill (grid1.coords t) d ((win1 0).cut (grid1.coords t) (fb1 t zfill b)) = fb1 t d b := by
  show win1_0.fill _ d (win1_0.cut _ (win1_0.fill _ zfill b)) = _; rw [win1_0.cut_fill]
theorem keep1_1 (t : Fin cfg1.N) (d : S3072x128.Idx → Elt F .f32) (b : (win1_0.xblock (grid1.coords t)).Idx → Elt F .f32) :
    (win1 1).fill (grid1.coords t) d ((win1 1).cut (grid1.coords t) (fb1 t zfill b)) = fb1 t d b := by
  show win1_0.fill _ d (win1_0.cut _ (win1_0.fill _ zfill b)) = _; rw [win1_0.cut_fill]
theorem keep1_2 (t : Fin cfg1.N) (d : S3072x128.Idx → Elt F .f32) (b : (win1_0.xblock (grid1.coords t)).Idx → Elt F .f32) :
    (win1 2).fill (grid1.coords t) d ((win1 2).cut (grid1.coords t) (fb1 t zfill b)) = fb1 t d b := by
  show win1_0.fill _ d (win1_0.cut _ (win1_0.fill _ zfill b)) = _; rw [win1_0.cut_fill]
theorem keep1_3 (t : Fin cfg1.N) (d : S3072x128.Idx → Elt F .f32) (b : (win1_0.xblock (grid1.coords t)).Idx → Elt F .f32) :
    (win1 3).fill (grid1.coords t) d ((win1 3).cut (grid1.coords t) (fb1 t zfill b)) = fb1 t d b := by
  show win1_0.fill _ d (win1_0.cut _ (win1_0.fill _ zfill b)) = _; rw [win1_0.cut_fill]
theorem keep1_4 (t : Fin cfg1.N) (d : S3072x128.Idx → Elt F .f32) (b : (win1_0.xblock (grid1.coords t)).Idx → Elt F .f32) :
    (win1 4).fill (grid1.coords t) d ((win1 4).cut (grid1.coords t) (fb1 t zfill b)) = fb1 t d b := by
  show win1_0.fill _ d (win1_0.cut _ (win1_0.fill _ zfill b)) = _; rw [win1_0.cut_fill]
theorem keep1_5 (t : Fin cfg1.N) (d : S3072x128.Idx → Elt F .f32) (b : (win1_0.xblock (grid1.coords t)).Idx → Elt F .f32) :
    (win1 5).fill (grid1.coords t) d ((win1 5).cut (grid1.coords t) (fb1 t zfill b)) = fb1 t d b := by
  show win1_0.fill _ d (win1_0.cut _ (win1_0.fill _ zfill b)) = _; rw [win1_0.cut_fill]
theorem keep1_6 (t : Fin cfg1.N) (b0 b1 b2 : (win1_0.xblock (grid1.coords t)).Idx → Elt F .f32) (d0 d1 d2 : S3072x128.Idx → Elt F .f32) :
    (win1 6).fill (grid1.coords t) (out1_6 (fb1 t d0 b0) (fb1 t d1 b1) (fb1 t d2 b2))
        ((win1 6).cut (grid1.coords t) (out1_6 (fb1 t zfill b0) (fb1 t zfill b1) (fb1 t zfill b2)))
      = out1_6 (fb1 t d0 b0) (fb1 t d1 b1) (fb1 t d2 b2) :=
  (win1 6).fill_congr_cut (grid1.coords t) (cut_out1_6 t b0 b1 b2 d0 d1 d2 zfill zfill zfill)
theorem keep1_7 (t : Fin cfg1.N) (b0 b1 b2 : (win1_0.xblock (grid1.coords t)).Idx → Elt F .f32) (d0 d1 d2 : S3072x128.Idx → Elt F .f32) :
    (win1 7).fill (grid1.coords t) (out1_7 (fb1 t d0 b0) (fb1 t d1 b1) (fb1 t d2 b2))
        ((win1 7).cut (grid1.coords t) (out1_7 (fb1 t zfill b0) (fb1 t zfill b1) (fb1 t zfill b2)))
      = out1_7 (fb1 t d0 b0) (fb1 t d1 b1) (fb1 t d2 b2) :=
  (win1 7).fill_congr_cut (grid1.coords t) (cut_out1_7 t b0 b1 b2 d0 d1 d2 zfill zfill zfill)

/-! ## The body obligation -/

set_option maxHeartbeats 2000000 in
/-- At every point, as for the first pass: the inputs' buffers arrive holding their blocks filled out with some `d`, the
    results' holding anything; the body leaves the inputs' as they were and the results' at the messages. -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  show _ ⊢ wp frame (wpE (defs₀ (F := F)) Variants.none c none) Set.univ (bodyAt1 (F := F) t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before1_0 V c t d0, before1_1 V c t d1, before1_2 V c t d2, before1_3 V c t d3, before1_4 V c t d4, before1_5 V c t d5, before1_6 V c t d6, before1_7 V c t d7]
  iapply (sound_kernel1 (F := F) c Set.univ (grid1.coords t) _ _ _ _ _ _ _ _ _ _ _ _ _ _ _ _
    (fb1 t d0 (ib1_0 V c t)) (fb1 t d1 (ib1_1 V c t)) (fb1 t d2 (ib1_2 V c t)) (fb1 t d3 (ib1_3 V c t)) (fb1 t d4 (ib1_4 V c t)) (fb1 t d5 (ib1_5 V c t)) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  iintro ⟨H0, H1, H2, H3, H4, H5, H6, H7⟩
  isplitl [HΦ]; · iexact HΦ
  isplitl [Ho]; · iexact Ho
  rw [after1_0 V c t, after1_1 V c t, after1_2 V c t, after1_3 V c t, after1_4 V c t, after1_5 V c t, after1_6 V c t, after1_7 V c t]
  isplitl [H0]
  · iexists d0; rw [keep1_0]; iexact H0
  isplitl [H1]
  · iexists d1; rw [keep1_1]; iexact H1
  isplitl [H2]
  · iexists d2; rw [keep1_2]; iexact H2
  isplitl [H3]
  · iexists d3; rw [keep1_3]; iexact H3
  isplitl [H4]
  · iexists d4; rw [keep1_4]; iexact H4
  isplitl [H5]
  · iexists d5; rw [keep1_5]; iexact H5
  isplitl [H6]
  · iexists out1_6 (fb1 t d0 (ib1_0 V c t)) (fb1 t d1 (ib1_1 V c t)) (fb1 t d4 (ib1_4 V c t))
    rw [keep1_6]; iexact H6
  · iexists out1_7 (fb1 t d2 (ib1_2 V c t)) (fb1 t d3 (ib1_3 V c t)) (fb1 t d5 (ib1_5 V c t))
    rw [keep1_7]; iexact H7

end Cert.KernelIdeal.Hand

end
-- ==== Proof.KIRun.lean ====
/-
  The run of `KernelIdeal`'s @main: three stretches of host operations around two kernel regions. Between two
  segments the TensorCore holds every unscoped buffer at contents computed from the launch memory — a stretch applies its
  operations' functions, a region leaves its input arrays as entered and each result array at its write-backs folded in
  grid order — beside the generator register and nothing owed. Every weakly fair execution terminates, nothing faulting,
  and every unscoped buffer ends at the last of these contents.
-/
import proofs.«108219_j35407710388663_2_alg».proof.Proof.KIOblig1
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the first stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch (the return). -/
abbrev W5 : Dev nD → Valuation τ sig (Elt F) := fun c => StableHlo.after hostOps2 (W4 m ρ c)

/-! ## What the stretches write -/

abbrev hostOps0_W : List (Ref sig .tc) := [main_v0, main_v1, main_v2, main_v3, main_v4, main_v5, main_v6, main_v7, main_v8, main_v9, main_c, main_v10, main_v11, main_c_0, main_v12, main_v13, main_v14, main_v15, main_v16, main_v17, main_c_1, main_v18, main_v19, main_c_2, main_v20, main_v21, main_v22, main_v23, main_v24, main_v25, main_v26, main_v27]
abbrev hostOps1_W : List (Ref sig .tc) := [main_v29, main_v30, main_cst, main_v31, main_v32, main_v33, main_cst_3, main_v34, main_v35, main_v36, main_v37, main_v38, main_v39, main_v40, main_v41, main_cst_4, main_v42, main_v43, main_v44, main_v45, main_v46, main_v47, main_v48, main_v49, main_v50, main_v51, main_v52, main_cst_5, main_v53, main_v54, main_v55, main_cst_6, main_v56, main_v57, main_v58, main_v59, main_v60, main_v61, main_v62, main_v63, main_c_7, main_v64, main_v65, main_c_8, main_v66, main_v67, main_v68, main_v69, main_v70, main_c_9, main_v71, main_v72, main_c_10, main_v73, main_v74, main_v75, main_v76, main_v77, main_v78, main_v79, main_v80, main_v81, main_v82, main_v83, main_v84, main_v85, main_v86, main_v87, main_v88, main_v89]
abbrev hostOps2_W : List (Ref sig .tc) := [main_v91, main_v92, main_v93, main_v94, main_v95, main_cst_11, main_v96, main_v97, main_v98, main_v99, main_v100, main_v101, main_v102, main_cst_12, main_v103, main_v104, main_v105, main_cst_13, main_v106, main_v107, main_v108, main_v109, main_cst_14, main_v110, main_v111, main_v112, main_cst_15, main_v113, main_v114, main_v115]

set_option maxHeartbeats 4000000 in
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps2_writes : (hostOps2 : List (HloOp τ sig (Elt F))).Forall fun op => op.writes ⊆ (hostOps2_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-- A buffer no stretch writes and no region holds as an array ends as launched. -/
theorem W5_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  (W5_of m ρ c r h2).trans <| (W4_of_ne m ρ c r ha1).trans <| (W3_of m ρ c r h1).trans <| (W2_of_ne m ρ c r ha0).trans <|
    (W1_of m ρ c r h0).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at what the pipeline leaves; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at what the pipeline leaves; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN, at any `F`: from any memory with zero counters every weakly fair execution of @main on the TensorCore
    terminates, nothing faulting, and every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Hand

end
-- ==== Proof.Frames.lean ====
/-
  The three frames: each program runs to the end from any memory with zero counters, nothing faulting, and leaves its
  argument arrays as launched. The two kernel programs by their runs (no stretch of host operations writes an argument
  and no region holds one as a window's array); the reference by its run read back.
-/
import proofs.«108219_j35407710388663_2_alg».proof.Defs
import proofs.«108219_j35407710388663_2_alg».proof.Proof.KRun
import proofs.«108219_j35407710388663_2_alg».proof.Proof.KIRun
import proofs.«108219_j35407710388663_2_alg».proof.Proof.Gen.ReferenceIdeal.Run
import proofs.«108219_j35407710388663_2_alg».proof.Proof.Gen.Pre_finite_inputs

set_option maxRecDepth 16384

noncomputable section

namespace Cert.Proof.Frames

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c =>
    ⟨(h c _ (Cert.Kernel.Hand.mem_uc Cert.Kernel.main_arg0 (by decide))).trans (Cert.Kernel.Hand.W5_kept m ρ c Cert.Kernel.main_arg0 (by decide) (by decide) (by decide) (by decide) (by decide)),
      (h c _ (Cert.Kernel.Hand.mem_uc Cert.Kernel.main_arg1 (by decide))).trans (Cert.Kernel.Hand.W5_kept m ρ c Cert.Kernel.main_arg1 (by decide) (by decide) (by decide) (by decide) (by decide)),
      (h c _ (Cert.Kernel.Hand.mem_uc Cert.Kernel.main_arg2 (by decide))).trans (Cert.Kernel.Hand.W5_kept m ρ c Cert.Kernel.main_arg2 (by decide) (by decide) (by decide) (by decide) (by decide)),
      (h c _ (Cert.Kernel.Hand.mem_uc Cert.Kernel.main_arg3 (by decide))).trans (Cert.Kernel.Hand.W5_kept m ρ c Cert.Kernel.main_arg3 (by decide) (by decide) (by decide) (by decide) (by decide)),
      (h c _ (Cert.Kernel.Hand.mem_uc Cert.Kernel.main_arg4 (by decide))).trans (Cert.Kernel.Hand.W5_kept m ρ c Cert.Kernel.main_arg4 (by decide) (by decide) (by decide) (by decide) (by decide))⟩)
    (Cert.Kernel.Hand.run_main (F := Bits) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.W5_kept m ρ c Cert.KernelIdeal.main_arg0 (by decide) (by decide) (by decide) (by decide) (by decide)),
      (h c _ (Cert.KernelIdeal.Hand.mem_uc Cert.KernelIdeal.main_arg1 (by decide))).trans (Cert.KernelIdeal.Hand.W5_kept m ρ c Cert.KernelIdeal.main_arg1 (by decide) (by decide) (by decide) (by decide) (by decide)),
      (h c _ (Cert.KernelIdeal.Hand.mem_uc Cert.KernelIdeal.main_arg2 (by decide))).trans (Cert.KernelIdeal.Hand.W5_kept m ρ c Cert.KernelIdeal.main_arg2 (by decide) (by decide) (by decide) (by decide) (by decide)),
      (h c _ (Cert.KernelIdeal.Hand.mem_uc Cert.KernelIdeal.main_arg3 (by decide))).trans (Cert.KernelIdeal.Hand.W5_kept m ρ c Cert.KernelIdeal.main_arg3 (by decide) (by decide) (by decide) (by decide) (by decide)),
      (h c _ (Cert.KernelIdeal.Hand.mem_uc Cert.KernelIdeal.main_arg4 (by decide))).trans (Cert.KernelIdeal.Hand.W5_kept m ρ c Cert.KernelIdeal.main_arg4 (by decide) (by decide) (by decide) (by decide) (by decide))⟩)
    (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.Frames

end
-- ==== Proof.KIOut.lean ====
/-
  What the two message passes of `KernelIdeal` leave in their result arrays: each is, index by index over the 62500 × 128
  layout, the message of the three arrays its store reads — `(s - d) / a` where `a ≠ 0`, `0` elsewhere. A point writes
  back its block's rows inside the array; the 21 blocks cover the 62500 rows (twenty of 3072 and one of 1060), so the
  write-backs folded in grid order leave the whole array at that function.
-/
import proofs.«108219_j35407710388663_2_alg».proof.Proof.KIOblig1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The message of three arrays of one shape, index by index. -/
def msgA {s : Shape} (xs xd a : s.Idx → Elt F .f32) : s.Idx → Elt F .f32 := fun i => msgS (xs i) (xd i) (a i)

/-! ## Result window 4 of pass 1 -/

/-- The printed index maps and cuts, decided over the grid: the input windows the store reads move with the result's
    window; the result's block index on the row axis is the point, on the lane axis zero; and the transfer at a point
    moves 3072 rows, or what is left of the 62500 at the last point, of all 128 lanes. -/
theorem idx0_4 : ∀ t : Fin cfg0.N, win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_4.index t (0 : Fin 2) = t.val ∧ win0_4.index t (1 : Fin 2) = 0
    ∧ win0_4.xsize (grid0.coords t) (0 : Fin 2) = (if (t.val + 1) * 3072 ≤ 62500 then 3072 else 62500 - t.val * 3072)
    ∧ win0_4.xsize (grid0.coords t) (1 : Fin 2) = 128 :=
  (by decide +kernel : ∀ t : Fin grid0.N, _)

/-- What point `t` writes back is block `t` of the messages of the three arrays the store reads, as the region finds them. -/
theorem flushed0_4_eq (c : Dev nD) (t : Fin cfg0.N) :
    (dat0 V c).flushed 4 t = ((cfg0.win 4).blk t).view.read (Elt F) (msgA (V c main_v17) (V c main_v25) (V c main_v26)) := by
  show (cfg0.win 4).cut (grid0.coords t) ((dat0 V c).after 4 t) = _
  rw [after0_4]
  obtain ⟨e0, e1, e2, e3, e4, e5, -, -, -, -⟩ := idx0_4 t
  funext j
  show out0_4 _ _ _ (win0_0.xinj (grid0.coords t) j) = msgS (V c main_v17 (((cfg0.win 4).blk t).view.emb j)) (V c main_v25 (((cfg0.win 4).blk t).view.emb j)) (V c main_v26 (((cfg0.win 4).blk t).view.emb j))
  rw [out0_4_apply]
  refine (congr (congr (congrArg msgS (win0_0.fill_xinj (grid0.coords t) zfill (ib0_0 V c t) j))
    (win0_0.fill_xinj (grid0.coords t) zfill (ib0_1 V c t) j))
    (win0_0.fill_xinj (grid0.coords t) zfill (ib0_2 V c t) j)).trans ?_
  show msgS (V c main_v17 (((cfg0.win 0).blk t).view.emb j)) (V c main_v25 (((cfg0.win 1).blk t).view.emb j)) (V c main_v26 (((cfg0.win 2).blk t).view.emb j)) = _
  have h0 : ((cfg0.win 0).blk t).view.emb j = ((cfg0.win 4).blk t).view.emb j := by
    funext a; apply Fin.ext
    match a with
    | ⟨0, _⟩ => show win0_0.index t (0 : Fin 2) * 3072 + 1 * (j 0).val = win0_4.index t (0 : Fin 2) * 3072 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 3072 + 1 * (j 0).val = win0_4.index t (0 : Fin 2) * 3072 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 3072 + 1 * (j 0).val = win0_4.index t (0 : Fin 2) * 3072 + 1 * (j 0).val; omega
    | ⟨1, _⟩ => show win0_2.index t (1 : Fin 2) * 128 + 1 * (j 1).val = win0_4.index t (1 : Fin 2) * 128 + 1 * (j 1).val; omega
  rw [h0, h1, h2]

/-- An index of the array is in point `t`'s block iff each coordinate is in the range the transfer there moves. -/
theorem mem_blk0_4 (t : Fin cfg0.N) (i : S62500x128.Idx) :
    i ∈ ((cfg0.win 4).blk t).view.set ↔ ∀ a : Fin 2, win0_4.index t a * S3072x128.size a ≤ (i a).val
      ∧ (i a).val < win0_4.index t a * S3072x128.size a + win0_4.xsize (grid0.coords t) a := by
  show i ∈ ((View.whole main_v28_0).slice (win0_4.rect t)).set ↔ _
  rw [View.set_slice_whole, Rect.mem_set_unit]
  exact Iff.rfl

/-- Every row is in the block of the point `row / 3072`: the blocks cover the array, the last one with its 1060 rows. -/
theorem cover0_4 (i : S62500x128.Idx) :
    ∃ t : Fin cfg0.N, (cfg0.win 4).flush t = true ∧ i ∈ ((cfg0.win 4).blk t).view.set := by
  have hi0 : (i 0).val < 62500 := (i 0).isLt
  have hi1 : (i 1).val < 128 := (i 1).isLt
  have hN : (i 0).val / 3072 < cfg0.N := by show _ < grid0.N; rw [N_0]; omega
  obtain ⟨-, -, -, -, -, -, q0, q1, x0, x1⟩ := idx0_4 ⟨(i 0).val / 3072, hN⟩
  refine ⟨⟨(i 0).val / 3072, hN⟩, flush0_4 _, ?_⟩
  rw [mem_blk0_4]
  intro a
  match a with
  | ⟨0, _⟩ =>
    show win0_4.index ⟨(i 0).val / 3072, hN⟩ (0 : Fin 2) * 3072 ≤ (i 0).val
      ∧ (i 0).val < win0_4.index ⟨(i 0).val / 3072, hN⟩ (0 : Fin 2) * 3072 + win0_4.xsize (grid0.coords ⟨(i 0).val / 3072, hN⟩) (0 : Fin 2)
    rw [q0, x0]
    show (i 0).val / 3072 * 3072 ≤ (i 0).val ∧ (i 0).val < (i 0).val / 3072 * 3072 + (if ((i 0).val / 3072 + 1) * 3072 ≤ 62500 then 3072 else 62500 - (i 0).val / 3072 * 3072)
    split <;> omega
  | ⟨1, _⟩ =>
    show win0_4.index ⟨(i 0).val / 3072, hN⟩ (1 : Fin 2) * 128 ≤ (i 1).val
      ∧ (i 1).val < win0_4.index ⟨(i 0).val / 3072, hN⟩ (1 : Fin 2) * 128 + win0_4.xsize (grid0.coords ⟨(i 0).val / 3072, hN⟩) (1 : Fin 2)
    rw [q1, x1]; omega

/-- The array after the region: the messages of the three arrays, index by index. -/
theorem arr0_4 (c : Dev nD) :
    (dat0 V c).arrAt 4 cfg0.N = msgA (V c main_v17) (V c main_v25) (V c main_v26) :=
  (dat0 V c).arrAt_eq_of_cover 4 _ (fun t _ => flushed0_4_eq V c t) cover0_4

/-! ## Result window 5 of pass 1 -/

/-- The printed index maps and cuts, decided over the grid: the input windows the store reads move with the result's
    window; the result's block index on the row axis is the point, on the lane axis zero; and the transfer at a point
    moves 3072 rows, or what is left of the 62500 at the last point, of all 128 lanes. -/
theorem idx0_5 : ∀ t : Fin cfg0.N, win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = win0_5.index t (1 : Fin 2)
    ∧ win0_3.index t (0 : Fin 2) = win0_5.index t (0 : Fin 2) ∧ win0_3.index t (1 : Fin 2) = win0_5.index t (1 : Fin 2)
    ∧ win0_5.index t (0 : Fin 2) = t.val ∧ win0_5.index t (1 : Fin 2) = 0
    ∧ win0_5.xsize (grid0.coords t) (0 : Fin 2) = (if (t.val + 1) * 3072 ≤ 62500 then 3072 else 62500 - t.val * 3072)
    ∧ win0_5.xsize (grid0.coords t) (1 : Fin 2) = 128 :=
  (by decide +kernel : ∀ t : Fin grid0.N, _)

/-- What point `t` writes back is block `t` of the messages of the three arrays the store reads, as the region finds them. -/
theorem flushed0_5_eq (c : Dev nD) (t : Fin cfg0.N) :
    (dat0 V c).flushed 5 t = ((cfg0.win 5).blk t).view.read (Elt F) (msgA (V c main_v17) (V c main_v25) (V c main_v27)) := by
  show (cfg0.win 5).cut (grid0.coords t) ((dat0 V c).after 5 t) = _
  rw [after0_5]
  obtain ⟨e0, e1, e2, e3, e4, e5, -, -, -, -⟩ := idx0_5 t
  funext j
  show out0_5 _ _ _ (win0_0.xinj (grid0.coords t) j) = msgS (V c main_v17 (((cfg0.win 5).blk t).view.emb j)) (V c main_v25 (((cfg0.win 5).blk t).view.emb j)) (V c main_v27 (((cfg0.win 5).blk t).view.emb j))
  rw [out0_5_apply]
  refine (congr (congr (congrArg msgS (win0_0.fill_xinj (grid0.coords t) zfill (ib0_0 V c t) j))
    (win0_0.fill_xinj (grid0.coords t) zfill (ib0_1 V c t) j))
    (win0_0.fill_xinj (grid0.coords t) zfill (ib0_3 V c t) j)).trans ?_
  show msgS (V c main_v17 (((cfg0.win 0).blk t).view.emb j)) (V c main_v25 (((cfg0.win 1).blk t).view.emb j)) (V c main_v27 (((cfg0.win 3).blk t).view.emb j)) = _
  have h0 : ((cfg0.win 0).blk t).view.emb j = ((cfg0.win 5).blk t).view.emb j := by
    funext a; apply Fin.ext
    match a with
    | ⟨0, _⟩ => show win0_0.index t (0 : Fin 2) * 3072 + 1 * (j 0).val = win0_5.index t (0 : Fin 2) * 3072 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 3072 + 1 * (j 0).val = win0_5.index t (0 : Fin 2) * 3072 + 1 * (j 0).val; omega
    | ⟨1, _⟩ => show win0_1.index t (1 : Fin 2) * 128 + 1 * (j 1).val = win0_5.index t (1 : Fin 2) * 128 + 1 * (j 1).val; omega
  have h2 : ((cfg0.win 3).blk t).view.emb j = ((cfg0.win 5).blk t).view.emb j := by
    funext a; apply Fin.ext
    match a with
    | ⟨0, _⟩ => show win0_3.index t (0 : Fin 2) * 3072 + 1 * (j 0).val = win0_5.index t (0 : Fin 2) * 3072 + 1 * (j 0).val; omega
    | ⟨1, _⟩ => show win0_3.index t (1 : Fin 2) * 128 + 1 * (j 1).val = win0_5.index t (1 : Fin 2) * 128 + 1 * (j 1).val; omega
  rw [h0, h1, h2]

/-- An index of the array is in point `t`'s block iff each coordinate is in the range the transfer there moves. -/
theorem mem_blk0_5 (t : Fin cfg0.N) (i : S62500x128.Idx) :
    i ∈ ((cfg0.win 5).blk t).view.set ↔ ∀ a : Fin 2, win0_5.index t a * S3072x128.size a ≤ (i a).val
      ∧ (i a).val < win0_5.index t a * S3072x128.size a + win0_5.xsize (grid0.coords t) a := by
  show i ∈ ((View.whole main_v28_1).slice (win0_5.rect t)).set ↔ _
  rw [View.set_slice_whole, Rect.mem_set_unit]
  exact Iff.rfl

/-- Every row is in the block of the point `row / 3072`: the blocks cover the array, the last one with its 1060 rows. -/
theorem cover0_5 (i : S62500x128.Idx) :
    ∃ t : Fin cfg0.N, (cfg0.win 5).flush t = true ∧ i ∈ ((cfg0.win 5).blk t).view.set := by
  have hi0 : (i 0).val < 62500 := (i 0).isLt
  have hi1 : (i 1).val < 128 := (i 1).isLt
  have hN : (i 0).val / 3072 < cfg0.N := by show _ < grid0.N; rw [N_0]; omega
  obtain ⟨-, -, -, -, -, -, q0, q1, x0, x1⟩ := idx0_5 ⟨(i 0).val / 3072, hN⟩
  refine ⟨⟨(i 0).val / 3072, hN⟩, flush0_5 _, ?_⟩
  rw [mem_blk0_5]
  intro a
  match a with
  | ⟨0, _⟩ =>
    show win0_5.index ⟨(i 0).val / 3072, hN⟩ (0 : Fin 2) * 3072 ≤ (i 0).val
      ∧ (i 0).val < win0_5.index ⟨(i 0).val / 3072, hN⟩ (0 : Fin 2) * 3072 + win0_5.xsize (grid0.coords ⟨(i 0).val / 3072, hN⟩) (0 : Fin 2)
    rw [q0, x0]
    show (i 0).val / 3072 * 3072 ≤ (i 0).val ∧ (i 0).val < (i 0).val / 3072 * 3072 + (if ((i 0).val / 3072 + 1) * 3072 ≤ 62500 then 3072 else 62500 - (i 0).val / 3072 * 3072)
    split <;> omega
  | ⟨1, _⟩ =>
    show win0_5.index ⟨(i 0).val / 3072, hN⟩ (1 : Fin 2) * 128 ≤ (i 1).val
      ∧ (i 1).val < win0_5.index ⟨(i 0).val / 3072, hN⟩ (1 : Fin 2) * 128 + win0_5.xsize (grid0.coords ⟨(i 0).val / 3072, hN⟩) (1 : Fin 2)
    rw [q1, x1]; omega

/-- The array after the region: the messages of the three arrays, index by index. -/
theorem arr0_5 (c : Dev nD) :
    (dat0 V c).arrAt 5 cfg0.N = msgA (V c main_v17) (V c main_v25) (V c main_v27) :=
  (dat0 V c).arrAt_eq_of_cover 5 _ (fun t _ => flushed0_5_eq V c t) cover0_5

/-! ## Result window 6 of pass 2 -/

/-- The printed index maps and cuts, decided over the grid: the input windows the store reads move with the result's
    window; the result's block index on the row axis is the point, on the lane axis zero; and the transfer at a point
    moves 3072 rows, or what is left of the 62500 at the last point, of all 128 lanes. -/
theorem idx1_6 : ∀ t : Fin cfg1.N, win1_0.index t (0 : Fin 2) = win1_6.index t (0 : Fin 2) ∧ win1_0.index t (1 : Fin 2) = win1_6.index t (1 : Fin 2)
    ∧ win1_1.index t (0 : Fin 2) = win1_6.index t (0 : Fin 2) ∧ win1_1.index t (1 : Fin 2) = win1_6.index t (1 : Fin 2)
    ∧ win1_4.index t (0 : Fin 2) = win1_6.index t (0 : Fin 2) ∧ win1_4.index t (1 : Fin 2) = win1_6.index t (1 : Fin 2)
    ∧ win1_6.index t (0 : Fin 2) = t.val ∧ win1_6.index t (1 : Fin 2) = 0
    ∧ win1_6.xsize (grid1.coords t) (0 : Fin 2) = (if (t.val + 1) * 3072 ≤ 62500 then 3072 else 62500 - t.val * 3072)
    ∧ win1_6.xsize (grid1.coords t) (1 : Fin 2) = 128 :=
  (by decide +kernel : ∀ t : Fin grid1.N, _)

/-- What point `t` writes back is block `t` of the messages of the three arrays the store reads, as the region finds them. -/
theorem flushed1_6_eq (c : Dev nD) (t : Fin cfg1.N) :
    (dat1 V c).flushed 6 t = ((cfg1.win 6).blk t).view.read (Elt F) (msgA (V c main_v80) (V c main_v86) (V c main_v26)) := by
  show (cfg1.win 6).cut (grid1.coords t) ((dat1 V c).after 6 t) = _
  rw [after1_6]
  obtain ⟨e0, e1, e2, e3, e4, e5, -, -, -, -⟩ := idx1_6 t
  funext j
  show out1_6 _ _ _ (win1_0.xinj (grid1.coords t) j) = msgS (V c main_v80 (((cfg1.win 6).blk t).view.emb j)) (V c main_v86 (((cfg1.win 6).blk t).view.emb j)) (V c main_v26 (((cfg1.win 6).blk t).view.emb j))
  rw [out1_6_apply]
  refine (congr (congr (congrArg msgS (win1_0.fill_xinj (grid1.coords t) zfill (ib1_0 V c t) j))
    (win1_0.fill_xinj (grid1.coords t) zfill (ib1_1 V c t) j))
    (win1_0.fill_xinj (grid1.coords t) zfill (ib1_4 V c t) j)).trans ?_
  show msgS (V c main_v80 (((cfg1.win 0).blk t).view.emb j)) (V c main_v86 (((cfg1.win 1).blk t).view.emb j)) (V c main_v26 (((cfg1.win 4).blk t).view.emb j)) = _
  have h0 : ((cfg1.win 0).blk t).view.emb j = ((cfg1.win 6).blk t).view.emb j := by
    funext a; apply Fin.ext
    match a with
    | ⟨0, _⟩ => show win1_0.index t (0 : Fin 2) * 3072 + 1 * (j 0).val = win1_6.index t (0 : Fin 2) * 3072 + 1 * (j 0).val; omega
    | ⟨1, _⟩ => show win1_0.index t (1 : Fin 2) * 128 + 1 * (j 1).val = win1_6.index t (1 : Fin 2) * 128 + 1 * (j 1).val; omega
  have h1 : ((cfg1.win 1).blk t).view.emb j = ((cfg1.win 6).blk t).view.emb j := by
    funext a; apply Fin.ext
    match a with
    | ⟨0, _⟩ => show win1_1.index t (0 : Fin 2) * 3072 + 1 * (j 0).val = win1_6.index t (0 : Fin 2) * 3072 + 1 * (j 0).val; omega
    | ⟨1, _⟩ => show win1_1.index t (1 : Fin 2) * 128 + 1 * (j 1).val = win1_6.index t (1 : Fin 2) * 128 + 1 * (j 1).val; omega
  have h2 : ((cfg1.win 4).blk t).view.emb j = ((cfg1.win 6).blk t).view.emb j := by
    funext a; apply Fin.ext
    match a with
    | ⟨0, _⟩ => show win1_4.index t (0 : Fin 2) * 3072 + 1 * (j 0).val = win1_6.index t (0 : Fin 2) * 3072 + 1 * (j 0).val; omega
    | ⟨1, _⟩ => show win1_4.index t (1 : Fin 2) * 128 + 1 * (j 1).val = win1_6.index t (1 : Fin 2) * 128 + 1 * (j 1).val; omega
  rw [h0, h1, h2]

/-- An index of the array is in point `t`'s block iff each coordinate is in the range the transfer there moves. -/
theorem mem_blk1_6 (t : Fin cfg1.N) (i : S62500x128.Idx) :
    i ∈ ((cfg1.win 6).blk t).view.set ↔ ∀ a : Fin 2, win1_6.index t a * S3072x128.size a ≤ (i a).val
      ∧ (i a).val < win1_6.index t a * S3072x128.size a + win1_6.xsize (grid1.coords t) a := by
  show i ∈ ((View.whole main_v90_0).slice (win1_6.rect t)).set ↔ _
  rw [View.set_slice_whole, Rect.mem_set_unit]
  exact Iff.rfl

/-- Every row is in the block of the point `row / 3072`: the blocks cover the array, the last one with its 1060 rows. -/
theorem cover1_6 (i : S62500x128.Idx) :
    ∃ t : Fin cfg1.N, (cfg1.win 6).flush t = true ∧ i ∈ ((cfg1.win 6).blk t).view.set := by
  have hi0 : (i 0).val < 62500 := (i 0).isLt
  have hi1 : (i 1).val < 128 := (i 1).isLt
  have hN : (i 0).val / 3072 < cfg1.N := by show _ < grid1.N; rw [N_1]; omega
  obtain ⟨-, -, -, -, -, -, q0, q1, x0, x1⟩ := idx1_6 ⟨(i 0).val / 3072, hN⟩
  refine ⟨⟨(i 0).val / 3072, hN⟩, flush1_6 _, ?_⟩
  rw [mem_blk1_6]
  intro a
  match a with
  | ⟨0, _⟩ =>
    show win1_6.index ⟨(i 0).val / 3072, hN⟩ (0 : Fin 2) * 3072 ≤ (i 0).val
      ∧ (i 0).val < win1_6.index ⟨(i 0).val / 3072, hN⟩ (0 : Fin 2) * 3072 + win1_6.xsize (grid1.coords ⟨(i 0).val / 3072, hN⟩) (0 : Fin 2)
    rw [q0, x0]
    show (i 0).val / 3072 * 3072 ≤ (i 0).val ∧ (i 0).val < (i 0).val / 3072 * 3072 + (if ((i 0).val / 3072 + 1) * 3072 ≤ 62500 then 3072 else 62500 - (i 0).val / 3072 * 3072)
    split <;> omega
  | ⟨1, _⟩ =>
    show win1_6.index ⟨(i 0).val / 3072, hN⟩ (1 : Fin 2) * 128 ≤ (i 1).val
      ∧ (i 1).val < win1_6.index ⟨(i 0).val / 3072, hN⟩ (1 : Fin 2) * 128 + win1_6.xsize (grid1.coords ⟨(i 0).val / 3072, hN⟩) (1 : Fin 2)
    rw [q1, x1]; omega

/-- The array after the region: the messages of the three arrays, index by index. -/
theorem arr1_6 (c : Dev nD) :
    (dat1 V c).arrAt 6 cfg1.N = msgA (V c main_v80) (V c main_v86) (V c main_v26) :=
  (dat1 V c).arrAt_eq_of_cover 6 _ (fun t _ => flushed1_6_eq V c t) cover1_6

/-! ## Result window 7 of pass 2 -/

/-- The printed index maps and cuts, decided over the grid: the input windows the store reads move with the result's
    window; the result's block index on the row axis is the point, on the lane axis zero; and the transfer at a point
    moves 3072 rows, or what is left of the 62500 at the last point, of all 128 lanes. -/
theorem idx1_7 : ∀ t : Fin cfg1.N, win1_2.index t (0 : Fin 2) = win1_7.index t (0 : Fin 2) ∧ win1_2.index t (1 : Fin 2) = win1_7.index t (1 : Fin 2)
    ∧ win1_3.index t (0 : Fin 2) = win1_7.index t (0 : Fin 2) ∧ win1_3.index t (1 : Fin 2) = win1_7.index t (1 : Fin 2)
    ∧ win1_5.index t (0 : Fin 2) = win1_7.index t (0 : Fin 2) ∧ win1_5.index t (1 : Fin 2) = win1_7.index t (1 : Fin 2)
    ∧ win1_7.index t (0 : Fin 2) = t.val ∧ win1_7.index t (1 : Fin 2) = 0
    ∧ win1_7.xsize (grid1.coords t) (0 : Fin 2) = (if (t.val + 1) * 3072 ≤ 62500 then 3072 else 62500 - t.val * 3072)
    ∧ win1_7.xsize (grid1.coords t) (1 : Fin 2) = 128 :=
  (by decide +kernel : ∀ t : Fin grid1.N, _)

/-- What point `t` writes back is block `t` of the messages of the three arrays the store reads, as the region finds them. -/
theorem flushed1_7_eq (c : Dev nD) (t : Fin cfg1.N) :
    (dat1 V c).flushed 7 t = ((cfg1.win 7).blk t).view.read (Elt F) (msgA (V c main_v83) (V c main_v89) (V c main_v27)) := by
  show (cfg1.win 7).cut (grid1.coords t) ((dat1 V c).after 7 t) = _
  rw [after1_7]
  obtain ⟨e0, e1, e2, e3, e4, e5, -, -, -, -⟩ := idx1_7 t
  funext j
  show out1_7 _ _ _ (win1_0.xinj (grid1.coords t) j) = msgS (V c main_v83 (((cfg1.win 7).blk t).view.emb j)) (V c main_v89 (((cfg1.win 7).blk t).view.emb j)) (V c main_v27 (((cfg1.win 7).blk t).view.emb j))
  rw [out1_7_apply]
  refine (congr (congr (congrArg msgS (win1_0.fill_xinj (grid1.coords t) zfill (ib1_2 V c t) j))
    (win1_0.fill_xinj (grid1.coords t) zfill (ib1_3 V c t) j))
    (win1_0.fill_xinj (grid1.coords t) zfill (ib1_5 V c t) j)).trans ?_
  show msgS (V c main_v83 (((cfg1.win 2).blk t).view.emb j)) (V c main_v89 (((cfg1.win 3).blk t).view.emb j)) (V c main_v27 (((cfg1.win 5).blk t).view.emb j)) = _
  have h0 : ((cfg1.win 2).blk t).view.emb j = ((cfg1.win 7).blk t).view.emb j := by
    funext a; apply Fin.ext
    match a with
    | ⟨0, _⟩ => show win1_2.index t (0 : Fin 2) * 3072 + 1 * (j 0).val = win1_7.index t (0 : Fin 2) * 3072 + 1 * (j 0).val; omega
    | ⟨1, _⟩ => show win1_2.index t (1 : Fin 2) * 128 + 1 * (j 1).val = win1_7.index t (1 : Fin 2) * 128 + 1 * (j 1).val; omega
  have h1 : ((cfg1.win 3).blk t).view.emb j = ((cfg1.win 7).blk t).view.emb j := by
    funext a; apply Fin.ext
    match a with
    | ⟨0, _⟩ => show win1_3.index t (0 : Fin 2) * 3072 + 1 * (j 0).val = win1_7.index t (0 : Fin 2) * 3072 + 1 * (j 0).val; omega
    | ⟨1, _⟩ => show win1_3.index t (1 : Fin 2) * 128 + 1 * (j 1).val = win1_7.index t (1 : Fin 2) * 128 + 1 * (j 1).val; omega
  have h2 : ((cfg1.win 5).blk t).view.emb j = ((cfg1.win 7).blk t).view.emb j := by
    funext a; apply Fin.ext
    match a with
    | ⟨0, _⟩ => show win1_5.index t (0 : Fin 2) * 3072 + 1 * (j 0).val = win1_7.index t (0 : Fin 2) * 3072 + 1 * (j 0).val; omega
    | ⟨1, _⟩ => show win1_5.index t (1 : Fin 2) * 128 + 1 * (j 1).val = win1_7.index t (1 : Fin 2) * 128 + 1 * (j 1).val; omega
  rw [h0, h1, h2]

/-- An index of the array is in point `t`'s block iff each coordinate is in the range the transfer there moves. -/
theorem mem_blk1_7 (t : Fin cfg1.N) (i : S62500x128.Idx) :
    i ∈ ((cfg1.win 7).blk t).view.set ↔ ∀ a : Fin 2, win1_7.index t a * S3072x128.size a ≤ (i a).val
      ∧ (i a).val < win1_7.index t a * S3072x128.size a + win1_7.xsize (grid1.coords t) a := by
  show i ∈ ((View.whole main_v90_1).slice (win1_7.rect t)).set ↔ _
  rw [View.set_slice_whole, Rect.mem_set_unit]
  exact Iff.rfl

/-- Every row is in the block of the point `row / 3072`: the blocks cover the array, the last one with its 1060 rows. -/
theorem cover1_7 (i : S62500x128.Idx) :
    ∃ t : Fin cfg1.N, (cfg1.win 7).flush t = true ∧ i ∈ ((cfg1.win 7).blk t).view.set := by
  have hi0 : (i 0).val < 62500 := (i 0).isLt
  have hi1 : (i 1).val < 128 := (i 1).isLt
  have hN : (i 0).val / 3072 < cfg1.N := by show _ < grid1.N; rw [N_1]; omega
  obtain ⟨-, -, -, -, -, -, q0, q1, x0, x1⟩ := idx1_7 ⟨(i 0).val / 3072, hN⟩
  refine ⟨⟨(i 0).val / 3072, hN⟩, flush1_7 _, ?_⟩
  rw [mem_blk1_7]
  intro a
  match a with
  | ⟨0, _⟩ =>
    show win1_7.index ⟨(i 0).val / 3072, hN⟩ (0 : Fin 2) * 3072 ≤ (i 0).val
      ∧ (i 0).val < win1_7.index ⟨(i 0).val / 3072, hN⟩ (0 : Fin 2) * 3072 + win1_7.xsize (grid1.coords ⟨(i 0).val / 3072, hN⟩) (0 : Fin 2)
    rw [q0, x0]
    show (i 0).val / 3072 * 3072 ≤ (i 0).val ∧ (i 0).val < (i 0).val / 3072 * 3072 + (if ((i 0).val / 3072 + 1) * 3072 ≤ 62500 then 3072 else 62500 - (i 0).val / 3072 * 3072)
    split <;> omega
  | ⟨1, _⟩ =>
    show win1_7.index ⟨(i 0).val / 3072, hN⟩ (1 : Fin 2) * 128 ≤ (i 1).val
      ∧ (i 1).val < win1_7.index ⟨(i 0).val / 3072, hN⟩ (1 : Fin 2) * 128 + win1_7.xsize (grid1.coords ⟨(i 0).val / 3072, hN⟩) (1 : Fin 2)
    rw [q1, x1]; omega

/-- The array after the region: the messages of the three arrays, index by index. -/
theorem arr1_7 (c : Dev nD) :
    (dat1 V c).arrAt 7 cfg1.N = msgA (V c main_v83) (V c main_v89) (V c main_v27) :=
  (dat1 V c).arrAt_eq_of_cover 7 _ (fun t _ => flushed1_7_eq V c t) cover1_7

end Cert.KernelIdeal.Hand

end
-- ==== Proof.KIHostVal.lean ====
/-
  The three stretches of host operations of `KernelIdeal`'s @main as functions: each operation's result as its
  function applied to its operands' results, over the buffers the stretch reads and does not write; and, for the buffers
  a later segment reads, that the stretch leaves them at those functions of the contents it was entered with.
-/
import proofs.«108219_j35407710388663_2_alg».proof.Proof.Gen.KernelIdeal.Launch
import Idealize.ShloMosaic.Lib.StableHlo.Run

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo

variable {F : FTy → Type} [FloatOps F]

/-! ## The first stretch: the edge lists, the flat node arrays, the attribute planes, the gathered endpoints -/

def h0_v0 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S1x8000000, .i32⟩ : BufTy).Contents (Elt F) :=
  ((extractStridedSlice S1x8000000 ![0, 0] · slices_S2x8000000_S1x8000000_0_0) : (⟨S2x8000000, .i32⟩ : BufTy).Contents (Elt F) → (⟨S1x8000000, .i32⟩ : BufTy).Contents (Elt F)) z_arg2
def h0_v1 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  shapeCast S8000000 (h0_v0 (F := F) z_arg2 z_arg0 z_arg1 z_arg3) shapeCasts_S1x8000000_S8000000
def h0_v2 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S1x8000000, .i32⟩ : BufTy).Contents (Elt F) :=
  ((extractStridedSlice S1x8000000 ![1, 0] · slices_S2x8000000_S1x8000000_1_0) : (⟨S2x8000000, .i32⟩ : BufTy).Contents (Elt F) → (⟨S1x8000000, .i32⟩ : BufTy).Contents (Elt F)) z_arg2
def h0_v3 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  shapeCast S8000000 (h0_v2 (F := F) z_arg2 z_arg0 z_arg1 z_arg3) shapeCasts_S1x8000000_S8000000
def h0_v4 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S1000000, .f32⟩ : BufTy).Contents (Elt F) :=
  shapeCast S1000000 z_arg0 shapeCasts_S1000000x1_S1000000
def h0_v5 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S1000000, .f32⟩ : BufTy).Contents (Elt F) :=
  shapeCast S1000000 z_arg1 shapeCasts_S1000000x1_S1000000
def h0_v6 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000x1, .f32⟩ : BufTy).Contents (Elt F) :=
  ((extractStridedSlice S8000000x1 ![0, 0] · slices_S8000000x2_S8000000x1_0_0) : (⟨S8000000x2, .f32⟩ : BufTy).Contents (Elt F) → (⟨S8000000x1, .f32⟩ : BufTy).Contents (Elt F)) z_arg3
def h0_v7 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .f32⟩ : BufTy).Contents (Elt F) :=
  shapeCast S8000000 (h0_v6 (F := F) z_arg2 z_arg0 z_arg1 z_arg3) shapeCasts_S8000000x1_S8000000
def h0_v8 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000x1, .f32⟩ : BufTy).Contents (Elt F) :=
  ((extractStridedSlice S8000000x1 ![0, 1] · slices_S8000000x2_S8000000x1_0_1) : (⟨S8000000x2, .f32⟩ : BufTy).Contents (Elt F) → (⟨S8000000x1, .f32⟩ : BufTy).Contents (Elt F)) z_arg3
def h0_v9 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .f32⟩ : BufTy).Contents (Elt F) :=
  shapeCast S8000000 (h0_v8 (F := F) z_arg2 z_arg0 z_arg1 z_arg3) shapeCasts_S8000000x1_S8000000
def h0_c (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S_, .i32⟩ : BufTy).Contents (Elt F) :=
  constantI S_ 32 0#32
def h0_v10 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  (broadcastInDim S8000000 ![] bcast_S_S8000000 : (⟨S_, .i32⟩ : BufTy).Contents (Elt F) → (⟨S8000000, .i32⟩ : BufTy).Contents (Elt F)) (h0_c (F := F) z_arg2 z_arg0 z_arg1 z_arg3)
def h0_v11 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i1⟩ : BufTy).Contents (Elt F) :=
  (cmpi .slt : (⟨S8000000, .i32⟩ : BufTy).Contents (Elt F) → (⟨S8000000, .i32⟩ : BufTy).Contents (Elt F) → (⟨S8000000, .i1⟩ : BufTy).Contents (Elt F)) (h0_v1 (F := F) z_arg2 z_arg0 z_arg1 z_arg3) (h0_v10 (F := F) z_arg2 z_arg0 z_arg1 z_arg3)
def h0_c_0 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S_, .i32⟩ : BufTy).Contents (Elt F) :=
  constantI S_ 32 1000000#32
def h0_v12 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  (broadcastInDim S8000000 ![] bcast_S_S8000000 : (⟨S_, .i32⟩ : BufTy).Contents (Elt F) → (⟨S8000000, .i32⟩ : BufTy).Contents (Elt F)) (h0_c_0 (F := F) z_arg2 z_arg0 z_arg1 z_arg3)
def h0_v13 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  (addi : (⟨S8000000, .i32⟩ : BufTy).Contents (Elt F) → (⟨S8000000, .i32⟩ : BufTy).Contents (Elt F) → (⟨S8000000, .i32⟩ : BufTy).Contents (Elt F)) (h0_v1 (F := F) z_arg2 z_arg0 z_arg1 z_arg3) (h0_v12 (F := F) z_arg2 z_arg0 z_arg1 z_arg3)
def h0_v14 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)) (h0_v11 (F := F) z_arg2 z_arg0 z_arg1 z_arg3) (h0_v13 (F := F) z_arg2 z_arg0 z_arg1 z_arg3) (h0_v1 (F := F) z_arg2 z_arg0 z_arg1 z_arg3)
def h0_v15 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000x1, .i32⟩ : BufTy).Contents (Elt F) :=
  (broadcastInDim S8000000x1 ![0] bcast_S8000000_S8000000x1_0 : (⟨S8000000, .i32⟩ : BufTy).Contents (Elt F) → (⟨S8000000x1, .i32⟩ : BufTy).Contents (Elt F)) (h0_v14 (F := F) z_arg2 z_arg0 z_arg1 z_arg3)
def h0_v16 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .f32⟩ : BufTy).Contents (Elt F) :=
  ((fun x i => Host.gather gather_S1000000_S8000000x1_S8000000_n_0_n_n_0_1_1 x i) : (⟨S1000000, .f32⟩ : BufTy).Contents (Elt F) → (⟨S8000000x1, .i32⟩ : BufTy).Contents (Elt F) → (⟨S8000000, .f32⟩ : BufTy).Contents (Elt F)) (h0_v4 (F := F) z_arg2 z_arg0 z_arg1 z_arg3) (h0_v15 (F := F) z_arg2 z_arg0 z_arg1 z_arg3)
def h0_v17 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S62500x128, .f32⟩ : BufTy).Contents (Elt F) :=
  shapeCast S62500x128 (h0_v16 (F := F) z_arg2 z_arg0 z_arg1 z_arg3) shapeCasts_S8000000_S62500x128
def h0_c_1 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S_, .i32⟩ : BufTy).Contents (Elt F) :=
  constantI S_ 32 0#32
def h0_v18 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  (broadcastInDim S8000000 ![] bcast_S_S8000000 : (⟨S_, .i32⟩ : BufTy).Contents (Elt F) → (⟨S8000000, .i32⟩ : BufTy).Contents (Elt F)) (h0_c_1 (F := F) z_arg2 z_arg0 z_arg1 z_arg3)
def h0_v19 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i1⟩ : BufTy).Contents (Elt F) :=
  (cmpi .slt : (⟨S8000000, .i32⟩ : BufTy).Contents (Elt F) → (⟨S8000000, .i32⟩ : BufTy).Contents (Elt F) → (⟨S8000000, .i1⟩ : BufTy).Contents (Elt F)) (h0_v3 (F := F) z_arg2 z_arg0 z_arg1 z_arg3) (h0_v18 (F := F) z_arg2 z_arg0 z_arg1 z_arg3)
def h0_c_2 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S_, .i32⟩ : BufTy).Contents (Elt F) :=
  constantI S_ 32 1000000#32
def h0_v20 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  (broadcastInDim S8000000 ![] bcast_S_S8000000 : (⟨S_, .i32⟩ : BufTy).Contents (Elt F) → (⟨S8000000, .i32⟩ : BufTy).Contents (Elt F)) (h0_c_2 (F := F) z_arg2 z_arg0 z_arg1 z_arg3)
def h0_v21 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  (addi : (⟨S8000000, .i32⟩ : BufTy).Contents (Elt F) → (⟨S8000000, .i32⟩ : BufTy).Contents (Elt F) → (⟨S8000000, .i32⟩ : BufTy).Contents (Elt F)) (h0_v3 (F := F) z_arg2 z_arg0 z_arg1 z_arg3) (h0_v20 (F := F) z_arg2 z_arg0 z_arg1 z_arg3)
def h0_v22 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .i32⟩ : BufTy).Contents (Elt F) :=
  (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)) (h0_v19 (F := F) z_arg2 z_arg0 z_arg1 z_arg3) (h0_v21 (F := F) z_arg2 z_arg0 z_arg1 z_arg3) (h0_v3 (F := F) z_arg2 z_arg0 z_arg1 z_arg3)
def h0_v23 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000x1, .i32⟩ : BufTy).Contents (Elt F) :=
  (broadcastInDim S8000000x1 ![0] bcast_S8000000_S8000000x1_0 : (⟨S8000000, .i32⟩ : BufTy).Contents (Elt F) → (⟨S8000000x1, .i32⟩ : BufTy).Contents (Elt F)) (h0_v22 (F := F) z_arg2 z_arg0 z_arg1 z_arg3)
def h0_v24 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S8000000, .f32⟩ : BufTy).Contents (Elt F) :=
  ((fun x i => Host.gather gather_S1000000_S8000000x1_S8000000_n_0_n_n_0_1_1 x i) : (⟨S1000000, .f32⟩ : BufTy).Contents (Elt F) → (⟨S8000000x1, .i32⟩ : BufTy).Contents (Elt F) → (⟨S8000000, .f32⟩ : BufTy).Contents (Elt F)) (h0_v4 (F := F) z_arg2 z_arg0 z_arg1 z_arg3) (h0_v23 (F := F) z_arg2 z_arg0 z_arg1 z_arg3)
def h0_v25 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S62500x128, .f32⟩ : BufTy).Contents (Elt F) :=
  shapeCast S62500x128 (h0_v24 (F := F) z_arg2 z_arg0 z_arg1 z_arg3) shapeCasts_S8000000_S62500x128
def h0_v26 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S62500x128, .f32⟩ : BufTy).Contents (Elt F) :=
  shapeCast S62500x128 (h0_v7 (F := F) z_arg2 z_arg0 z_arg1 z_arg3) shapeCasts_S8000000_S62500x128
def h0_v27 (z_arg2 : (⟨S2x8000000, .i32⟩ : BufTy).Contents (Elt F)) (z_arg0 : (⟨S1000000x1, .f32⟩ : BufTy).Contents (Elt F)) (z_arg1 : (⟨S1000000x1, .f32⟩ : BufTy).Contents (Elt F)) (z_arg3 : (⟨S8000000x2, .f32⟩ : BufTy).Contents (Elt F)) : (⟨S62500x128, .f32⟩ : BufTy).Contents (Elt F) :=
  shapeCast S62500x128 (h0_v9 (F := F) z_arg2 z_arg0 z_arg1 z_arg3) shapeCasts_S8000000_S62500x128

/-! ## The second stretch: the first pass's sums and counts, the flow, its gathered endpoints -/

def h1_v29 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  shapeCast S8000000 z_v28_0 shapeCasts_S62500x128_S8000000
def h1_v30 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  shapeCast S8000000 z_v28_1 shapeCasts_S62500x128_S8000000
def h1_cst (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .f32⟩ : BufTy).Contents (Elt F) :=
  constant (F := F) S_ .f32 0x00000000#32
def h1_v31 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  (broadcastInDim S8000000 ![] bcast_S_S8000000 : (⟨S_, .f32⟩ : BufTy).Contents (Elt F) → (⟨S8000000, .f32⟩ : BufTy).Contents (Elt F)) (h1_cst (F := F) z_v28_0 z_v28_1 z_v7 z_v9 z_v3 z_v5 z_v1)
def h1_v32 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i1⟩ : BufTy).Contents (Elt F) :=
  (cmpf .une : (⟨S8000000, .f32⟩ : BufTy).Contents (Elt F) → (⟨S8000000, .f32⟩ : BufTy).Contents (Elt F) → (⟨S8000000, .i1⟩ : BufTy).Contents (Elt F)) z_v7 (h1_v31 (F := F) z_v28_0 z_v28_1 z_v7 z_v9 z_v3 z_v5 z_v1)
def h1_v33 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  (uitofp .f32 : (⟨S8000000, .i1⟩ : BufTy).Contents (Elt F) → (⟨S8000000, .f32⟩ : BufTy).Contents (Elt F)) (h1_v32 (F := F) z_v28_0 z_v28_1 z_v7 z_v9 z_v3 z_v5 z_v1)
def h1_cst_3 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .f32⟩ : BufTy).Contents (Elt F) :=
  constant (F := F) S_ .f32 0x00000000#32
def h1_v34 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  (broadcastInDim S8000000 ![] bcast_S_S8000000 : (⟨S_, .f32⟩ : BufTy).Contents (Elt F) → (⟨S8000000, .f32⟩ : BufTy).Contents (Elt F)) (h1_cst_3 (F := F) z_v28_0 z_v28_1 z_v7 z_v9 z_v3 z_v5 z_v1)
def h1_v35 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i1⟩ : BufTy).Contents (Elt F) :=
  (cmpf .une : (⟨S8000000, .f32⟩ : BufTy).Contents (Elt F) → (⟨S8000000, .f32⟩ : BufTy).Contents (Elt F) → (⟨S8000000, .i1⟩ : BufTy).Contents (Elt F)) z_v9 (h1_v34 (F := F) z_v28_0 z_v28_1 z_v7 z_v9 z_v3 z_v5 z_v1)
def h1_v36 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  (uitofp .f32 : (⟨S8000000, .i1⟩ : BufTy).Contents (Elt F) → (⟨S8000000, .f32⟩ : BufTy).Contents (Elt F)) (h1_v35 (F := F) z_v28_0 z_v28_1 z_v7 z_v9 z_v3 z_v5 z_v1)
def h1_v37 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .f32⟩ : BufTy).Contents (Elt F) :=
  (broadcastInDim S8000000x1 ![0] bcast_S8000000_S8000000x1_0 : (⟨S8000000, .f32⟩ : BufTy).Contents (Elt F) → (⟨S8000000x1, .f32⟩ : BufTy).Contents (Elt F)) (h1_v29 (F := F) z_v28_0 z_v28_1 z_v7 z_v9 z_v3 z_v5 z_v1)
def h1_v38 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .f32⟩ : BufTy).Contents (Elt F) :=
  (broadcastInDim S8000000x1 ![0] bcast_S8000000_S8000000x1_0 : (⟨S8000000, .f32⟩ : BufTy).Contents (Elt F) → (⟨S8000000x1, .f32⟩ : BufTy).Contents (Elt F)) (h1_v30 (F := F) z_v28_0 z_v28_1 z_v7 z_v9 z_v3 z_v5 z_v1)
def h1_v39 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .f32⟩ : BufTy).Contents (Elt F) :=
  (broadcastInDim S8000000x1 ![0] bcast_S8000000_S8000000x1_0 : (⟨S8000000, .f32⟩ : BufTy).Contents (Elt F) → (⟨S8000000x1, .f32⟩ : BufTy).Contents (Elt F)) (h1_v33 (F := F) z_v28_0 z_v28_1 z_v7 z_v9 z_v3 z_v5 z_v1)
def h1_v40 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .f32⟩ : BufTy).Contents (Elt F) :=
  (broadcastInDim S8000000x1 ![0] bcast_S8000000_S8000000x1_0 : (⟨S8000000, .f32⟩ : BufTy).Contents (Elt F) → (⟨S8000000x1, .f32⟩ : BufTy).Contents (Elt F)) (h1_v36 (F := F) z_v28_0 z_v28_1 z_v7 z_v9 z_v3 z_v5 z_v1)
def h1_v41 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x4, .f32⟩ : BufTy).Contents (Elt F) :=
  concatenate S8000000x4 1 [⟨S8000000x1, (h1_v37 (F := F) z_v28_0 z_v28_1 z_v7 z_v9 z_v3 z_v5 z_v1)⟩, ⟨S8000000x1, (h1_v38 (F := F) z_v28_0 z_v28_1 z_v7 z_v9 z_v3 z_v5 z_v1)⟩, ⟨S8000000x1, (h1_v39 (F := F) z_v28_0 z_v28_1 z_v7 z_v9 z_v3 z_v5 z_v1)⟩, ⟨S8000000x1, (h1_v40 (F := F) z_v28_0 z_v28_1 z_v7 z_v9 z_v3 z_v5 z_v1)⟩] concatenates_S8000000x1_S8000000x1_S8000000x1_S8000000x1_S8000000x4_d1
def h1_cst_4 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .f32⟩ : BufTy).Contents (Elt F) :=
  constant (F := F) S_ .f32 0x00000000#32
def h1_v42 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x4, .f32⟩ : BufTy).Contents (Elt F) :=
  (broadcastInDim S1000000x4 ![] bcast_S_S1000000x4 : (⟨S_, .f32⟩ : BufTy).Contents (Elt F) → (⟨S1000000x4, .f32⟩ : BufTy).Contents (Elt F)) (h1_cst_4 (F := F) z_v28_0 z_v28_1 z_v7 z_v9 z_v3 z_v5 z_v1)
def h1_v43 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .i32⟩ : BufTy).Contents (Elt F) :=
  (broadcastInDim S8000000x1 ![0] bcast_S8000000_S8000000x1_0 : (⟨S8000000, .i32⟩ : BufTy).Contents (Elt F) → (⟨S8000000x1, .i32⟩ : BufTy).Contents (Elt F)) z_v3
def h1_v44 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x4, .f32⟩ : BufTy).Contents (Elt F) :=
  ((fun x i u => Host.scatterAdd scatter_S1000000x4_S8000000x1_S8000000x4_1_0_0_1 x i u) : (⟨S1000000x4, .f32⟩ : BufTy).Contents (Elt F) → (⟨S8000000x1, .i32⟩ : BufTy).Contents (Elt F) → (⟨S8000000x4, .f32⟩ : BufTy).Contents (Elt F) → (⟨S1000000x4, .f32⟩ : BufTy).Contents (Elt F)) (h1_v42 (F := F) z_v28_0 z_v28_1 z_v7 z_v9 z_v3 z_v5 z_v1) (h1_v43 (F := F) z_v28_0 z_v28_1 z_v7 z_v9 z_v3 z_v5 z_v1) (h1_v41 (F := F) z_v28_0 z_v28_1 z_v7 z_v9 z_v3 z_v5 z_v1)
def h1_v45 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x1, .f32⟩ : BufTy).Contents (Elt F) :=
  ((extractStridedSlice S1000000x1 ![0, 0] · slices_S1000000x4_S1000000x1_0_0) : (⟨S1000000x4, .f32⟩ : BufTy).Contents (Elt F) → (⟨S1000000x1, .f32⟩ : BufTy).Contents (Elt F)) (h1_v44 (F := F) z_v28_0 z_v28_1 z_v7 z_v9 z_v3 z_v5 z_v1)
def h1_v46 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  shapeCast S1000000 (h1_v45 (F := F) z_v28_0 z_v28_1 z_v7 z_v9 z_v3 z_v5 z_v1) shapeCasts_S1000000x1_S1000000
def h1_v47 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x1, .f32⟩ : BufTy).Contents (Elt F) :=
  ((extractStridedSlice S1000000x1 ![0, 1] · slices_S1000000x4_S1000000x1_0_1) : (⟨S1000000x4, .f32⟩ : BufTy).Contents (Elt F) → (⟨S1000000x1, .f32⟩ : BufTy).Contents (Elt F)) (h1_v44 (F := F) z_v28_0 z_v28_1 z_v7 z_v9 z_v3 z_v5 z_v1)
def h1_v48 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  shapeCast S1000000 (h1_v47 (F := F) z_v28_0 z_v28_1 z_v7 z_v9 z_v3 z_v5 z_v1) shapeCasts_S1000000x1_S1000000
def h1_v49 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x1, .f32⟩ : BufTy).Contents (Elt F) :=
  ((extractStridedSlice S1000000x1 ![0, 2] · slices_S1000000x4_S1000000x1_0_2) : (⟨S1000000x4, .f32⟩ : BufTy).Contents (Elt F) → (⟨S1000000x1, .f32⟩ : BufTy).Contents (Elt F)) (h1_v44 (F := F) z_v28_0 z_v28_1 z_v7 z_v9 z_v3 z_v5 z_v1)
def h1_v50 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  shapeCast S1000000 (h1_v49 (F := F) z_v28_0 z_v28_1 z_v7 z_v9 z_v3 z_v5 z_v1) shapeCasts_S1000000x1_S1000000
def h1_v51 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x1, .f32⟩ : BufTy).Contents (Elt F) :=
  ((extractStridedSlice S1000000x1 ![0, 3] · slices_S1000000x4_S1000000x1_0_3) : (⟨S1000000x4, .f32⟩ : BufTy).Contents (Elt F) → (⟨S1000000x1, .f32⟩ : BufTy).Contents (Elt F)) (h1_v44 (F := F) z_v28_0 z_v28_1 z_v7 z_v9 z_v3 z_v5 z_v1)
def h1_v52 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  shapeCast S1000000 (h1_v51 (F := F) z_v28_0 z_v28_1 z_v7 z_v9 z_v3 z_v5 z_v1) shapeCasts_S1000000x1_S1000000
def h1_cst_5 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .f32⟩ : BufTy).Contents (Elt F) :=
  constant (F := F) S_ .f32 0x3F800000#32
def h1_v53 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (h1_cst_5 (F := F) z_v28_0 z_v28_1 z_v7 z_v9 z_v3 z_v5 z_v1)
def h1_v54 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (h1_v50 (F := F) z_v28_0 z_v28_1 z_v7 z_v9 z_v3 z_v5 z_v1) (h1_v53 (F := F) z_v28_0 z_v28_1 z_v7 z_v9 z_v3 z_v5 z_v1)
def h1_v55 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  (Host.divf : (⟨S1000000, .f32⟩ : BufTy).Contents (Elt F) → (⟨S1000000, .f32⟩ : BufTy).Contents (Elt F) → (⟨S1000000, .f32⟩ : BufTy).Contents (Elt F)) (h1_v46 (F := F) z_v28_0 z_v28_1 z_v7 z_v9 z_v3 z_v5 z_v1) (h1_v54 (F := F) z_v28_0 z_v28_1 z_v7 z_v9 z_v3 z_v5 z_v1)
def h1_cst_6 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .f32⟩ : BufTy).Contents (Elt F) :=
  constant (F := F) S_ .f32 0x3F800000#32
def h1_v56 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (h1_cst_6 (F := F) z_v28_0 z_v28_1 z_v7 z_v9 z_v3 z_v5 z_v1)
def h1_v57 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) (h1_v52 (F := F) z_v28_0 z_v28_1 z_v7 z_v9 z_v3 z_v5 z_v1) (h1_v56 (F := F) z_v28_0 z_v28_1 z_v7 z_v9 z_v3 z_v5 z_v1)
def h1_v58 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  (Host.divf : (⟨S1000000, .f32⟩ : BufTy).Contents (Elt F) → (⟨S1000000, .f32⟩ : BufTy).Contents (Elt F) → (⟨S1000000, .f32⟩ : BufTy).Contents (Elt F)) (h1_v48 (F := F) z_v28_0 z_v28_1 z_v7 z_v9 z_v3 z_v5 z_v1) (h1_v57 (F := F) z_v28_0 z_v28_1 z_v7 z_v9 z_v3 z_v5 z_v1)
def h1_v59 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) z_v5 (h1_v55 (F := F) z_v28_0 z_v28_1 z_v7 z_v9 z_v3 z_v5 z_v1)
def h1_v60 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) z_v5 (h1_v58 (F := F) z_v28_0 z_v28_1 z_v7 z_v9 z_v3 z_v5 z_v1)
def h1_v61 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x1, .f32⟩ : BufTy).Contents (Elt F) :=
  (broadcastInDim S1000000x1 ![0] bcast_S1000000_S1000000x1_0 : (⟨S1000000, .f32⟩ : BufTy).Contents (Elt F) → (⟨S1000000x1, .f32⟩ : BufTy).Contents (Elt F)) (h1_v59 (F := F) z_v28_0 z_v28_1 z_v7 z_v9 z_v3 z_v5 z_v1)
def h1_v62 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x1, .f32⟩ : BufTy).Contents (Elt F) :=
  (broadcastInDim S1000000x1 ![0] bcast_S1000000_S1000000x1_0 : (⟨S1000000, .f32⟩ : BufTy).Contents (Elt F) → (⟨S1000000x1, .f32⟩ : BufTy).Contents (Elt F)) (h1_v60 (F := F) z_v28_0 z_v28_1 z_v7 z_v9 z_v3 z_v5 z_v1)
def h1_v63 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S1000000x2, .f32⟩ : BufTy).Contents (Elt F) :=
  ((fun a b => concatenate S1000000x2 1 [⟨S1000000x1, a⟩, ⟨S1000000x1, b⟩] concatenates_S1000000x1_S1000000x1_S1000000x2_d1) : (⟨S1000000x1, .f32⟩ : BufTy).Contents (Elt F) → (⟨S1000000x1, .f32⟩ : BufTy).Contents (Elt F) → (⟨S1000000x2, .f32⟩ : BufTy).Contents (Elt F)) (h1_v61 (F := F) z_v28_0 z_v28_1 z_v7 z_v9 z_v3 z_v5 z_v1) (h1_v62 (F := F) z_v28_0 z_v28_1 z_v7 z_v9 z_v3 z_v5 z_v1)
def h1_c_7 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .i32⟩ : BufTy).Contents (Elt F) :=
  constantI S_ 32 0#32
def h1_v64 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i32⟩ : BufTy).Contents (Elt F) :=
  (broadcastInDim S8000000 ![] bcast_S_S8000000 : (⟨S_, .i32⟩ : BufTy).Contents (Elt F) → (⟨S8000000, .i32⟩ : BufTy).Contents (Elt F)) (h1_c_7 (F := F) z_v28_0 z_v28_1 z_v7 z_v9 z_v3 z_v5 z_v1)
def h1_v65 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i1⟩ : BufTy).Contents (Elt F) :=
  (cmpi .slt : (⟨S8000000, .i32⟩ : BufTy).Contents (Elt F) → (⟨S8000000, .i32⟩ : BufTy).Contents (Elt F) → (⟨S8000000, .i1⟩ : BufTy).Contents (Elt F)) z_v1 (h1_v64 (F := F) z_v28_0 z_v28_1 z_v7 z_v9 z_v3 z_v5 z_v1)
def h1_c_8 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .i32⟩ : BufTy).Contents (Elt F) :=
  constantI S_ 32 1000000#32
def h1_v66 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i32⟩ : BufTy).Contents (Elt F) :=
  (broadcastInDim S8000000 ![] bcast_S_S8000000 : (⟨S_, .i32⟩ : BufTy).Contents (Elt F) → (⟨S8000000, .i32⟩ : BufTy).Contents (Elt F)) (h1_c_8 (F := F) z_v28_0 z_v28_1 z_v7 z_v9 z_v3 z_v5 z_v1)
def h1_v67 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i32⟩ : BufTy).Contents (Elt F) :=
  (addi : (⟨S8000000, .i32⟩ : BufTy).Contents (Elt F) → (⟨S8000000, .i32⟩ : BufTy).Contents (Elt F) → (⟨S8000000, .i32⟩ : BufTy).Contents (Elt F)) z_v1 (h1_v66 (F := F) z_v28_0 z_v28_1 z_v7 z_v9 z_v3 z_v5 z_v1)
def h1_v68 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i32⟩ : BufTy).Contents (Elt F) :=
  (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)) (h1_v65 (F := F) z_v28_0 z_v28_1 z_v7 z_v9 z_v3 z_v5 z_v1) (h1_v67 (F := F) z_v28_0 z_v28_1 z_v7 z_v9 z_v3 z_v5 z_v1) z_v1
def h1_v69 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .i32⟩ : BufTy).Contents (Elt F) :=
  (broadcastInDim S8000000x1 ![0] bcast_S8000000_S8000000x1_0 : (⟨S8000000, .i32⟩ : BufTy).Contents (Elt F) → (⟨S8000000x1, .i32⟩ : BufTy).Contents (Elt F)) (h1_v68 (F := F) z_v28_0 z_v28_1 z_v7 z_v9 z_v3 z_v5 z_v1)
def h1_v70 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x2, .f32⟩ : BufTy).Contents (Elt F) :=
  ((fun x i => Host.gather gather_S1000000x2_S8000000x1_S8000000x2_1_0_n_n_0_1_12 x i) : (⟨S1000000x2, .f32⟩ : BufTy).Contents (Elt F) → (⟨S8000000x1, .i32⟩ : BufTy).Contents (Elt F) → (⟨S8000000x2, .f32⟩ : BufTy).Contents (Elt F)) (h1_v63 (F := F) z_v28_0 z_v28_1 z_v7 z_v9 z_v3 z_v5 z_v1) (h1_v69 (F := F) z_v28_0 z_v28_1 z_v7 z_v9 z_v3 z_v5 z_v1)
def h1_c_9 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .i32⟩ : BufTy).Contents (Elt F) :=
  constantI S_ 32 0#32
def h1_v71 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i32⟩ : BufTy).Contents (Elt F) :=
  (broadcastInDim S8000000 ![] bcast_S_S8000000 : (⟨S_, .i32⟩ : BufTy).Contents (Elt F) → (⟨S8000000, .i32⟩ : BufTy).Contents (Elt F)) (h1_c_9 (F := F) z_v28_0 z_v28_1 z_v7 z_v9 z_v3 z_v5 z_v1)
def h1_v72 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i1⟩ : BufTy).Contents (Elt F) :=
  (cmpi .slt : (⟨S8000000, .i32⟩ : BufTy).Contents (Elt F) → (⟨S8000000, .i32⟩ : BufTy).Contents (Elt F) → (⟨S8000000, .i1⟩ : BufTy).Contents (Elt F)) z_v3 (h1_v71 (F := F) z_v28_0 z_v28_1 z_v7 z_v9 z_v3 z_v5 z_v1)
def h1_c_10 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S_, .i32⟩ : BufTy).Contents (Elt F) :=
  constantI S_ 32 1000000#32
def h1_v73 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i32⟩ : BufTy).Contents (Elt F) :=
  (broadcastInDim S8000000 ![] bcast_S_S8000000 : (⟨S_, .i32⟩ : BufTy).Contents (Elt F) → (⟨S8000000, .i32⟩ : BufTy).Contents (Elt F)) (h1_c_10 (F := F) z_v28_0 z_v28_1 z_v7 z_v9 z_v3 z_v5 z_v1)
def h1_v74 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i32⟩ : BufTy).Contents (Elt F) :=
  (addi : (⟨S8000000, .i32⟩ : BufTy).Contents (Elt F) → (⟨S8000000, .i32⟩ : BufTy).Contents (Elt F) → (⟨S8000000, .i32⟩ : BufTy).Contents (Elt F)) z_v3 (h1_v73 (F := F) z_v28_0 z_v28_1 z_v7 z_v9 z_v3 z_v5 z_v1)
def h1_v75 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .i32⟩ : BufTy).Contents (Elt F) :=
  (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)) (h1_v72 (F := F) z_v28_0 z_v28_1 z_v7 z_v9 z_v3 z_v5 z_v1) (h1_v74 (F := F) z_v28_0 z_v28_1 z_v7 z_v9 z_v3 z_v5 z_v1) z_v3
def h1_v76 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .i32⟩ : BufTy).Contents (Elt F) :=
  (broadcastInDim S8000000x1 ![0] bcast_S8000000_S8000000x1_0 : (⟨S8000000, .i32⟩ : BufTy).Contents (Elt F) → (⟨S8000000x1, .i32⟩ : BufTy).Contents (Elt F)) (h1_v75 (F := F) z_v28_0 z_v28_1 z_v7 z_v9 z_v3 z_v5 z_v1)
def h1_v77 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x2, .f32⟩ : BufTy).Contents (Elt F) :=
  ((fun x i => Host.gather gather_S1000000x2_S8000000x1_S8000000x2_1_0_n_n_0_1_12 x i) : (⟨S1000000x2, .f32⟩ : BufTy).Contents (Elt F) → (⟨S8000000x1, .i32⟩ : BufTy).Contents (Elt F) → (⟨S8000000x2, .f32⟩ : BufTy).Contents (Elt F)) (h1_v63 (F := F) z_v28_0 z_v28_1 z_v7 z_v9 z_v3 z_v5 z_v1) (h1_v76 (F := F) z_v28_0 z_v28_1 z_v7 z_v9 z_v3 z_v5 z_v1)
def h1_v78 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .f32⟩ : BufTy).Contents (Elt F) :=
  ((extractStridedSlice S8000000x1 ![0, 0] · slices_S8000000x2_S8000000x1_0_0) : (⟨S8000000x2, .f32⟩ : BufTy).Contents (Elt F) → (⟨S8000000x1, .f32⟩ : BufTy).Contents (Elt F)) (h1_v70 (F := F) z_v28_0 z_v28_1 z_v7 z_v9 z_v3 z_v5 z_v1)
def h1_v79 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  shapeCast S8000000 (h1_v78 (F := F) z_v28_0 z_v28_1 z_v7 z_v9 z_v3 z_v5 z_v1) shapeCasts_S8000000x1_S8000000
def h1_v80 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S62500x128, .f32⟩ : BufTy).Contents (Elt F) :=
  shapeCast S62500x128 (h1_v79 (F := F) z_v28_0 z_v28_1 z_v7 z_v9 z_v3 z_v5 z_v1) shapeCasts_S8000000_S62500x128
def h1_v81 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .f32⟩ : BufTy).Contents (Elt F) :=
  ((extractStridedSlice S8000000x1 ![0, 1] · slices_S8000000x2_S8000000x1_0_1) : (⟨S8000000x2, .f32⟩ : BufTy).Contents (Elt F) → (⟨S8000000x1, .f32⟩ : BufTy).Contents (Elt F)) (h1_v70 (F := F) z_v28_0 z_v28_1 z_v7 z_v9 z_v3 z_v5 z_v1)
def h1_v82 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  shapeCast S8000000 (h1_v81 (F := F) z_v28_0 z_v28_1 z_v7 z_v9 z_v3 z_v5 z_v1) shapeCasts_S8000000x1_S8000000
def h1_v83 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S62500x128, .f32⟩ : BufTy).Contents (Elt F) :=
  shapeCast S62500x128 (h1_v82 (F := F) z_v28_0 z_v28_1 z_v7 z_v9 z_v3 z_v5 z_v1) shapeCasts_S8000000_S62500x128
def h1_v84 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .f32⟩ : BufTy).Contents (Elt F) :=
  ((extractStridedSlice S8000000x1 ![0, 0] · slices_S8000000x2_S8000000x1_0_0) : (⟨S8000000x2, .f32⟩ : BufTy).Contents (Elt F) → (⟨S8000000x1, .f32⟩ : BufTy).Contents (Elt F)) (h1_v77 (F := F) z_v28_0 z_v28_1 z_v7 z_v9 z_v3 z_v5 z_v1)
def h1_v85 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  shapeCast S8000000 (h1_v84 (F := F) z_v28_0 z_v28_1 z_v7 z_v9 z_v3 z_v5 z_v1) shapeCasts_S8000000x1_S8000000
def h1_v86 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S62500x128, .f32⟩ : BufTy).Contents (Elt F) :=
  shapeCast S62500x128 (h1_v85 (F := F) z_v28_0 z_v28_1 z_v7 z_v9 z_v3 z_v5 z_v1) shapeCasts_S8000000_S62500x128
def h1_v87 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000x1, .f32⟩ : BufTy).Contents (Elt F) :=
  ((extractStridedSlice S8000000x1 ![0, 1] · slices_S8000000x2_S8000000x1_0_1) : (⟨S8000000x2, .f32⟩ : BufTy).Contents (Elt F) → (⟨S8000000x1, .f32⟩ : BufTy).Contents (Elt F)) (h1_v77 (F := F) z_v28_0 z_v28_1 z_v7 z_v9 z_v3 z_v5 z_v1)
def h1_v88 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S8000000, .f32⟩ : BufTy).Contents (Elt F) :=
  shapeCast S8000000 (h1_v87 (F := F) z_v28_0 z_v28_1 z_v7 z_v9 z_v3 z_v5 z_v1) shapeCasts_S8000000x1_S8000000
def h1_v89 (z_v28_0 : (⟨S62500x128, .f32⟩ : BufTy).Contents (Elt F)) (z_v28_1 : (⟨S62500x128, .f32⟩ : BufTy).Contents (Elt F)) (z_v7 : (⟨S8000000, .f32⟩ : BufTy).Contents (Elt F)) (z_v9 : (⟨S8000000, .f32⟩ : BufTy).Contents (Elt F)) (z_v3 : (⟨S8000000, .i32⟩ : BufTy).Contents (Elt F)) (z_v5 : (⟨S1000000, .f32⟩ : BufTy).Contents (Elt F)) (z_v1 : (⟨S8000000, .i32⟩ : BufTy).Contents (Elt F)) : (⟨S62500x128, .f32⟩ : BufTy).Contents (Elt F) :=
  shapeCast S62500x128 (h1_v88 (F := F) z_v28_0 z_v28_1 z_v7 z_v9 z_v3 z_v5 z_v1) shapeCasts_S8000000_S62500x128

/-! ## The third stretch: the second pass's sums, the residual -/

def h2_v91 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S8000000, .f32⟩ : BufTy).Contents (Elt F) :=
  shapeCast S8000000 z_v90_0 shapeCasts_S62500x128_S8000000
def h2_v92 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S8000000, .f32⟩ : BufTy).Contents (Elt F) :=
  shapeCast S8000000 z_v90_1 shapeCasts_S62500x128_S8000000
def h2_v93 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S8000000x1, .f32⟩ : BufTy).Contents (Elt F) :=
  (broadcastInDim S8000000x1 ![0] bcast_S8000000_S8000000x1_0 : (⟨S8000000, .f32⟩ : BufTy).Contents (Elt F) → (⟨S8000000x1, .f32⟩ : BufTy).Contents (Elt F)) (h2_v91 (F := F) z_v90_0 z_v90_1 z_v3 z_v50 z_v52 z_arg4)
def h2_v94 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S8000000x1, .f32⟩ : BufTy).Contents (Elt F) :=
  (broadcastInDim S8000000x1 ![0] bcast_S8000000_S8000000x1_0 : (⟨S8000000, .f32⟩ : BufTy).Contents (Elt F) → (⟨S8000000x1, .f32⟩ : BufTy).Contents (Elt F)) (h2_v92 (F := F) z_v90_0 z_v90_1 z_v3 z_v50 z_v52 z_arg4)
def h2_v95 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S8000000x2, .f32⟩ : BufTy).Contents (Elt F) :=
  ((fun a b => concatenate S8000000x2 1 [⟨S8000000x1, a⟩, ⟨S8000000x1, b⟩] concatenates_S8000000x1_S8000000x1_S8000000x2_d1) : (⟨S8000000x1, .f32⟩ : BufTy).Contents (Elt F) → (⟨S8000000x1, .f32⟩ : BufTy).Contents (Elt F) → (⟨S8000000x2, .f32⟩ : BufTy).Contents (Elt F)) (h2_v93 (F := F) z_v90_0 z_v90_1 z_v3 z_v50 z_v52 z_arg4) (h2_v94 (F := F) z_v90_0 z_v90_1 z_v3 z_v50 z_v52 z_arg4)
def h2_cst_11 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S_, .f32⟩ : BufTy).Contents (Elt F) :=
  constant (F := F) S_ .f32 0x00000000#32
def h2_v96 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000x2, .f32⟩ : BufTy).Contents (Elt F) :=
  (broadcastInDim S1000000x2 ![] bcast_S_S1000000x2 : (⟨S_, .f32⟩ : BufTy).Contents (Elt F) → (⟨S1000000x2, .f32⟩ : BufTy).Contents (Elt F)) (h2_cst_11 (F := F) z_v90_0 z_v90_1 z_v3 z_v50 z_v52 z_arg4)
def h2_v97 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S8000000x1, .i32⟩ : BufTy).Contents (Elt F) :=
  (broadcastInDim S8000000x1 ![0] bcast_S8000000_S8000000x1_0 : (⟨S8000000, .i32⟩ : BufTy).Contents (Elt F) → (⟨S8000000x1, .i32⟩ : BufTy).Contents (Elt F)) z_v3
def h2_v98 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000x2, .f32⟩ : BufTy).Contents (Elt F) :=
  ((fun x i u => Host.scatterAdd scatter_S1000000x2_S8000000x1_S8000000x2_1_0_0_1 x i u) : (⟨S1000000x2, .f32⟩ : BufTy).Contents (Elt F) → (⟨S8000000x1, .i32⟩ : BufTy).Contents (Elt F) → (⟨S8000000x2, .f32⟩ : BufTy).Contents (Elt F) → (⟨S1000000x2, .f32⟩ : BufTy).Contents (Elt F)) (h2_v96 (F := F) z_v90_0 z_v90_1 z_v3 z_v50 z_v52 z_arg4) (h2_v97 (F := F) z_v90_0 z_v90_1 z_v3 z_v50 z_v52 z_arg4) (h2_v95 (F := F) z_v90_0 z_v90_1 z_v3 z_v50 z_v52 z_arg4)
def h2_v99 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000x1, .f32⟩ : BufTy).Contents (Elt F) :=
  ((extractStridedSlice S1000000x1 ![0, 0] · slices_S1000000x2_S1000000x1_0_0) : (⟨S1000000x2, .f32⟩ : BufTy).Contents (Elt F) → (⟨S1000000x1, .f32⟩ : BufTy).Contents (Elt F)) (h2_v98 (F := F) z_v90_0 z_v90_1 z_v3 z_v50 z_v52 z_arg4)
def h2_v100 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  shapeCast S1000000 (h2_v99 (F := F) z_v90_0 z_v90_1 z_v3 z_v50 z_v52 z_arg4) shapeCasts_S1000000x1_S1000000
def h2_v101 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000x1, .f32⟩ : BufTy).Contents (Elt F) :=
  ((extractStridedSlice S1000000x1 ![0, 1] · slices_S1000000x2_S1000000x1_0_1) : (⟨S1000000x2, .f32⟩ : BufTy).Contents (Elt F) → (⟨S1000000x1, .f32⟩ : BufTy).Contents (Elt F)) (h2_v98 (F := F) z_v90_0 z_v90_1 z_v3 z_v50 z_v52 z_arg4)
def h2_v102 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  shapeCast S1000000 (h2_v101 (F := F) z_v90_0 z_v90_1 z_v3 z_v50 z_v52 z_arg4) shapeCasts_S1000000x1_S1000000
def h2_cst_12 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S_, .f32⟩ : BufTy).Contents (Elt F) :=
  constant (F := F) S_ .f32 0x3F800000#32
def h2_v103 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (h2_cst_12 (F := F) z_v90_0 z_v90_1 z_v3 z_v50 z_v52 z_arg4)
def h2_v104 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) z_v50 (h2_v103 (F := F) z_v90_0 z_v90_1 z_v3 z_v50 z_v52 z_arg4)
def h2_v105 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (Host.divf : (⟨S1000000, .f32⟩ : BufTy).Contents (Elt F) → (⟨S1000000, .f32⟩ : BufTy).Contents (Elt F) → (⟨S1000000, .f32⟩ : BufTy).Contents (Elt F)) (h2_v100 (F := F) z_v90_0 z_v90_1 z_v3 z_v50 z_v52 z_arg4) (h2_v104 (F := F) z_v90_0 z_v90_1 z_v3 z_v50 z_v52 z_arg4)
def h2_cst_13 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S_, .f32⟩ : BufTy).Contents (Elt F) :=
  constant (F := F) S_ .f32 0x3F800000#32
def h2_v106 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (h2_cst_13 (F := F) z_v90_0 z_v90_1 z_v3 z_v50 z_v52 z_arg4)
def h2_v107 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (maximumf : (⟨S1000000, .f32⟩ : BufTy).Contents (Elt F) → (⟨S1000000, .f32⟩ : BufTy).Contents (Elt F) → (⟨S1000000, .f32⟩ : BufTy).Contents (Elt F)) z_v52 (h2_v106 (F := F) z_v90_0 z_v90_1 z_v3 z_v50 z_v52 z_arg4)
def h2_v108 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (Host.divf : (⟨S1000000, .f32⟩ : BufTy).Contents (Elt F) → (⟨S1000000, .f32⟩ : BufTy).Contents (Elt F) → (⟨S1000000, .f32⟩ : BufTy).Contents (Elt F)) (h2_v102 (F := F) z_v90_0 z_v90_1 z_v3 z_v50 z_v52 z_arg4) (h2_v107 (F := F) z_v90_0 z_v90_1 z_v3 z_v50 z_v52 z_arg4)
def h2_v109 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (h2_v105 (F := F) z_v90_0 z_v90_1 z_v3 z_v50 z_v52 z_arg4) (h2_v108 (F := F) z_v90_0 z_v90_1 z_v3 z_v50 z_v52 z_arg4)
def h2_cst_14 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S_, .f32⟩ : BufTy).Contents (Elt F) :=
  constant (F := F) S_ .f32 0x3F800000#32
def h2_v110 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (h2_cst_14 (F := F) z_v90_0 z_v90_1 z_v3 z_v50 z_v52 z_arg4)
def h2_v111 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (addf : (⟨S1000000, .f32⟩ : BufTy).Contents (Elt F) → (⟨S1000000, .f32⟩ : BufTy).Contents (Elt F) → (⟨S1000000, .f32⟩ : BufTy).Contents (Elt F)) (h2_v109 (F := F) z_v90_0 z_v90_1 z_v3 z_v50 z_v52 z_arg4) (h2_v110 (F := F) z_v90_0 z_v90_1 z_v3 z_v50 z_v52 z_arg4)
def h2_v112 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (sitofp .f32 : (⟨S1000000, .i32⟩ : BufTy).Contents (Elt F) → (⟨S1000000, .f32⟩ : BufTy).Contents (Elt F)) z_arg4
def h2_cst_15 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S_, .f32⟩ : BufTy).Contents (Elt F) :=
  constant (F := F) S_ .f32 0x3F800000#32
def h2_v113 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (broadcastInDim S1000000 ![] bcast_S_S1000000 : (⟨S_, .f32⟩ : BufTy).Contents (Elt F) → (⟨S1000000, .f32⟩ : BufTy).Contents (Elt F)) (h2_cst_15 (F := F) z_v90_0 z_v90_1 z_v3 z_v50 z_v52 z_arg4)
def h2_v114 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (subf : (⟨S1000000, .f32⟩ : BufTy).Contents (Elt F) → (⟨S1000000, .f32⟩ : BufTy).Contents (Elt F) → (⟨S1000000, .f32⟩ : BufTy).Contents (Elt F)) (h2_v113 (F := F) z_v90_0 z_v90_1 z_v3 z_v50 z_v52 z_arg4) (h2_v112 (F := F) z_v90_0 z_v90_1 z_v3 z_v50 z_v52 z_arg4)
def h2_v115 (z_v90_0 : (⟨S62500x128, .f32⟩ : BufTy).Contents (Elt F)) (z_v90_1 : (⟨S62500x128, .f32⟩ : BufTy).Contents (Elt F)) (z_v3 : (⟨S8000000, .i32⟩ : BufTy).Contents (Elt F)) (z_v50 : (⟨S1000000, .f32⟩ : BufTy).Contents (Elt F)) (z_v52 : (⟨S1000000, .f32⟩ : BufTy).Contents (Elt F)) (z_arg4 : (⟨S1000000, .i32⟩ : BufTy).Contents (Elt F)) : (⟨S1000000, .f32⟩ : BufTy).Contents (Elt F) :=
  (mulf : (⟨S1000000, .f32⟩ : BufTy).Contents (Elt F) → (⟨S1000000, .f32⟩ : BufTy).Contents (Elt F) → (⟨S1000000, .f32⟩ : BufTy).Contents (Elt F)) (h2_v111 (F := F) z_v90_0 z_v90_1 z_v3 z_v50 z_v52 z_arg4) (h2_v114 (F := F) z_v90_0 z_v90_1 z_v3 z_v50 z_v52 z_arg4)

/-! ## What each stretch leaves in the buffers a later segment reads -/

set_option maxHeartbeats 4000000
theorem after0_v1 (Z : Valuation τ sig (Elt F)) :
    StableHlo.after hostOps0 Z (Proc.devRef .tc main_v1) = h0_v1 (F := F) (Z (Proc.devRef .tc main_arg2)) (Z (Proc.devRef .tc main_arg0)) (Z (Proc.devRef .tc main_arg1)) (Z (Proc.devRef .tc main_arg3)) := by
  after_results_simp <;> rfl
theorem after0_v3 (Z : Valuation τ sig (Elt F)) :
    StableHlo.after hostOps0 Z (Proc.devRef .tc main_v3) = h0_v3 (F := F) (Z (Proc.devRef .tc main_arg2)) (Z (Proc.devRef .tc main_arg0)) (Z (Proc.devRef .tc main_arg1)) (Z (Proc.devRef .tc main_arg3)) := by
  after_results_simp <;> rfl
theorem after0_v5 (Z : Valuation τ sig (Elt F)) :
    StableHlo.after hostOps0 Z (Proc.devRef .tc main_v5) = h0_v5 (F := F) (Z (Proc.devRef .tc main_arg2)) (Z (Proc.devRef .tc main_arg0)) (Z (Proc.devRef .tc main_arg1)) (Z (Proc.devRef .tc main_arg3)) := by
  after_results_simp <;> rfl
theorem after0_v7 (Z : Valuation τ sig (Elt F)) :
    StableHlo.after hostOps0 Z (Proc.devRef .tc main_v7) = h0_v7 (F := F) (Z (Proc.devRef .tc main_arg2)) (Z (Proc.devRef .tc main_arg0)) (Z (Proc.devRef .tc main_arg1)) (Z (Proc.devRef .tc main_arg3)) := by
  after_results_simp <;> rfl
theorem after0_v9 (Z : Valuation τ sig (Elt F)) :
    StableHlo.after hostOps0 Z (Proc.devRef .tc main_v9) = h0_v9 (F := F) (Z (Proc.devRef .tc main_arg2)) (Z (Proc.devRef .tc main_arg0)) (Z (Proc.devRef .tc main_arg1)) (Z (Proc.devRef .tc main_arg3)) := by
  after_results_simp <;> rfl
theorem after0_v17 (Z : Valuation τ sig (Elt F)) :
    StableHlo.after hostOps0 Z (Proc.devRef .tc main_v17) = h0_v17 (F := F) (Z (Proc.devRef .tc main_arg2)) (Z (Proc.devRef .tc main_arg0)) (Z (Proc.devRef .tc main_arg1)) (Z (Proc.devRef .tc main_arg3)) := by
  after_results_simp <;> rfl
theorem after0_v25 (Z : Valuation τ sig (Elt F)) :
    StableHlo.after hostOps0 Z (Proc.devRef .tc main_v25) = h0_v25 (F := F) (Z (Proc.devRef .tc main_arg2)) (Z (Proc.devRef .tc main_arg0)) (Z (Proc.devRef .tc main_arg1)) (Z (Proc.devRef .tc main_arg3)) := by
  after_results_simp <;> rfl
theorem after0_v26 (Z : Valuation τ sig (Elt F)) :
    StableHlo.after hostOps0 Z (Proc.devRef .tc main_v26) = h0_v26 (F := F) (Z (Proc.devRef .tc main_arg2)) (Z (Proc.devRef .tc main_arg0)) (Z (Proc.devRef .tc main_arg1)) (Z (Proc.devRef .tc main_arg3)) := by
  after_results_simp <;> rfl
theorem after0_v27 (Z : Valuation τ sig (Elt F)) :
    StableHlo.after hostOps0 Z (Proc.devRef .tc main_v27) = h0_v27 (F := F) (Z (Proc.devRef .tc main_arg2)) (Z (Proc.devRef .tc main_arg0)) (Z (Proc.devRef .tc main_arg1)) (Z (Proc.devRef .tc main_arg3)) := by
  after_results_simp <;> rfl
theorem after1_v80 (Z : Valuation τ sig (Elt F)) :
    StableHlo.after hostOps1 Z (Proc.devRef .tc main_v80) = h1_v80 (F := F) (Z (Proc.devRef .tc main_v28_0)) (Z (Proc.devRef .tc main_v28_1)) (Z (Proc.devRef .tc main_v7)) (Z (Proc.devRef .tc main_v9)) (Z (Proc.devRef .tc main_v3)) (Z (Proc.devRef .tc main_v5)) (Z (Proc.devRef .tc main_v1)) := by
  after_results_simp <;> rfl
theorem after1_v83 (Z : Valuation τ sig (Elt F)) :
    StableHlo.after hostOps1 Z (Proc.devRef .tc main_v83) = h1_v83 (F := F) (Z (Proc.devRef .tc main_v28_0)) (Z (Proc.devRef .tc main_v28_1)) (Z (Proc.devRef .tc main_v7)) (Z (Proc.devRef .tc main_v9)) (Z (Proc.devRef .tc main_v3)) (Z (Proc.devRef .tc main_v5)) (Z (Proc.devRef .tc main_v1)) := by
  after_results_simp <;> rfl
theorem after1_v86 (Z : Valuation τ sig (Elt F)) :
    StableHlo.after hostOps1 Z (Proc.devRef .tc main_v86) = h1_v86 (F := F) (Z (Proc.devRef .tc main_v28_0)) (Z (Proc.devRef .tc main_v28_1)) (Z (Proc.devRef .tc main_v7)) (Z (Proc.devRef .tc main_v9)) (Z (Proc.devRef .tc main_v3)) (Z (Proc.devRef .tc main_v5)) (Z (Proc.devRef .tc main_v1)) := by
  after_results_simp <;> rfl
theorem after1_v89 (Z : Valuation τ sig (Elt F)) :
    StableHlo.after hostOps1 Z (Proc.devRef .tc main_v89) = h1_v89 (F := F) (Z (Proc.devRef .tc main_v28_0)) (Z (Proc.devRef .tc main_v28_1)) (Z (Proc.devRef .tc main_v7)) (Z (Proc.devRef .tc main_v9)) (Z (Proc.devRef .tc main_v3)) (Z (Proc.devRef .tc main_v5)) (Z (Proc.devRef .tc main_v1)) := by
  after_results_simp <;> rfl
theorem after1_v50 (Z : Valuation τ sig (Elt F)) :
    StableHlo.after hostOps1 Z (Proc.devRef .tc main_v50) = h1_v50 (F := F) (Z (Proc.devRef .tc main_v28_0)) (Z (Proc.devRef .tc main_v28_1)) (Z (Proc.devRef .tc main_v7)) (Z (Proc.devRef .tc main_v9)) (Z (Proc.devRef .tc main_v3)) (Z (Proc.devRef .tc main_v5)) (Z (Proc.devRef .tc main_v1)) := by
  after_results_simp <;> rfl
theorem after1_v52 (Z : Valuation τ sig (Elt F)) :
    StableHlo.after hostOps1 Z (Proc.devRef .tc main_v52) = h1_v52 (F := F) (Z (Proc.devRef .tc main_v28_0)) (Z (Proc.devRef .tc main_v28_1)) (Z (Proc.devRef .tc main_v7)) (Z (Proc.devRef .tc main_v9)) (Z (Proc.devRef .tc main_v3)) (Z (Proc.devRef .tc main_v5)) (Z (Proc.devRef .tc main_v1)) := by
  after_results_simp <;> rfl
theorem after2_v115 (Z : Valuation τ sig (Elt F)) :
    StableHlo.after hostOps2 Z (Proc.devRef .tc main_v115) = h2_v115 (F := F) (Z (Proc.devRef .tc main_v90_0)) (Z (Proc.devRef .tc main_v90_1)) (Z (Proc.devRef .tc main_v3)) (Z (Proc.devRef .tc main_v50)) (Z (Proc.devRef .tc main_v52)) (Z (Proc.devRef .tc main_arg4)) := by
  after_results_simp <;> rfl

end Cert.KernelIdeal.HostVal

end
-- ==== Proof.KIKOut.lean ====
/-
  The kernel's result array as ONE function of the argument arrays: the first stretch's values, the first pass's messages,
  the second stretch's, the second pass's messages, the last stretch's — and that the run ends with the result buffer at it.
-/
import proofs.«108219_j35407710388663_2_alg».proof.Proof.KIRun
import proofs.«108219_j35407710388663_2_alg».proof.Proof.KIOut
import proofs.«108219_j35407710388663_2_alg».proof.Proof.KIHostVal

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

section Fn
variable (a0 : (⟨S1000000x1, .f32⟩ : BufTy).Contents (Elt F)) (a1 : (⟨S1000000x1, .f32⟩ : BufTy).Contents (Elt F))
  (a2 : (⟨S2x8000000, .i32⟩ : BufTy).Contents (Elt F)) (a3 : (⟨S8000000x2, .f32⟩ : BufTy).Contents (Elt F))
  (a4 : (⟨S1000000, .i32⟩ : BufTy).Contents (Elt F))

/-- The first pass's two result arrays. -/
def kO0 : (⟨S62500x128, .f32⟩ : BufTy).Contents (Elt F) := (msgA (HostVal.h0_v17 (F := F) a2 a0 a1 a3) (HostVal.h0_v25 (F := F) a2 a0 a1 a3) (HostVal.h0_v26 (F := F) a2 a0 a1 a3))
def kO1 : (⟨S62500x128, .f32⟩ : BufTy).Contents (Elt F) := (msgA (HostVal.h0_v17 (F := F) a2 a0 a1 a3) (HostVal.h0_v25 (F := F) a2 a0 a1 a3) (HostVal.h0_v27 (F := F) a2 a0 a1 a3))
/-- The second pass's. -/
def kP0 : (⟨S62500x128, .f32⟩ : BufTy).Contents (Elt F) := (msgA (HostVal.h1_v80 (F := F) (kO0 a0 a1 a2 a3) (kO1 a0 a1 a2 a3) (HostVal.h0_v7 (F := F) a2 a0 a1 a3) (HostVal.h0_v9 (F := F) a2 a0 a1 a3) (HostVal.h0_v3 (F := F) a2 a0 a1 a3) (HostVal.h0_v5 (F := F) a2 a0 a1 a3) (HostVal.h0_v1 (F := F) a2 a0 a1 a3)) (HostVal.h1_v86 (F := F) (kO0 a0 a1 a2 a3) (kO1 a0 a1 a2 a3) (HostVal.h0_v7 (F := F) a2 a0 a1 a3) (HostVal.h0_v9 (F := F) a2 a0 a1 a3) (HostVal.h0_v3 (F := F) a2 a0 a1 a3) (HostVal.h0_v5 (F := F) a2 a0 a1 a3) (HostVal.h0_v1 (F := F) a2 a0 a1 a3)) (HostVal.h0_v26 (F := F) a2 a0 a1 a3))
def kP1 : (⟨S62500x128, .f32⟩ : BufTy).Contents (Elt F) := (msgA (HostVal.h1_v83 (F := F) (kO0 a0 a1 a2 a3) (kO1 a0 a1 a2 a3) (HostVal.h0_v7 (F := F) a2 a0 a1 a3) (HostVal.h0_v9 (F := F) a2 a0 a1 a3) (HostVal.h0_v3 (F := F) a2 a0 a1 a3) (HostVal.h0_v5 (F := F) a2 a0 a1 a3) (HostVal.h0_v1 (F := F) a2 a0 a1 a3)) (HostVal.h1_v89 (F := F) (kO0 a0 a1 a2 a3) (kO1 a0 a1 a2 a3) (HostVal.h0_v7 (F := F) a2 a0 a1 a3) (HostVal.h0_v9 (F := F) a2 a0 a1 a3) (HostVal.h0_v3 (F := F) a2 a0 a1 a3) (HostVal.h0_v5 (F := F) a2 a0 a1 a3) (HostVal.h0_v1 (F := F) a2 a0 a1 a3)) (HostVal.h0_v27 (F := F) a2 a0 a1 a3))
/-- The result. -/
def kOut : (⟨S1000000, .f32⟩ : BufTy).Contents (Elt F) := HostVal.h2_v115 (F := F) (kP0 a0 a1 a2 a3) (kP1 a0 a1 a2 a3) (HostVal.h0_v3 (F := F) a2 a0 a1 a3) (HostVal.h1_v50 (F := F) (kO0 a0 a1 a2 a3) (kO1 a0 a1 a2 a3) (HostVal.h0_v7 (F := F) a2 a0 a1 a3) (HostVal.h0_v9 (F := F) a2 a0 a1 a3) (HostVal.h0_v3 (F := F) a2 a0 a1 a3) (HostVal.h0_v5 (F := F) a2 a0 a1 a3) (HostVal.h0_v1 (F := F) a2 a0 a1 a3)) (HostVal.h1_v52 (F := F) (kO0 a0 a1 a2 a3) (kO1 a0 a1 a2 a3) (HostVal.h0_v7 (F := F) a2 a0 a1 a3) (HostVal.h0_v9 (F := F) a2 a0 a1 a3) (HostVal.h0_v3 (F := F) a2 a0 a1 a3) (HostVal.h0_v5 (F := F) a2 a0 a1 a3) (HostVal.h0_v1 (F := F) a2 a0 a1 a3)) a4
end Fn

variable (m : (ℓ : Loc nD τ sig) → Buf (Elt F) ℓ) (ρ : Dev nD → PrngReg)

/-- The argument arrays at launch. -/
abbrev arg0 (c : Dev nD) : (⟨S1000000x1, .f32⟩ : BufTy).Contents (Elt F) := m ((c : Thread nD τ).loc main_arg0)
abbrev arg1 (c : Dev nD) : (⟨S1000000x1, .f32⟩ : BufTy).Contents (Elt F) := m ((c : Thread nD τ).loc main_arg1)
abbrev arg2 (c : Dev nD) : (⟨S2x8000000, .i32⟩ : BufTy).Contents (Elt F) := m ((c : Thread nD τ).loc main_arg2)
abbrev arg3 (c : Dev nD) : (⟨S8000000x2, .f32⟩ : BufTy).Contents (Elt F) := m ((c : Thread nD τ).loc main_arg3)
abbrev arg4 (c : Dev nD) : (⟨S1000000, .i32⟩ : BufTy).Contents (Elt F) := m ((c : Thread nD τ).loc main_arg4)

/-- After the first stretch. -/
theorem W1_val (c : Dev nD) :
    W1 m ρ c (Proc.devRef .tc main_v1) = HostVal.h0_v1 (F := F) (arg2 m c) (arg0 m c) (arg1 m c) (arg3 m c)
    ∧ W1 m ρ c (Proc.devRef .tc main_v3) = HostVal.h0_v3 (F := F) (arg2 m c) (arg0 m c) (arg1 m c) (arg3 m c)
    ∧ W1 m ρ c (Proc.devRef .tc main_v5) = HostVal.h0_v5 (F := F) (arg2 m c) (arg0 m c) (arg1 m c) (arg3 m c)
    ∧ W1 m ρ c (Proc.devRef .tc main_v7) = HostVal.h0_v7 (F := F) (arg2 m c) (arg0 m c) (arg1 m c) (arg3 m c)
    ∧ W1 m ρ c (Proc.devRef .tc main_v9) = HostVal.h0_v9 (F := F) (arg2 m c) (arg0 m c) (arg1 m c) (arg3 m c)
    ∧ W1 m ρ c (Proc.devRef .tc main_v17) = HostVal.h0_v17 (F := F) (arg2 m c) (arg0 m c) (arg1 m c) (arg3 m c)
    ∧ W1 m ρ c (Proc.devRef .tc main_v25) = HostVal.h0_v25 (F := F) (arg2 m c) (arg0 m c) (arg1 m c) (arg3 m c)
    ∧ W1 m ρ c (Proc.devRef .tc main_v26) = HostVal.h0_v26 (F := F) (arg2 m c) (arg0 m c) (arg1 m c) (arg3 m c)
    ∧ W1 m ρ c (Proc.devRef .tc main_v27) = HostVal.h0_v27 (F := F) (arg2 m c) (arg0 m c) (arg1 m c) (arg3 m c) :=
  ⟨HostVal.after0_v1 (W0 m ρ c), HostVal.after0_v3 (W0 m ρ c), HostVal.after0_v5 (W0 m ρ c), HostVal.after0_v7 (W0 m ρ c), HostVal.after0_v9 (W0 m ρ c), HostVal.after0_v17 (W0 m ρ c), HostVal.after0_v25 (W0 m ρ c), HostVal.after0_v26 (W0 m ρ c), HostVal.after0_v27 (W0 m ρ c)⟩

set_option maxHeartbeats 4000000 in
/-- THE KERNEL'S RESULT: the run's last contents of the result buffer are `kOut` of the argument arrays as launched. -/
theorem W5_out (c : Dev nD) :
    W5 m ρ c (Proc.devRef .tc main_v115) = kOut (arg0 m c) (arg1 m c) (arg2 m c) (arg3 m c) (arg4 m c) := by
  obtain ⟨e1, e3, e5, e7, e9, e17, e25, e26, e27⟩ := W1_val m ρ c
  -- the first pass
  have o0 : W2 m ρ c (Proc.devRef .tc main_v28_0) = kO0 (arg0 m c) (arg1 m c) (arg2 m c) (arg3 m c) := by
    refine (W2_arr m ρ c 4).trans ((arr0_4 (V1 m ρ) c).trans ?_)
    show msgA (W1 m ρ c (Proc.devRef .tc main_v17)) (W1 m ρ c (Proc.devRef .tc main_v25)) (W1 m ρ c (Proc.devRef .tc main_v26)) = _
    rw [e17, e25, e26]; rfl
  have o1 : W2 m ρ c (Proc.devRef .tc main_v28_1) = kO1 (arg0 m c) (arg1 m c) (arg2 m c) (arg3 m c) := by
    refine (W2_arr m ρ c 5).trans ((arr0_5 (V1 m ρ) c).trans ?_)
    show msgA (W1 m ρ c (Proc.devRef .tc main_v17)) (W1 m ρ c (Proc.devRef .tc main_v25)) (W1 m ρ c (Proc.devRef .tc main_v27)) = _
    rw [e17, e25, e27]; rfl
  have z1 : W2 m ρ c (Proc.devRef .tc main_v1) = HostVal.h0_v1 (F := F) (arg2 m c) (arg0 m c) (arg1 m c) (arg3 m c) := (W2_of_ne m ρ c main_v1 (by decide)).trans e1
  have z3 : W2 m ρ c (Proc.devRef .tc main_v3) = HostVal.h0_v3 (F := F) (arg2 m c) (arg0 m c) (arg1 m c) (arg3 m c) := (W2_of_ne m ρ c main_v3 (by decide)).trans e3
  have z5 : W2 m ρ c (Proc.devRef .tc main_v5) = HostVal.h0_v5 (F := F) (arg2 m c) (arg0 m c) (arg1 m c) (arg3 m c) := (W2_of_ne m ρ c main_v5 (by decide)).trans e5
  have z7 : W2 m ρ c (Proc.devRef .tc main_v7) = HostVal.h0_v7 (F := F) (arg2 m c) (arg0 m c) (arg1 m c) (arg3 m c) := (W2_of_ne m ρ c main_v7 (by decide)).trans e7
  have z9 : W2 m ρ c (Proc.devRef .tc main_v9) = HostVal.h0_v9 (F := F) (arg2 m c) (arg0 m c) (arg1 m c) (arg3 m c) := (W2_of_ne m ρ c main_v9 (by decide)).trans e9
  have z26 : W2 m ρ c (Proc.devRef .tc main_v26) = HostVal.h0_v26 (F := F) (arg2 m c) (arg0 m c) (arg1 m c) (arg3 m c) :=
    (W2_arr m ρ c 2).trans (((dat0 (V1 m ρ) c).arrAt_in 2 rfl _).trans ((A_eq0 (V1 m ρ) c 2).trans e26))
  have z27 : W2 m ρ c (Proc.devRef .tc main_v27) = HostVal.h0_v27 (F := F) (arg2 m c) (arg0 m c) (arg1 m c) (arg3 m c) :=
    (W2_arr m ρ c 3).trans (((dat0 (V1 m ρ) c).arrAt_in 3 rfl _).trans ((A_eq0 (V1 m ρ) c 3).trans e27))
  -- the second stretch
  have w80 : W3 m ρ c (Proc.devRef .tc main_v80) = HostVal.h1_v80 (F := F) (kO0 (arg0 m c) (arg1 m c) (arg2 m c) (arg3 m c)) (kO1 (arg0 m c) (arg1 m c) (arg2 m c) (arg3 m c)) (HostVal.h0_v7 (F := F) (arg2 m c) (arg0 m c) (arg1 m c) (arg3 m c)) (HostVal.h0_v9 (F := F) (arg2 m c) (arg0 m c) (arg1 m c) (arg3 m c)) (HostVal.h0_v3 (F := F) (arg2 m c) (arg0 m c) (arg1 m c) (arg3 m c)) (HostVal.h0_v5 (F := F) (arg2 m c) (arg0 m c) (arg1 m c) (arg3 m c)) (HostVal.h0_v1 (F := F) (arg2 m c) (arg0 m c) (arg1 m c) (arg3 m c)) :=
    (HostVal.after1_v80 (W2 m ρ c)).trans (by rw [o0, o1, z7, z9, z3, z5, z1])
  have w83 : W3 m ρ c (Proc.devRef .tc main_v83) = HostVal.h1_v83 (F := F) (kO0 (arg0 m c) (arg1 m c) (arg2 m c) (arg3 m c)) (kO1 (arg0 m c) (arg1 m c) (arg2 m c) (arg3 m c)) (HostVal.h0_v7 (F := F) (arg2 m c) (arg0 m c) (arg1 m c) (arg3 m c)) (HostVal.h0_v9 (F := F) (arg2 m c) (arg0 m c) (arg1 m c) (arg3 m c)) (HostVal.h0_v3 (F := F) (arg2 m c) (arg0 m c) (arg1 m c) (arg3 m c)) (HostVal.h0_v5 (F := F) (arg2 m c) (arg0 m c) (arg1 m c) (arg3 m c)) (HostVal.h0_v1 (F := F) (arg2 m c) (arg0 m c) (arg1 m c) (arg3 m c)) :=
    (HostVal.after1_v83 (W2 m ρ c)).trans (by rw [o0, o1, z7, z9, z3, z5, z1])
  have w86 : W3 m ρ c (Proc.devRef .tc main_v86) = HostVal.h1_v86 (F := F) (kO0 (arg0 m c) (arg1 m c) (arg2 m c) (arg3 m c)) (kO1 (arg0 m c) (arg1 m c) (arg2 m c) (arg3 m c)) (HostVal.h0_v7 (F := F) (arg2 m c) (arg0 m c) (arg1 m c) (arg3 m c)) (HostVal.h0_v9 (F := F) (arg2 m c) (arg0 m c) (arg1 m c) (arg3 m c)) (HostVal.h0_v3 (F := F) (arg2 m c) (arg0 m c) (arg1 m c) (arg3 m c)) (HostVal.h0_v5 (F := F) (arg2 m c) (arg0 m c) (arg1 m c) (arg3 m c)) (HostVal.h0_v1 (F := F) (arg2 m c) (arg0 m c) (arg1 m c) (arg3 m c)) :=
    (HostVal.after1_v86 (W2 m ρ c)).trans (by rw [o0, o1, z7, z9, z3, z5, z1])
  have w89 : W3 m ρ c (Proc.devRef .tc main_v89) = HostVal.h1_v89 (F := F) (kO0 (arg0 m c) (arg1 m c) (arg2 m c) (arg3 m c)) (kO1 (arg0 m c) (arg1 m c) (arg2 m c) (arg3 m c)) (HostVal.h0_v7 (F := F) (arg2 m c) (arg0 m c) (arg1 m c) (arg3 m c)) (HostVal.h0_v9 (F := F) (arg2 m c) (arg0 m c) (arg1 m c) (arg3 m c)) (HostVal.h0_v3 (F := F) (arg2 m c) (arg0 m c) (arg1 m c) (arg3 m c)) (HostVal.h0_v5 (F := F) (arg2 m c) (arg0 m c) (arg1 m c) (arg3 m c)) (HostVal.h0_v1 (F := F) (arg2 m c) (arg0 m c) (arg1 m c) (arg3 m c)) :=
    (HostVal.after1_v89 (W2 m ρ c)).trans (by rw [o0, o1, z7, z9, z3, z5, z1])
  have w50 : W3 m ρ c (Proc.devRef .tc main_v50) = HostVal.h1_v50 (F := F) (kO0 (arg0 m c) (arg1 m c) (arg2 m c) (arg3 m c)) (kO1 (arg0 m c) (arg1 m c) (arg2 m c) (arg3 m c)) (HostVal.h0_v7 (F := F) (arg2 m c) (arg0 m c) (arg1 m c) (arg3 m c)) (HostVal.h0_v9 (F := F) (arg2 m c) (arg0 m c) (arg1 m c) (arg3 m c)) (HostVal.h0_v3 (F := F) (arg2 m c) (arg0 m c) (arg1 m c) (arg3 m c)) (HostVal.h0_v5 (F := F) (arg2 m c) (arg0 m c) (arg1 m c) (arg3 m c)) (HostVal.h0_v1 (F := F) (arg2 m c) (arg0 m c) (arg1 m c) (arg3 m c)) :=
    (HostVal.after1_v50 (W2 m ρ c)).trans (by rw [o0, o1, z7, z9, z3, z5, z1])
  have w52 : W3 m ρ c (Proc.devRef .tc main_v52) = HostVal.h1_v52 (F := F) (kO0 (arg0 m c) (arg1 m c) (arg2 m c) (arg3 m c)) (kO1 (arg0 m c) (arg1 m c) (arg2 m c) (arg3 m c)) (HostVal.h0_v7 (F := F) (arg2 m c) (arg0 m c) (arg1 m c) (arg3 m c)) (HostVal.h0_v9 (F := F) (arg2 m c) (arg0 m c) (arg1 m c) (arg3 m c)) (HostVal.h0_v3 (F := F) (arg2 m c) (arg0 m c) (arg1 m c) (arg3 m c)) (HostVal.h0_v5 (F := F) (arg2 m c) (arg0 m c) (arg1 m c) (arg3 m c)) (HostVal.h0_v1 (F := F) (arg2 m c) (arg0 m c) (arg1 m c) (arg3 m c)) :=
    (HostVal.after1_v52 (W2 m ρ c)).trans (by rw [o0, o1, z7, z9, z3, z5, z1])
  have y3 : W3 m ρ c (Proc.devRef .tc main_v3) = HostVal.h0_v3 (F := F) (arg2 m c) (arg0 m c) (arg1 m c) (arg3 m c) := (W3_of m ρ c main_v3 (by decide)).trans z3
  have y26 : W3 m ρ c (Proc.devRef .tc main_v26) = HostVal.h0_v26 (F := F) (arg2 m c) (arg0 m c) (arg1 m c) (arg3 m c) := (W3_of m ρ c main_v26 (by decide)).trans z26
  have y27 : W3 m ρ c (Proc.devRef .tc main_v27) = HostVal.h0_v27 (F := F) (arg2 m c) (arg0 m c) (arg1 m c) (arg3 m c) := (W3_of m ρ c main_v27 (by decide)).trans z27
  have y4 : W3 m ρ c (Proc.devRef .tc main_arg4) = arg4 m c :=
    (W3_of m ρ c main_arg4 (by decide)).trans <| (W2_of_ne m ρ c main_arg4 (by decide)).trans <| (W1_of m ρ c main_arg4 (by decide)).trans rfl
  -- the second pass
  have p0 : W4 m ρ c (Proc.devRef .tc main_v90_0) = kP0 (arg0 m c) (arg1 m c) (arg2 m c) (arg3 m c) := by
    refine (W4_arr m ρ c 6).trans ((arr1_6 (V3 m ρ) c).trans ?_)
    show msgA (W3 m ρ c (Proc.devRef .tc main_v80)) (W3 m ρ c (Proc.devRef .tc main_v86)) (W3 m ρ c (Proc.devRef .tc main_v26)) = _
    rw [w80, w86, y26]; rfl
  have p1 : W4 m ρ c (Proc.devRef .tc main_v90_1) = kP1 (arg0 m c) (arg1 m c) (arg2 m c) (arg3 m c) := by
    refine (W4_arr m ρ c 7).trans ((arr1_7 (V3 m ρ) c).trans ?_)
    show msgA (W3 m ρ c (Proc.devRef .tc main_v83)) (W3 m ρ c (Proc.devRef .tc main_v89)) (W3 m ρ c (Proc.devRef .tc main_v27)) = _
    rw [w83, w89, y27]; rfl
  have x3 : W4 m ρ c (Proc.devRef .tc main_v3) = HostVal.h0_v3 (F := F) (arg2 m c) (arg0 m c) (arg1 m c) (arg3 m c) := (W4_of_ne m ρ c main_v3 (by decide)).trans y3
  have x50 : W4 m ρ c (Proc.devRef .tc main_v50) = HostVal.h1_v50 (F := F) (kO0 (arg0 m c) (arg1 m c) (arg2 m c) (arg3 m c)) (kO1 (arg0 m c) (arg1 m c) (arg2 m c) (arg3 m c)) (HostVal.h0_v7 (F := F) (arg2 m c) (arg0 m c) (arg1 m c) (arg3 m c)) (HostVal.h0_v9 (F := F) (arg2 m c) (arg0 m c) (arg1 m c) (arg3 m c)) (HostVal.h0_v3 (F := F) (arg2 m c) (arg0 m c) (arg1 m c) (arg3 m c)) (HostVal.h0_v5 (F := F) (arg2 m c) (arg0 m c) (arg1 m c) (arg3 m c)) (HostVal.h0_v1 (F := F) (arg2 m c) (arg0 m c) (arg1 m c) (arg3 m c)) := (W4_of_ne m ρ c main_v50 (by decide)).trans w50
  have x52 : W4 m ρ c (Proc.devRef .tc main_v52) = HostVal.h1_v52 (F := F) (kO0 (arg0 m c) (arg1 m c) (arg2 m c) (arg3 m c)) (kO1 (arg0 m c) (arg1 m c) (arg2 m c) (arg3 m c)) (HostVal.h0_v7 (F := F) (arg2 m c) (arg0 m c) (arg1 m c) (arg3 m c)) (HostVal.h0_v9 (F := F) (arg2 m c) (arg0 m c) (arg1 m c) (arg3 m c)) (HostVal.h0_v3 (F := F) (arg2 m c) (arg0 m c) (arg1 m c) (arg3 m c)) (HostVal.h0_v5 (F := F) (arg2 m c) (arg0 m c) (arg1 m c) (arg3 m c)) (HostVal.h0_v1 (F := F) (arg2 m c) (arg0 m c) (arg1 m c) (arg3 m c)) := (W4_of_ne m ρ c main_v52 (by decide)).trans w52
  have x4 : W4 m ρ c (Proc.devRef .tc main_arg4) = arg4 m c := (W4_of_ne m ρ c main_arg4 (by decide)).trans y4
  -- the last stretch
  refine (HostVal.after2_v115 (W4 m ρ c)).trans ?_
  rw [p0, p1, x3, x50, x52, x4]
  rfl

end Cert.KernelIdeal.Hand

end
-- ==== Proof.LibStack.lean ====
/-
  Row scatters and row gathers read at an index.

  A scatter-add of rows: operand `[N, K]`, one scatter index per update row (indices `[E, 1]`), updates `[E, K]`, each
  update row added onto the operand row its index names (dropped when the index is outside `[0, N)`). Read at `(n, k)`
  it is the operand's element plus the sum over the update rows landing on `n` of their element in column `k`; so a
  column of a scatter of stacked columns is the flat scatter (operand `[N]`, updates `[E]`) of that column.
  A gather of rows likewise: a column of a row gather from a table of stacked columns is the flat gather from that column.
-/
import Idealize.ShloMosaic.Lib.ValueIdx
import Idealize.ShloMosaic.Lib.Pipeline.Value
import Idealize.ShloMosaic.PureOps.Ideal.Laws

noncomputable section

open scoped BigOperators

namespace Idealize.ShloMosaic.Stack

open Idealize.ShloMosaic Idealize.ShloMosaic.ValueIdx

/-! ## Scatters -/

/-- The dimension numbers of a row scatter: operand `[N, K]`, scatter indices `[E, 1]`, updates `[E, K]`. -/
abbrev rowsDims (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The dimension numbers of the flat scatter: operand `[N]`, scatter indices `[E, 1]`, updates `[E]`. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows
variable {N K E w : Nat} (wf : ScatterDims.WF ⟨2, ![N, K]⟩ ⟨2, ![E, 1]⟩ ⟨2, ![E, K]⟩ [1] [0] [0] 1)

/-- A row scatter's update `(e, k)` starts, on the row axis, at the scatter index of row `e`. -/
theorem rows_start0 (j : (⟨2, ![E, K]⟩ : Shape).Idx) (idx : IVec ⟨2, ![E, 1]⟩ w) :
    (rowsDims N K E wf).start j idx 0 = (idx (ix2 (j 0) ⟨0, Nat.one_pos⟩)).toInt := by
  unfold ScatterDims.start
  rw [dif_pos (show (0 : Fin 2) ∈ (rowsDims N K E wf).scatterDimsToOperandDims from List.mem_singleton.mpr rfl)]
  congr 2
  funext b
  match b with
  | ⟨0, _⟩ => rfl
  | ⟨1, _⟩ => rfl

/-- On the row axis the window coordinate is zero: the axis is inserted. -/
theorem rows_window0 (j : (⟨2, ![E, K]⟩ : Shape).Idx) : (rowsDims N K E wf).window j 0 = 0 := by
  unfold ScatterDims.window; rw [dif_neg (by simp [ScatterDims.sKept, Shape.kept, List.mem_filter, List.mem_finRange])]
/-- On the column axis it is the update's column. -/
theorem rows_window1 (j : (⟨2, ![E, K]⟩ : Shape).Idx) : (rowsDims N K E wf).window j 1 = (j 1).val := by
  unfold ScatterDims.window; rw [dif_pos (by simp [ScatterDims.sKept, Shape.kept, List.mem_filter, List.mem_finRange])]; rfl
/-- On the column axis the window starts at zero: no scatter index names it. -/
theorem rows_start1 (j : (⟨2, ![E, K]⟩ : Shape).Idx) (idx : IVec ⟨2, ![E, 1]⟩ w) : (rowsDims N K E wf).start j idx 1 = 0 := by
  unfold ScatterDims.start; rw [dif_neg (fun h => absurd (congrArg Fin.val (List.mem_singleton.mp h)) Nat.one_ne_zero)]

/-- Update `(e, k)` of a row scatter lands at `(n, k')` iff row `e`'s scatter index is `n` and `k = k'`. -/
theorem rows_resultIdx_iff (j : (⟨2, ![E, K]⟩ : Shape).Idx) (idx : IVec ⟨2, ![E, 1]⟩ w) (i : (⟨2, ![N, K]⟩ : Shape).Idx) :
    (rowsDims N K E wf).resultIdx? j idx = some i
      ↔ (idx (ix2 (j 0) ⟨0, Nat.one_pos⟩)).toInt = ((i 0).val : Int) ∧ (j 1).val = (i 1).val := by
  have hi0 : (i 0).val < N := (i 0).isLt
  have hi1 : (i 1).val < K := (i 1).isLt
  have hj1 : (j 1).val < K := (j 1).isLt
  unfold ScatterDims.resultIdx?
  split
  · next h =>
    rw [Option.some.injEq]
    constructor
    · intro e
      have e0 := congrArg Fin.val (congrFun e 0)
      have e1 := congrArg Fin.val (congrFun e 1)
      have h0 := h 0
      simp only [rows_start0, rows_window0, rows_start1, rows_window1] at e0 e1 h0
      constructor <;> omega
    · rintro ⟨e0, e1⟩
      funext a
      apply Fin.ext
      match a with
      | ⟨0, _⟩ => show ((rowsDims N K E wf).start j idx 0 + ((rowsDims N K E wf).window j 0 : Int)).toNat = (i 0).val; rw [rows_start0, rows_window0, e0]; omega
      | ⟨1, _⟩ => show ((rowsDims N K E wf).start j idx 1 + ((rowsDims N K E wf).window j 1 : Int)).toNat = (i 1).val; rw [rows_start1, rows_window1]; omega
  · next h =>
    constructor
    · intro e; cases e
    · rintro ⟨e0, e1⟩
      exfalso; apply h
      intro a
      match a with
      | ⟨0, _⟩ => show 0 ≤ (rowsDims N K E wf).start j idx 0 + ((rowsDims N K E wf).window j 0 : Int) ∧ (rowsDims N K E wf).start j idx 0 + ((rowsDims N K E wf).window j 0 : Int) < (N : Int); rw [rows_start0, rows_window0, e0]; omega
      | ⟨1, _⟩ => show 0 ≤ (rowsDims N K E wf).start j idx 1 + ((rowsDims N K E wf).window j 1 : Int) ∧ (rowsDims N K E wf).start j idx 1 + ((rowsDims N K E wf).window j 1 : Int) < (K : Int); rw [rows_start1, rows_window1]; omega

/-- A ROW SCATTER-ADD READ AT `(n, k)`: the operand's element plus the sum, over the update rows whose scatter index
    is `n`, of their element in column `k`. -/
theorem rows_scatterAdd_apply (x : (⟨2, ![N, K]⟩ : Shape).Idx → EReal) (idx : IVec ⟨2, ![E, 1]⟩ w)
    (upd : (⟨2, ![E, K]⟩ : Shape).Idx → EReal) (n : Fin N) (k : Fin K) :
    Ideal.hostScatterAdd (rowsDims N K E wf) x idx upd (ix2 n k)
      = x (ix2 n k) + ∑ e ∈ Finset.univ.filter (fun e : Fin E => (idx (ix2 e ⟨0, Nat.one_pos⟩)).toInt = (n.val : Int)), upd (ix2 e k) := by
  unfold Ideal.hostScatterAdd
  congr 1
  refine Finset.sum_nbij' (fun j => (j 0 : Fin E)) (fun e => ix2 e k) ?_ ?_ ?_ ?_ ?_
  · intro j hj
    exact Finset.mem_filter.mpr ⟨Finset.mem_univ _, ((rows_resultIdx_iff wf j idx (ix2 n k)).mp (Finset.mem_filter.mp hj).2).1⟩
  · intro e he
    exact Finset.mem_filter.mpr ⟨Finset.mem_univ _, (rows_resultIdx_iff wf (ix2 e k) idx (ix2 n k)).mpr ⟨(Finset.mem_filter.mp he).2, rfl⟩⟩
  · intro j hj
    have h1 := ((rows_resultIdx_iff wf j idx (ix2 n k)).mp (Finset.mem_filter.mp hj).2).2
    funext a
    match a with
    | ⟨0, _⟩ => rfl
    | ⟨1, _⟩ => exact (Fin.ext h1).symm
  · intro e _; rfl
  · intro j hj
    have h1 := ((rows_resultIdx_iff wf j idx (ix2 n k)).mp (Finset.mem_filter.mp hj).2).2
    congr 1
    funext a
    match a with
    | ⟨0, _⟩ => rfl
    | ⟨1, _⟩ => exact Fin.ext h1

end Rows

section Flat
variable {N E w : Nat} (wf : ScatterDims.WF ⟨1, ![N]⟩ ⟨2, ![E, 1]⟩ ⟨1, ![E]⟩ [] [0] [0] 1)

/-- A flat scatter's update `e` starts at its scatter index. -/
theorem flat_start0 (j : (⟨1, ![E]⟩ : Shape).Idx) (idx : IVec ⟨2, ![E, 1]⟩ w) :
    (flatDims N E wf).start j idx 0 = (idx (ix2 (j 0) ⟨0, Nat.one_pos⟩)).toInt := by
  unfold ScatterDims.start
  rw [dif_pos (show (0 : Fin 1) ∈ (flatDims N E wf).scatterDimsToOperandDims from List.mem_singleton.mpr rfl)]
  congr 2
  funext b
  match b with
  | ⟨0, _⟩ => rfl
  | ⟨1, _⟩ => rfl
/-- Its one operand axis is inserted: no window coordinate. -/
theorem flat_window0 (j : (⟨1, ![E]⟩ : Shape).Idx) : (flatDims N E wf).window j 0 = 0 := by
  unfold ScatterDims.window; rw [dif_neg (by simp [ScatterDims.sKept, Shape.kept, List.mem_filter, List.mem_finRange])]

/-- Update `e` of a flat scatter lands at `n` iff its scatter index is `n`. -/
theorem flat_resultIdx_iff (j : (⟨1, ![E]⟩ : Shape).Idx) (idx : IVec ⟨2, ![E, 1]⟩ w) (i : (⟨1, ![N]⟩ : Shape).Idx) :
    (flatDims N E wf).resultIdx? j idx = some i ↔ (idx (ix2 (j 0) ⟨0, Nat.one_pos⟩)).toInt = ((i 0).val : Int) := by
  have hi0 : (i 0).val < N := (i 0).isLt
  unfold ScatterDims.resultIdx?
  split
  · next h =>
    rw [Option.some.injEq]
    constructor
    · intro e
      have e0 := congrArg Fin.val (congrFun e 0)
      have h0 := h 0
      simp only [flat_start0, flat_window0] at e0 h0
      omega
    · intro e0
      funext a
      apply Fin.ext
      match a with
      | ⟨0, _⟩ => show ((flatDims N E wf).start j idx 0 + ((flatDims N E wf).window j 0 : Int)).toNat = (i 0).val; rw [flat_start0, flat_window0, e0]; omega
  · next h =>
    constructor
    · intro e; cases e
    · intro e0
      exfalso; apply h
      intro a
      match a with
      | ⟨0, _⟩ => show 0 ≤ (flatDims N E wf).start j idx 0 + ((flatDims N E wf).window j 0 : Int) ∧ (flatDims N E wf).start j idx 0 + ((flatDims N E wf).window j 0 : Int) < (N : Int); rw [flat_start0, flat_window0, e0]; omega

/-- A FLAT SCATTER-ADD READ AT `n`: the operand's element plus the sum of the updates whose scatter index is `n`. -/
theorem flat_scatterAdd_apply (y : (⟨1, ![N]⟩ : Shape).Idx → EReal) (idx : IVec ⟨2, ![E, 1]⟩ w)
    (u : (⟨1, ![E]⟩ : Shape).Idx → EReal) (n : Fin N) :
    Ideal.hostScatterAdd (flatDims N E wf) y idx u (ix1 n)
      = y (ix1 n) + ∑ e ∈ Finset.univ.filter (fun e : Fin E => (idx (ix2 e ⟨0, Nat.one_pos⟩)).toInt = (n.val : Int)), u (ix1 e) := by
  unfold Ideal.hostScatterAdd
  congr 1
  refine Finset.sum_nbij' (fun j => (j 0 : Fin E)) (fun e => ix1 e) ?_ ?_ ?_ ?_ ?_
  · intro j hj
    exact Finset.mem_filter.mpr ⟨Finset.mem_univ _, (flat_resultIdx_iff wf j idx (ix1 n)).mp (Finset.mem_filter.mp hj).2⟩
  · intro e he
    exact Finset.mem_filter.mpr ⟨Finset.mem_univ _, (flat_resultIdx_iff wf (ix1 e) idx (ix1 n)).mpr (Finset.mem_filter.mp he).2⟩
  · intro j _; exact (eq_ix1 j).symm
  · intro e _; rfl
  · intro j _; exact congrArg u (eq_ix1 j)

end Flat

/-- A COLUMN OF A ROW SCATTER IS THE FLAT SCATTER OF THE COLUMN: at `(n, k)` a row scatter-add whose operand's column `k`
    is `y` and whose updates' column `k` is `u` is the flat scatter-add of `u` onto `y` at `n`, by the same indices. -/
theorem rows_col_eq_flat {N K E w : Nat} (wf2 : ScatterDims.WF ⟨2, ![N, K]⟩ ⟨2, ![E, 1]⟩ ⟨2, ![E, K]⟩ [1] [0] [0] 1)
    (wf1 : ScatterDims.WF ⟨1, ![N]⟩ ⟨2, ![E, 1]⟩ ⟨1, ![E]⟩ [] [0] [0] 1)
    (x : (⟨2, ![N, K]⟩ : Shape).Idx → EReal) (y : (⟨1, ![N]⟩ : Shape).Idx → EReal) (idx : IVec ⟨2, ![E, 1]⟩ w)
    (upd : (⟨2, ![E, K]⟩ : Shape).Idx → EReal) (u : (⟨1, ![E]⟩ : Shape).Idx → EReal) (n : Fin N) (k : Fin K)
    (hx : x (ix2 n k) = y (ix1 n)) (hu : ∀ e : Fin E, upd (ix2 e k) = u (ix1 e)) :
    Ideal.hostScatterAdd (rowsDims N K E wf2) x idx upd (ix2 n k) = Ideal.hostScatterAdd (flatDims N E wf1) y idx u (ix1 n) := by
  rw [rows_scatterAdd_apply, flat_scatterAdd_apply, hx]
  congr 1
  exact Finset.sum_congr rfl fun e _ => hu e

/-! ## Gathers -/

/-- The dimension numbers of a row gather: table `[N, K]`, start indices `[E, 1]`, result `[E, K]`. -/
abbrev rowGather (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The dimension numbers of the flat gather: table `[N]`, start indices `[E, 1]`, result `[E]`. -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Gathers
variable {α : Type} {N K E w : Nat}

/-- The row a start index names: read signed and clamped into `[0, N − 1]`. -/
abbrev rowOf (hN : 0 < N) (v : BitVec w) : Fin N := ⟨min v.toInt.toNat (N - 1), by omega⟩

/-- THE FLAT GATHER READ AT `e`: the table at the row start index `e` names. -/
theorem flatGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (rowOf hN (idx (ix2 e ⟨0, Nat.one_pos⟩)))) := by
  unfold Host.gather
  congr 1
  funext a
  obtain rfl : a = 0 := Subsingleton.elim _ _
  refine Fin.ext ?_
  show (flatGather N E wf).start (ix1 e) idx 0 + (flatGather N E wf).batchCoord (ix1 e) 0 + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- THE ROW GATHER READ AT `(e, k)`: column `k` of the table's row that start index `e` names. -/
theorem rowGather_apply (hN : 0 < N) (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowGather N K E wf) x idx (ix2 e k) = x (ix2 (rowOf hN (idx (ix2 e ⟨0, Nat.one_pos⟩))) k) := by
  unfold Host.gather
  congr 1
  funext a
  refine Fin.ext ?_
  match a with
  | ⟨0, _⟩ =>
    show (rowGather N K E wf).start (ix2 e k) idx 0 + (rowGather N K E wf).batchCoord (ix2 e k) 0 + (rowGather N K E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N K E wf).startIndexMap from List.mem_singleton.mpr rfl)]
    have hsi : (rowGather N K E wf).siIdx (ix2 e k) ⟨List.idxOf (0 : Fin 2) (rowGather N K E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGather N K E wf).start (ix2 e k) idx 1 + (rowGather N K E wf).batchCoord (ix2 e k) 1 + (rowGather N K E wf).offCoord (ix2 e k) 1 = k.val
    rw [GatherDims.batchCoord_eq_zero _ _ _ List.not_mem_nil]
    unfold GatherDims.start GatherDims.offCoord
    rw [dif_neg (fun h => absurd (congrArg Fin.val (List.mem_singleton.mp h)) Nat.one_ne_zero),
      dif_pos ((GatherDims.mem_sKept _ _).mpr ⟨fun h => absurd (congrArg Fin.val (List.mem_singleton.mp h)) Nat.one_ne_zero, List.not_mem_nil⟩)]
    simp only [Nat.zero_add, Nat.add_zero]
    rfl

/-- A COLUMN OF A ROW GATHER IS THE FLAT GATHER FROM THE COLUMN. -/
theorem rowGather_col_eq_flat (hN : 0 < N) (wf2 : GatherDims.WF ⟨2, ![N, K]⟩ ⟨2, ![E, 1]⟩ ⟨2, ![E, K]⟩ [1] [0] [] [0] [] 1 ![1, K])
    (wf1 : GatherDims.WF ⟨1, ![N]⟩ ⟨2, ![E, 1]⟩ ⟨1, ![E]⟩ [] [0] [] [0] [] 1 ![1])
    (T : (⟨2, ![N, K]⟩ : Shape).Idx → α) (t : (⟨1, ![N]⟩ : Shape).Idx → α) (idx : IVec ⟨2, ![E, 1]⟩ w) (e : Fin E) (k : Fin K)
    (hT : ∀ n : Fin N, T (ix2 n k) = t (ix1 n)) :
    Host.gather (rowGather N K E wf2) T idx (ix2 e k) = Host.gather (flatGather N E wf1) t idx (ix1 e) := by
  rw [rowGather_apply hN, flatGather_apply hN, hT]

end Gathers

/-! ## Columns: slices, stacks and flattenings read at an index -/

section Columns
variable {α β : Type} {M K : Nat}

/-- A column sliced out of `[M, K]` and flattened, read at `n`: the array at `(n, k)`. -/
theorem col_apply (k : Nat) (hk : k < K) (X : (⟨2, ![M, K]⟩ : Shape).Idx → α)
    (hs : (⟨2, ![M, K]⟩ : Shape).Slices ![0, k] ⟨2, ![M, 1]⟩) (hc : (⟨2, ![M, 1]⟩ : Shape).ShapeCasts ⟨1, ![M]⟩) (n : Fin M) :
    shapeCast ⟨1, ![M]⟩ (extractStridedSlice ⟨2, ![M, 1]⟩ ![0, k] X hs) hc (ix1 n) = X (ix2 n ⟨k, hk⟩) := by
  rw [shapeCast_apply _ hc (ix1 n) (ix2 n ⟨0, Nat.one_pos⟩)
    (by rw [Shape.rowMajor_val_two, Shape.rowMajor_val_one]; show n.val * 1 + 0 = n.val; omega)]
  exact extractStridedSlice_apply ![0, k] X hs _ _ (fun a => match a with
    | ⟨0, _⟩ => by show n.val = 0 + n.val; omega
    | ⟨1, _⟩ => by show k = k + 0; omega)

/-- A one-column array flattened, read at `n`. -/
theorem flat_col_apply (x : (⟨2, ![M, 1]⟩ : Shape).Idx → α) (hc : (⟨2, ![M, 1]⟩ : Shape).ShapeCasts ⟨1, ![M]⟩) (n : Fin M) :
    shapeCast ⟨1, ![M]⟩ x hc (ix1 n) = x (ix2 n ⟨0, Nat.one_pos⟩) :=
  shapeCast_apply _ hc (ix1 n) (ix2 n ⟨0, Nat.one_pos⟩)
    (by rw [Shape.rowMajor_val_two, Shape.rowMajor_val_one]; show n.val * 1 + 0 = n.val; omega)

/-- A flat array stood up as one column, read at `(e, 0)`. -/
theorem bcol_apply (u : (⟨1, ![M]⟩ : Shape).Idx → α) (h : (⟨1, ![M]⟩ : Shape).BroadcastsInDim ⟨2, ![M, 1]⟩ ![0]) (e : Fin M) :
    broadcastInDim ⟨2, ![M, 1]⟩ ![0] h u (ix2 e ⟨0, Nat.one_pos⟩) = u (ix1 e) :=
  broadcastInDim_apply ![0] h u _ (ix1 e) (fun a => by
    obtain rfl : a = 0 := Subsingleton.elim _ _
    have he := e.isLt
    show e.val = if M = 1 then 0 else e.val
    split <;> omega)

/-- A flattening and its inverse around an elementwise function of three arrays cancel. -/
theorem shapeCast_map3 {s t : Shape} (h : s.ShapeCasts t) (h' : t.ShapeCasts s) (f : α → α → α → β) (a b c : s.Idx → α) :
    shapeCast s (fun i => f (shapeCast t a h i) (shapeCast t b h i) (shapeCast t c h i)) h' = fun e => f (a e) (b e) (c e) := by
  funext e
  show f (shapeCast s (shapeCast t a h) h' e) (shapeCast s (shapeCast t b h) h' e) (shapeCast s (shapeCast t c h) h' e) = _
  rw [shapeCast_shapeCast, shapeCast_shapeCast, shapeCast_shapeCast]

/-- Two columns stacked, read at `(e, 0)` and at `(e, 1)`. -/
theorem cat2_col0 (x0 x1 : (⟨2, ![M, 1]⟩ : Shape).Idx → α)
    (h : Shape.Concatenates [⟨2, ![M, 1]⟩, ⟨2, ![M, 1]⟩] ⟨2, ![M, 2]⟩ 1) (e : Fin M) :
    concatenate ⟨2, ![M, 2]⟩ 1 [⟨⟨2, ![M, 1]⟩, x0⟩, ⟨⟨2, ![M, 1]⟩, x1⟩] h (ix2 e ⟨0, by omega⟩) = x0 (ix2 e ⟨0, Nat.one_pos⟩) :=
  concatenate_pair_apply_left 1 x0 x1 h _ rfl (ix2 e ⟨0, Nat.one_pos⟩) (fun b => match b with
    | ⟨0, _⟩ => rfl
    | ⟨1, _⟩ => rfl)
theorem cat2_col1 (x0 x1 : (⟨2, ![M, 1]⟩ : Shape).Idx → α)
    (h : Shape.Concatenates [⟨2, ![M, 1]⟩, ⟨2, ![M, 1]⟩] ⟨2, ![M, 2]⟩ 1) (e : Fin M) :
    concatenate ⟨2, ![M, 2]⟩ 1 [⟨⟨2, ![M, 1]⟩, x0⟩, ⟨⟨2, ![M, 1]⟩, x1⟩] h (ix2 e ⟨1, by omega⟩) = x1 (ix2 e ⟨0, Nat.one_pos⟩) :=
  concatenate_pair_apply_right 1 x0 x1 h _ rfl rfl (ix2 e ⟨0, Nat.one_pos⟩) (fun b hb => match b with
    | ⟨0, _⟩ => rfl
    | ⟨1, _⟩ => absurd rfl hb) rfl

/-- Four columns stacked, read at `(e, k)`: column `k` at `(e, 0)`. -/
theorem cat4_col (x : Fin 4 → (⟨2, ![M, 1]⟩ : Shape).Idx → α)
    (h : Shape.Concatenates [⟨2, ![M, 1]⟩, ⟨2, ![M, 1]⟩, ⟨2, ![M, 1]⟩, ⟨2, ![M, 1]⟩] ⟨2, ![M, 4]⟩ 1) (e : Fin M) (k : Fin 4) :
    concatenate ⟨2, ![M, 4]⟩ 1 [⟨⟨2, ![M, 1]⟩, x 0⟩, ⟨⟨2, ![M, 1]⟩, x 1⟩, ⟨⟨2, ![M, 1]⟩, x 2⟩, ⟨⟨2, ![M, 1]⟩, x 3⟩] h (ix2 e k)
      = x k (ix2 e ⟨0, Nat.one_pos⟩) := by
  have hi : ∀ b : Fin 2, b.cast (rfl : (2 : Nat) = 2) ≠ (1 : Fin 2) →
      ((ix2 e (⟨0, Nat.one_pos⟩ : Fin 1)) b).val = ((ix2 e k) (b.cast rfl)).val := fun b hb => match b with
    | ⟨0, _⟩ => rfl
    | ⟨1, _⟩ => absurd rfl hb
  match k with
  | ⟨0, _⟩ => exact concatenate_apply_piece 1 [⟨⟨2, ![M, 1]⟩, x 0⟩, ⟨⟨2, ![M, 1]⟩, x 1⟩, ⟨⟨2, ![M, 1]⟩, x 2⟩, ⟨⟨2, ![M, 1]⟩, x 3⟩] h _ 0 (show 0 < 4 by omega) _ (x 0) rfl rfl 0 rfl (ix2 e ⟨0, Nat.one_pos⟩) hi rfl
  | ⟨1, _⟩ => exact concatenate_apply_piece 1 [⟨⟨2, ![M, 1]⟩, x 0⟩, ⟨⟨2, ![M, 1]⟩, x 1⟩, ⟨⟨2, ![M, 1]⟩, x 2⟩, ⟨⟨2, ![M, 1]⟩, x 3⟩] h _ 1 (show 1 < 4 by omega) _ (x 1) rfl rfl 1 rfl (ix2 e ⟨0, Nat.one_pos⟩) hi rfl
  | ⟨2, _⟩ => exact concatenate_apply_piece 1 [⟨⟨2, ![M, 1]⟩, x 0⟩, ⟨⟨2, ![M, 1]⟩, x 1⟩, ⟨⟨2, ![M, 1]⟩, x 2⟩, ⟨⟨2, ![M, 1]⟩, x 3⟩] h _ 2 (show 2 < 4 by omega) _ (x 2) rfl rfl 2 rfl (ix2 e ⟨0, Nat.one_pos⟩) hi rfl
  | ⟨3, _⟩ => exact concatenate_apply_piece 1 [⟨⟨2, ![M, 1]⟩, x 0⟩, ⟨⟨2, ![M, 1]⟩, x 1⟩, ⟨⟨2, ![M, 1]⟩, x 2⟩, ⟨⟨2, ![M, 1]⟩, x 3⟩] h _ 3 (show 3 < 4 by omega) _ (x 3) rfl rfl 3 rfl (ix2 e ⟨0, Nat.one_pos⟩) hi rfl

end Columns

end Idealize.ShloMosaic.Stack

end
-- ==== Proof.Bridge.lean ====
/-
  The two programs compute one function at the ideal instance. The kernel stacks its per-edge columns — the two
  message planes and the two validity planes — and scatter-adds the stack once, stacks the two flow components and
  gathers rows of the stack, and computes the messages in a 62500 × 128 layout; the reference scatters and gathers each
  column by itself over the flat edge list. A column of a row scatter is the flat scatter of the column, a column of a
  row gather from stacked columns is the flat gather from the column, and a flattening around an elementwise function
  cancels: so every sum, count and quotient of the kernel is the reference's, index by index.
-/
import proofs.«108219_j35407710388663_2_alg».proof.Proof.KIKOut
import proofs.«108219_j35407710388663_2_alg».proof.Proof.LibStack
import proofs.«108219_j35407710388663_2_alg».proof.Proof.Gen.ReferenceIdeal.Read

set_option maxRecDepth 16384

noncomputable section

namespace Cert.Bridge

open Idealize.ShloMosaic Idealize.ShloMosaic.TcCoe Idealize.ShloMosaic.ValueIdx

variable (a0 : (⟨Cert.KernelIdeal.S1000000x1, .f32⟩ : BufTy).Contents (Elt Ideal)) (a1 : (⟨Cert.KernelIdeal.S1000000x1, .f32⟩ : BufTy).Contents (Elt Ideal))
  (a2 : (⟨Cert.KernelIdeal.S2x8000000, .i32⟩ : BufTy).Contents (Elt Ideal)) (a3 : (⟨Cert.KernelIdeal.S8000000x2, .f32⟩ : BufTy).Contents (Elt Ideal))
  (a4 : (⟨Cert.KernelIdeal.S1000000, .i32⟩ : BufTy).Contents (Elt Ideal))

/-! ## The program's scatters and gathers, column by column -/

section Generic
variable (x4 : (⟨Cert.KernelIdeal.S1000000x4, .f32⟩ : BufTy).Contents (Elt Ideal)) (u4 : (⟨Cert.KernelIdeal.S8000000x4, .f32⟩ : BufTy).Contents (Elt Ideal))
  (x2 : (⟨Cert.KernelIdeal.S1000000x2, .f32⟩ : BufTy).Contents (Elt Ideal)) (u2 : (⟨Cert.KernelIdeal.S8000000x2, .f32⟩ : BufTy).Contents (Elt Ideal))
  (idx : (⟨Cert.KernelIdeal.S8000000x1, .i32⟩ : BufTy).Contents (Elt Ideal))
  (y : (⟨Cert.ReferenceIdeal.S1000000, .f32⟩ : BufTy).Contents (Elt Ideal)) (v : (⟨Cert.ReferenceIdeal.S8000000, .f32⟩ : BufTy).Contents (Elt Ideal))

/-- A column of the kernel's scatter of four stacked columns is the reference's flat scatter of that column. -/
theorem scat4_col (n : Fin 1000000) (k : Fin 4) (hx : x4 (ix2 n k) = y (ix1 n)) (hu : ∀ e : Fin 8000000, u4 (ix2 e k) = v (ix1 e)) :
    Host.scatterAdd (F := Ideal) (φ := .f32) Cert.KernelIdeal.scatter_S1000000x4_S8000000x1_S8000000x4_1_0_0_1 x4 idx u4 (ix2 n k) = Host.scatterAdd (F := Ideal) (φ := .f32) Cert.ReferenceIdeal.scatter_S1000000_S8000000x1_S8000000_n_0_0_1 y idx v (ix1 n) := by
  simp only [Host.scatterAdd, Ideal.hostScatterAdd_def]
  exact Stack.rows_col_eq_flat (N := 1000000) (K := 4) (E := 8000000) Cert.KernelIdeal.Facts₀.scatter_S1000000x4_S8000000x1_S8000000x4_1_0_0_1_wf Cert.ReferenceIdeal.Facts₀.scatter_S1000000_S8000000x1_S8000000_n_0_0_1_wf x4 y idx u4 v n k hx hu

/-- A column of the kernel's scatter of two stacked columns likewise. -/
theorem scat2_col (n : Fin 1000000) (k : Fin 2) (hx : x2 (ix2 n k) = y (ix1 n)) (hu : ∀ e : Fin 8000000, u2 (ix2 e k) = v (ix1 e)) :
    Host.scatterAdd (F := Ideal) (φ := .f32) Cert.KernelIdeal.scatter_S1000000x2_S8000000x1_S8000000x2_1_0_0_1 x2 idx u2 (ix2 n k) = Host.scatterAdd (F := Ideal) (φ := .f32) Cert.ReferenceIdeal.scatter_S1000000_S8000000x1_S8000000_n_0_0_1 y idx v (ix1 n) := by
  simp only [Host.scatterAdd, Ideal.hostScatterAdd_def]
  exact Stack.rows_col_eq_flat (N := 1000000) (K := 2) (E := 8000000) Cert.KernelIdeal.Facts₀.scatter_S1000000x2_S8000000x1_S8000000x2_1_0_0_1_wf Cert.ReferenceIdeal.Facts₀.scatter_S1000000_S8000000x1_S8000000_n_0_0_1_wf x2 y idx u2 v n k hx hu

/-- A column of the kernel's row gather from two stacked columns is the reference's flat gather from that column. -/
theorem gath2_col (e : Fin 8000000) (k : Fin 2) (hT : ∀ n : Fin 1000000, x2 (ix2 n k) = y (ix1 n)) :
    Host.gather Cert.KernelIdeal.gather_S1000000x2_S8000000x1_S8000000x2_1_0_n_n_0_1_12 x2 idx (ix2 e k) = Host.gather Cert.ReferenceIdeal.gather_S1000000_S8000000x1_S8000000_n_0_n_n_0_1_1 y idx (ix1 e) :=
  Stack.rowGather_col_eq_flat (N := 1000000) (K := 2) (E := 8000000) (by decide) Cert.KernelIdeal.Facts₀.gather_S1000000x2_S8000000x1_S8000000x2_1_0_n_n_0_1_12_wf Cert.ReferenceIdeal.Facts₀.gather_S1000000_S8000000x1_S8000000_n_0_n_n_0_1_1_wf x2 y idx e k hT

end Generic

/-! ## The first pass's messages -/

/-- The first pass's first result, flattened, is the reference's x-message: the flattening cancels around the
    elementwise message, and at the ideal instance the two spellings of the message agree. -/
theorem msgx_eq : (Cert.KernelIdeal.HostVal.h1_v29 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v32 (F := Ideal) a0 a2 a3 := by
  unfold Cert.KernelIdeal.HostVal.h1_v29 Cert.KernelIdeal.Hand.kO0 Cert.KernelIdeal.HostVal.h0_v17 Cert.KernelIdeal.HostVal.h0_v25 Cert.KernelIdeal.HostVal.h0_v26
  refine (Stack.shapeCast_map3 _ _ Cert.KernelIdeal.Hand.msgS _ _ _).trans ?_
  rfl
theorem msgy_eq : (Cert.KernelIdeal.HostVal.h1_v30 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v63 (F := Ideal) a0 a2 a3 := by
  unfold Cert.KernelIdeal.HostVal.h1_v30 Cert.KernelIdeal.Hand.kO1 Cert.KernelIdeal.HostVal.h0_v17 Cert.KernelIdeal.HostVal.h0_v25 Cert.KernelIdeal.HostVal.h0_v27
  refine (Stack.shapeCast_map3 _ _ Cert.KernelIdeal.Hand.msgS _ _ _).trans ?_
  rfl

/-! ## The stacked payload, column by column -/

theorem pay1_0 (e : Fin 8000000) : (Cert.KernelIdeal.HostVal.h1_v41 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 e ⟨0, by decide⟩) = Cert.ReferenceIdeal.Read.val_main_v32 (F := Ideal) a0 a2 a3 (ix1 e) := by
  unfold Cert.KernelIdeal.HostVal.h1_v41
  refine (Stack.cat4_col ![(Cert.KernelIdeal.HostVal.h1_v37 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v38 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v39 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v40 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3))] _ e ⟨0, by decide⟩).trans ?_
  show (Cert.KernelIdeal.HostVal.h1_v37 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 e ⟨0, Nat.one_pos⟩) = _
  unfold Cert.KernelIdeal.HostVal.h1_v37
  rw [Stack.bcol_apply]
  exact congrFun (msgx_eq a0 a1 a2 a3) (ix1 e)
theorem pay1_1 (e : Fin 8000000) : (Cert.KernelIdeal.HostVal.h1_v41 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 e ⟨1, by decide⟩) = Cert.ReferenceIdeal.Read.val_main_v63 (F := Ideal) a0 a2 a3 (ix1 e) := by
  unfold Cert.KernelIdeal.HostVal.h1_v41
  refine (Stack.cat4_col ![(Cert.KernelIdeal.HostVal.h1_v37 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v38 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v39 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v40 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3))] _ e ⟨1, by decide⟩).trans ?_
  show (Cert.KernelIdeal.HostVal.h1_v38 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 e ⟨0, Nat.one_pos⟩) = _
  unfold Cert.KernelIdeal.HostVal.h1_v38
  rw [Stack.bcol_apply]
  exact congrFun (msgy_eq a0 a1 a2 a3) (ix1 e)
theorem pay1_2 (e : Fin 8000000) : (Cert.KernelIdeal.HostVal.h1_v41 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 e ⟨2, by decide⟩) = Cert.ReferenceIdeal.Read.val_main_v36 (F := Ideal) a3 (ix1 e) := by
  unfold Cert.KernelIdeal.HostVal.h1_v41
  refine (Stack.cat4_col ![(Cert.KernelIdeal.HostVal.h1_v37 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v38 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v39 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v40 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3))] _ e ⟨2, by decide⟩).trans ?_
  show (Cert.KernelIdeal.HostVal.h1_v39 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 e ⟨0, Nat.one_pos⟩) = _
  unfold Cert.KernelIdeal.HostVal.h1_v39
  rw [Stack.bcol_apply]
  rfl
theorem pay1_3 (e : Fin 8000000) : (Cert.KernelIdeal.HostVal.h1_v41 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 e ⟨3, by decide⟩) = Cert.ReferenceIdeal.Read.val_main_v67 (F := Ideal) a3 (ix1 e) := by
  unfold Cert.KernelIdeal.HostVal.h1_v41
  refine (Stack.cat4_col ![(Cert.KernelIdeal.HostVal.h1_v37 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v38 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v39 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)), (Cert.KernelIdeal.HostVal.h1_v40 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3))] _ e ⟨3, by decide⟩).trans ?_
  show (Cert.KernelIdeal.HostVal.h1_v40 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 e ⟨0, Nat.one_pos⟩) = _
  unfold Cert.KernelIdeal.HostVal.h1_v40
  rw [Stack.bcol_apply]
  rfl

/-! ## The sums and the counts -/

theorem sx_eq : (Cert.KernelIdeal.HostVal.h1_v46 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v35 (F := Ideal) a0 a2 a3 := by
  funext n
  obtain ⟨n', rfl⟩ : ∃ n' : Fin 1000000, n = ix1 n' := ⟨n 0, eq_ix1 n⟩
  unfold Cert.KernelIdeal.HostVal.h1_v46 Cert.KernelIdeal.HostVal.h1_v45
  rw [Stack.col_apply 0 (by decide) _ _ _ n']
  unfold Cert.KernelIdeal.HostVal.h1_v44 Cert.ReferenceIdeal.Read.val_main_v35
  have hidx : (Cert.KernelIdeal.HostVal.h1_v43 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v34 (F := Ideal) a2 := rfl
  have hx : (Cert.KernelIdeal.HostVal.h1_v42 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 n' ⟨0, by decide⟩) = Cert.ReferenceIdeal.Read.val_main_v33 (F := Ideal) (ix1 n') := rfl
  rw [hidx]
  exact scat4_col _ _ _ _ _ n' ⟨0, by decide⟩ hx (pay1_0 a0 a1 a2 a3)
theorem sy_eq : (Cert.KernelIdeal.HostVal.h1_v48 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v66 (F := Ideal) a0 a2 a3 := by
  funext n
  obtain ⟨n', rfl⟩ : ∃ n' : Fin 1000000, n = ix1 n' := ⟨n 0, eq_ix1 n⟩
  unfold Cert.KernelIdeal.HostVal.h1_v48 Cert.KernelIdeal.HostVal.h1_v47
  rw [Stack.col_apply 1 (by decide) _ _ _ n']
  unfold Cert.KernelIdeal.HostVal.h1_v44 Cert.ReferenceIdeal.Read.val_main_v66
  have hidx : (Cert.KernelIdeal.HostVal.h1_v43 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v65 (F := Ideal) a2 := rfl
  have hx : (Cert.KernelIdeal.HostVal.h1_v42 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 n' ⟨1, by decide⟩) = Cert.ReferenceIdeal.Read.val_main_v64 (F := Ideal) (ix1 n') := rfl
  rw [hidx]
  exact scat4_col _ _ _ _ _ n' ⟨1, by decide⟩ hx (pay1_1 a0 a1 a2 a3)
theorem cx_eq : (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v39 (F := Ideal) a2 a3 := by
  funext n
  obtain ⟨n', rfl⟩ : ∃ n' : Fin 1000000, n = ix1 n' := ⟨n 0, eq_ix1 n⟩
  unfold Cert.KernelIdeal.HostVal.h1_v50 Cert.KernelIdeal.HostVal.h1_v49
  rw [Stack.col_apply 2 (by decide) _ _ _ n']
  unfold Cert.KernelIdeal.HostVal.h1_v44 Cert.ReferenceIdeal.Read.val_main_v39
  have hidx : (Cert.KernelIdeal.HostVal.h1_v43 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v38 (F := Ideal) a2 := rfl
  have hx : (Cert.KernelIdeal.HostVal.h1_v42 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 n' ⟨2, by decide⟩) = Cert.ReferenceIdeal.Read.val_main_v37 (F := Ideal) (ix1 n') := rfl
  rw [hidx]
  exact scat4_col _ _ _ _ _ n' ⟨2, by decide⟩ hx (pay1_2 a0 a1 a2 a3)
theorem cy_eq : (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v70 (F := Ideal) a2 a3 := by
  funext n
  obtain ⟨n', rfl⟩ : ∃ n' : Fin 1000000, n = ix1 n' := ⟨n 0, eq_ix1 n⟩
  unfold Cert.KernelIdeal.HostVal.h1_v52 Cert.KernelIdeal.HostVal.h1_v51
  rw [Stack.col_apply 3 (by decide) _ _ _ n']
  unfold Cert.KernelIdeal.HostVal.h1_v44 Cert.ReferenceIdeal.Read.val_main_v70
  have hidx : (Cert.KernelIdeal.HostVal.h1_v43 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v69 (F := Ideal) a2 := rfl
  have hx : (Cert.KernelIdeal.HostVal.h1_v42 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 n' ⟨3, by decide⟩) = Cert.ReferenceIdeal.Read.val_main_v68 (F := Ideal) (ix1 n') := rfl
  rw [hidx]
  exact scat4_col _ _ _ _ _ n' ⟨3, by decide⟩ hx (pay1_3 a0 a1 a2 a3)

/-! ## The mean derivatives -/

theorem dx_eq : (Cert.KernelIdeal.HostVal.h1_v55 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v42 (F := Ideal) a0 a2 a3 := by
  unfold Cert.KernelIdeal.HostVal.h1_v55 Cert.KernelIdeal.HostVal.h1_v54 Cert.ReferenceIdeal.Read.val_main_v42 Cert.ReferenceIdeal.Read.val_main_v41
  rw [sx_eq, cx_eq]
  rfl
theorem dy_eq : (Cert.KernelIdeal.HostVal.h1_v58 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v73 (F := Ideal) a0 a2 a3 := by
  unfold Cert.KernelIdeal.HostVal.h1_v58 Cert.KernelIdeal.HostVal.h1_v57 Cert.ReferenceIdeal.Read.val_main_v73 Cert.ReferenceIdeal.Read.val_main_v72
  rw [sy_eq, cy_eq]
  rfl

/-! ## The flow, column by column -/

theorem tf0 (n : Fin 1000000) : (Cert.KernelIdeal.HostVal.h1_v63 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 n ⟨0, by decide⟩) = Cert.ReferenceIdeal.Read.val_main_v80 (F := Ideal) a0 a1 a2 a3 (ix1 n) := by
  have hr : Cert.ReferenceIdeal.Read.val_main_v80 (F := Ideal) a0 a1 a2 a3 (ix1 n) = FloatOps.mulf (F := Ideal) (φ := .f32) (a1 (ix2 n ⟨0, Nat.one_pos⟩)) (Cert.ReferenceIdeal.Read.val_main_v42 (F := Ideal) a0 a2 a3 (ix1 n)) := by
    unfold Cert.ReferenceIdeal.Read.val_main_v80 Cert.ReferenceIdeal.Read.val_main_v79
    rw [Stack.col_apply 0 (by decide) _ _ _ n]
    unfold Cert.ReferenceIdeal.Read.val_main_v78
    show FloatOps.mulf (F := Ideal) (φ := .f32) (Cert.ReferenceIdeal.Read.val_main_v77 (F := Ideal) a1 (ix2 n ⟨0, by decide⟩)) (Cert.ReferenceIdeal.Read.val_main_v76 (F := Ideal) a0 a2 a3 (ix2 n ⟨0, by decide⟩)) = _
    refine congrArg₂ (FloatOps.mulf (F := Ideal) (φ := .f32)) ?_ ?_
    · unfold Cert.ReferenceIdeal.Read.val_main_v77
      exact broadcastInDim_apply _ _ a1 _ (ix2 n ⟨0, Nat.one_pos⟩) (fun a => match a with
      | ⟨0, _⟩ => by show n.val = if (1000000 : Nat) = 1 then 0 else n.val; rw [if_neg (by decide)]
      | ⟨1, _⟩ => by show (0 : Nat) = if (1 : Nat) = 1 then 0 else _; rw [if_pos rfl])
    · unfold Cert.ReferenceIdeal.Read.val_main_v76
      rw [Stack.cat2_col0]
      unfold Cert.ReferenceIdeal.Read.val_main_v74
      rw [Stack.bcol_apply]
  rw [hr]
  unfold Cert.KernelIdeal.HostVal.h1_v63
  beta_reduce
  rw [Stack.cat2_col0]
  unfold Cert.KernelIdeal.HostVal.h1_v61
  rw [Stack.bcol_apply]
  unfold Cert.KernelIdeal.HostVal.h1_v59
  show FloatOps.mulf (F := Ideal) (φ := .f32) ((Cert.KernelIdeal.HostVal.h0_v5 (F := Ideal) a2 a0 a1 a3) (ix1 n)) ((Cert.KernelIdeal.HostVal.h1_v55 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix1 n)) = _
  rw [dx_eq]
  refine congrArg₂ (FloatOps.mulf (F := Ideal) (φ := .f32)) ?_ rfl
  unfold Cert.KernelIdeal.HostVal.h0_v5
  exact Stack.flat_col_apply _ _ n
theorem tf1 (n : Fin 1000000) : (Cert.KernelIdeal.HostVal.h1_v63 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix2 n ⟨1, by decide⟩) = Cert.ReferenceIdeal.Read.val_main_v112 (F := Ideal) a0 a1 a2 a3 (ix1 n) := by
  have hr : Cert.ReferenceIdeal.Read.val_main_v112 (F := Ideal) a0 a1 a2 a3 (ix1 n) = FloatOps.mulf (F := Ideal) (φ := .f32) (a1 (ix2 n ⟨0, Nat.one_pos⟩)) (Cert.ReferenceIdeal.Read.val_main_v73 (F := Ideal) a0 a2 a3 (ix1 n)) := by
    unfold Cert.ReferenceIdeal.Read.val_main_v112 Cert.ReferenceIdeal.Read.val_main_v111
    rw [Stack.col_apply 1 (by decide) _ _ _ n]
    unfold Cert.ReferenceIdeal.Read.val_main_v78
    show FloatOps.mulf (F := Ideal) (φ := .f32) (Cert.ReferenceIdeal.Read.val_main_v77 (F := Ideal) a1 (ix2 n ⟨1, by decide⟩)) (Cert.ReferenceIdeal.Read.val_main_v76 (F := Ideal) a0 a2 a3 (ix2 n ⟨1, by decide⟩)) = _
    refine congrArg₂ (FloatOps.mulf (F := Ideal) (φ := .f32)) ?_ ?_
    · unfold Cert.ReferenceIdeal.Read.val_main_v77
      exact broadcastInDim_apply _ _ a1 _ (ix2 n ⟨0, Nat.one_pos⟩) (fun a => match a with
      | ⟨0, _⟩ => by show n.val = if (1000000 : Nat) = 1 then 0 else n.val; rw [if_neg (by decide)]
      | ⟨1, _⟩ => by show (0 : Nat) = if (1 : Nat) = 1 then 0 else _; rw [if_pos rfl])
    · unfold Cert.ReferenceIdeal.Read.val_main_v76
      rw [Stack.cat2_col1]
      unfold Cert.ReferenceIdeal.Read.val_main_v75
      rw [Stack.bcol_apply]
  rw [hr]
  unfold Cert.KernelIdeal.HostVal.h1_v63
  beta_reduce
  rw [Stack.cat2_col1]
  unfold Cert.KernelIdeal.HostVal.h1_v62
  rw [Stack.bcol_apply]
  unfold Cert.KernelIdeal.HostVal.h1_v60
  show FloatOps.mulf (F := Ideal) (φ := .f32) ((Cert.KernelIdeal.HostVal.h0_v5 (F := Ideal) a2 a0 a1 a3) (ix1 n)) ((Cert.KernelIdeal.HostVal.h1_v58 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (ix1 n)) = _
  rw [dy_eq]
  refine congrArg₂ (FloatOps.mulf (F := Ideal) (φ := .f32)) ?_ rfl
  unfold Cert.KernelIdeal.HostVal.h0_v5
  exact Stack.flat_col_apply _ _ n

/-! ## The flow's gathered endpoints -/

theorem g_xs : (Cert.KernelIdeal.HostVal.h1_v79 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v90 (F := Ideal) a0 a1 a2 a3 := by
  funext e
  obtain ⟨e', rfl⟩ : ∃ e' : Fin 8000000, e = ix1 e' := ⟨e 0, eq_ix1 e⟩
  unfold Cert.KernelIdeal.HostVal.h1_v79 Cert.KernelIdeal.HostVal.h1_v78
  rw [Stack.col_apply 0 (by decide) _ _ _ e']
  unfold Cert.KernelIdeal.HostVal.h1_v70 Cert.ReferenceIdeal.Read.val_main_v90
  have hidx : (Cert.KernelIdeal.HostVal.h1_v69 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v89 (F := Ideal) a2 := rfl
  rw [hidx]
  exact gath2_col _ _ _ e' ⟨0, by decide⟩ (tf0 a0 a1 a2 a3)
theorem g_ys : (Cert.KernelIdeal.HostVal.h1_v82 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v122 (F := Ideal) a0 a1 a2 a3 := by
  funext e
  obtain ⟨e', rfl⟩ : ∃ e' : Fin 8000000, e = ix1 e' := ⟨e 0, eq_ix1 e⟩
  unfold Cert.KernelIdeal.HostVal.h1_v82 Cert.KernelIdeal.HostVal.h1_v81
  rw [Stack.col_apply 1 (by decide) _ _ _ e']
  unfold Cert.KernelIdeal.HostVal.h1_v70 Cert.ReferenceIdeal.Read.val_main_v122
  have hidx : (Cert.KernelIdeal.HostVal.h1_v69 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v121 (F := Ideal) a2 := rfl
  rw [hidx]
  exact gath2_col _ _ _ e' ⟨1, by decide⟩ (tf1 a0 a1 a2 a3)
theorem g_xd : (Cert.KernelIdeal.HostVal.h1_v85 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v97 (F := Ideal) a0 a1 a2 a3 := by
  funext e
  obtain ⟨e', rfl⟩ : ∃ e' : Fin 8000000, e = ix1 e' := ⟨e 0, eq_ix1 e⟩
  unfold Cert.KernelIdeal.HostVal.h1_v85 Cert.KernelIdeal.HostVal.h1_v84
  rw [Stack.col_apply 0 (by decide) _ _ _ e']
  unfold Cert.KernelIdeal.HostVal.h1_v77 Cert.ReferenceIdeal.Read.val_main_v97
  have hidx : (Cert.KernelIdeal.HostVal.h1_v76 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v96 (F := Ideal) a2 := rfl
  rw [hidx]
  exact gath2_col _ _ _ e' ⟨0, by decide⟩ (tf0 a0 a1 a2 a3)
theorem g_yd : (Cert.KernelIdeal.HostVal.h1_v88 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v129 (F := Ideal) a0 a1 a2 a3 := by
  funext e
  obtain ⟨e', rfl⟩ : ∃ e' : Fin 8000000, e = ix1 e' := ⟨e 0, eq_ix1 e⟩
  unfold Cert.KernelIdeal.HostVal.h1_v88 Cert.KernelIdeal.HostVal.h1_v87
  rw [Stack.col_apply 1 (by decide) _ _ _ e']
  unfold Cert.KernelIdeal.HostVal.h1_v77 Cert.ReferenceIdeal.Read.val_main_v129
  have hidx : (Cert.KernelIdeal.HostVal.h1_v76 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) = Cert.ReferenceIdeal.Read.val_main_v128 (F := Ideal) a2 := rfl
  rw [hidx]
  exact gath2_col _ _ _ e' ⟨1, by decide⟩ (tf1 a0 a1 a2 a3)

/-! ## The second pass's messages -/

theorem msgxx_eq : (Cert.KernelIdeal.HostVal.h2_v91 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) = Cert.ReferenceIdeal.Read.val_main_v100 (F := Ideal) a0 a1 a2 a3 := by
  unfold Cert.KernelIdeal.HostVal.h2_v91 Cert.KernelIdeal.Hand.kP0 Cert.KernelIdeal.HostVal.h1_v80 Cert.KernelIdeal.HostVal.h1_v86 Cert.KernelIdeal.HostVal.h0_v26
  refine (Stack.shapeCast_map3 _ _ Cert.KernelIdeal.Hand.msgS _ _ _).trans ?_
  rw [g_xs, g_xd]
  rfl
theorem msgyy_eq : (Cert.KernelIdeal.HostVal.h2_v92 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) = Cert.ReferenceIdeal.Read.val_main_v132 (F := Ideal) a0 a1 a2 a3 := by
  unfold Cert.KernelIdeal.HostVal.h2_v92 Cert.KernelIdeal.Hand.kP1 Cert.KernelIdeal.HostVal.h1_v83 Cert.KernelIdeal.HostVal.h1_v89 Cert.KernelIdeal.HostVal.h0_v27
  refine (Stack.shapeCast_map3 _ _ Cert.KernelIdeal.Hand.msgS _ _ _).trans ?_
  rw [g_ys, g_yd]
  rfl

theorem pay2_0 (e : Fin 8000000) : (Cert.KernelIdeal.HostVal.h2_v95 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) (ix2 e ⟨0, by decide⟩) = Cert.ReferenceIdeal.Read.val_main_v100 (F := Ideal) a0 a1 a2 a3 (ix1 e) := by
  unfold Cert.KernelIdeal.HostVal.h2_v95
  beta_reduce
  rw [Stack.cat2_col0]
  unfold Cert.KernelIdeal.HostVal.h2_v93
  rw [Stack.bcol_apply]
  exact congrFun (msgxx_eq a0 a1 a2 a3 a4) (ix1 e)
theorem pay2_1 (e : Fin 8000000) : (Cert.KernelIdeal.HostVal.h2_v95 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) (ix2 e ⟨1, by decide⟩) = Cert.ReferenceIdeal.Read.val_main_v132 (F := Ideal) a0 a1 a2 a3 (ix1 e) := by
  unfold Cert.KernelIdeal.HostVal.h2_v95
  beta_reduce
  rw [Stack.cat2_col1]
  unfold Cert.KernelIdeal.HostVal.h2_v94
  rw [Stack.bcol_apply]
  exact congrFun (msgyy_eq a0 a1 a2 a3 a4) (ix1 e)

/-! ## The second pass's sums -/

theorem sxx_eq : (Cert.KernelIdeal.HostVal.h2_v100 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) = Cert.ReferenceIdeal.Read.val_main_v103 (F := Ideal) a0 a1 a2 a3 := by
  funext n
  obtain ⟨n', rfl⟩ : ∃ n' : Fin 1000000, n = ix1 n' := ⟨n 0, eq_ix1 n⟩
  unfold Cert.KernelIdeal.HostVal.h2_v100 Cert.KernelIdeal.HostVal.h2_v99
  rw [Stack.col_apply 0 (by decide) _ _ _ n']
  unfold Cert.KernelIdeal.HostVal.h2_v98 Cert.ReferenceIdeal.Read.val_main_v103
  have hidx : (Cert.KernelIdeal.HostVal.h2_v97 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) = Cert.ReferenceIdeal.Read.val_main_v102 (F := Ideal) a2 := rfl
  have hx : (Cert.KernelIdeal.HostVal.h2_v96 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) (ix2 n' ⟨0, by decide⟩) = Cert.ReferenceIdeal.Read.val_main_v101 (F := Ideal) (ix1 n') := rfl
  rw [hidx]
  exact scat2_col _ _ _ _ _ n' ⟨0, by decide⟩ hx (pay2_0 a0 a1 a2 a3 a4)
theorem syy_eq : (Cert.KernelIdeal.HostVal.h2_v102 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) = Cert.ReferenceIdeal.Read.val_main_v135 (F := Ideal) a0 a1 a2 a3 := by
  funext n
  obtain ⟨n', rfl⟩ : ∃ n' : Fin 1000000, n = ix1 n' := ⟨n 0, eq_ix1 n⟩
  unfold Cert.KernelIdeal.HostVal.h2_v102 Cert.KernelIdeal.HostVal.h2_v101
  rw [Stack.col_apply 1 (by decide) _ _ _ n']
  unfold Cert.KernelIdeal.HostVal.h2_v98 Cert.ReferenceIdeal.Read.val_main_v135
  have hidx : (Cert.KernelIdeal.HostVal.h2_v97 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) = Cert.ReferenceIdeal.Read.val_main_v134 (F := Ideal) a2 := rfl
  have hx : (Cert.KernelIdeal.HostVal.h2_v96 (F := Ideal) (Cert.KernelIdeal.Hand.kP0 (F := Ideal) a0 a1 a2 a3) (Cert.KernelIdeal.Hand.kP1 (F := Ideal) a0 a1 a2 a3) (Cert.KernelIdeal.HostVal.h0_v3 (F := Ideal) a2 a0 a1 a3) (Cert.KernelIdeal.HostVal.h1_v50 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) (Cert.KernelIdeal.HostVal.h1_v52 (F := Ideal) (Cert.KernelIdeal.Hand.kO0 (F := Ideal) a0 a1 a2 a3) (Cert.KernelIdeal.Hand.kO1 (F := Ideal) a0 a1 a2 a3) (Cert.KernelIdeal.HostVal.h0_v7 (F := Ideal) a2 a0 a1 a3) (Cert.KernelIdeal.HostVal.h0_v9 (F := Ideal) a2 a0 a1 a3) (Cert.KernelIdeal.HostVal.h0_v3 (F := Ideal) a2 a0 a1 a3) (Cert.KernelIdeal.HostVal.h0_v5 (F := Ideal) a2 a0 a1 a3) (Cert.KernelIdeal.HostVal.h0_v1 (F := Ideal) a2 a0 a1 a3)) a4) (ix2 n' ⟨1, by decide⟩) = Cert.ReferenceIdeal.Read.val_main_v133 (F := Ideal) (ix1 n') := rfl
  rw [hidx]
  exact scat2_col _ _ _ _ _ n' ⟨1, by decide⟩ hx (pay2_1 a0 a1 a2 a3 a4)

/-! ## The residual -/

/-- THE TWO RESULTS ARE ONE FUNCTION of the argument arrays at the ideal instance. -/
theorem out_eq : Cert.KernelIdeal.Hand.kOut (F := Ideal) a0 a1 a2 a3 a4 = Cert.ReferenceIdeal.Read.val_main_v149 (F := Ideal) a0 a1 a2 a3 a4 := by
  unfold Cert.KernelIdeal.Hand.kOut Cert.KernelIdeal.HostVal.h2_v115 Cert.KernelIdeal.HostVal.h2_v111 Cert.KernelIdeal.HostVal.h2_v109 Cert.KernelIdeal.HostVal.h2_v105 Cert.KernelIdeal.HostVal.h2_v108 Cert.KernelIdeal.HostVal.h2_v104 Cert.KernelIdeal.HostVal.h2_v107
    Cert.ReferenceIdeal.Read.val_main_v149 Cert.ReferenceIdeal.Read.val_main_v145 Cert.ReferenceIdeal.Read.val_main_v143 Cert.ReferenceIdeal.Read.val_main_v110 Cert.ReferenceIdeal.Read.val_main_v142 Cert.ReferenceIdeal.Read.val_main_v109 Cert.ReferenceIdeal.Read.val_main_v141
  rw [sxx_eq, syy_eq, cx_eq, cy_eq]
  rfl

end Cert.Bridge

end
-- ==== Proof.lean ====
/-
  The kernel computes the residual of a discretized Darcy equation on a graph: for each node, the mean over incoming
  edges of `(x[src] - x[dst]) / attr` along the x-edges and along the y-edges (an edge is an x-edge where its first
  attribute is not zero, a y-edge where its second is not), the two means scaled by the node's coefficient, the same two
  mean differences of the scaled means, their sum plus one, masked. It computes the per-edge quotients in two passes over
  the eight million edges laid out as 62500 × 128 and pipelined in 21 blocks of 3072 rows, the last overhanging the
  array; it scatter-adds the x- and y-messages and the two validity planes as ONE stack of four columns, and gathers
  the two scaled means as ONE table of two columns. The reference gathers, divides, scatters and counts each column by
  itself over the flat edge list.

  At the ideal instance the two are one function of the arguments. The passes' stores are elementwise, so what a block
  writes back does not depend on the rows past the array's end, the 21 write-backs cover the array, and the result
  arrays are the messages index by index (Proof/KIOut.lean). A flattening around an elementwise function cancels; a
  column of a row scatter-add is the flat scatter-add of the column — both are the operand's element plus the sum of the
  updates whose scatter index is the row —; a column of a row gather from stacked columns is the flat gather from the
  column (Proof/LibStack.lean). So the sums, the counts, the means, the scaled means, their gathered endpoints and the
  second sums agree one after the other (Proof/Bridge.lean), and the residuals are equal. No law that needs finiteness
  is used: the precondition is not opened.

  The frames: each kernel program is three stretches of host operations around the two passes; between two of them the
  TensorCore's unscoped buffers are at contents computed from the launch memory, and no stretch writes an argument and
  no pass holds one as a window's array (Proof/KRun.lean, Proof/KIRun.lean over the bodies' triples in Proof/K*Body*.lean
  and the obligations in Proof/K*Oblig*.lean). The ideal pass rewrote nothing, so `preserves` is `True`.
-/
import proofs.«108219_j35407710388663_2_alg».proof.Defs
import proofs.«108219_j35407710388663_2_alg».proof.Proof.Gen.Kernel
import proofs.«108219_j35407710388663_2_alg».proof.Proof.Gen.KernelIdeal
import proofs.«108219_j35407710388663_2_alg».proof.Proof.Gen.ReferenceIdeal
import proofs.«108219_j35407710388663_2_alg».proof.Proof.Gen.Pre_finite_inputs
import proofs.«108219_j35407710388663_2_alg».proof.Proof.Frames
import proofs.«108219_j35407710388663_2_alg».proof.Proof.Bridge

set_option maxRecDepth 16384

noncomputable section

namespace Cert.Proof

open Idealize.ShloMosaic Idealize.ShloMosaic.TcCoe Idealize.SL.Sem

/-- Both idealized programs run, from memories agreeing on the arguments, to one result: the kernel's run ends with
    its result buffer at the kernel's function of the arguments, the reference's at the reference's, and the two
    functions are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.kOut (F := Ideal) (Cert.KernelIdeal.Hand.arg0 m c) (Cert.KernelIdeal.Hand.arg1 m c) (Cert.KernelIdeal.Hand.arg2 m c) (Cert.KernelIdeal.Hand.arg3 m c) (Cert.KernelIdeal.Hand.arg4 m c), ?_, ?_⟩
  · exact (θ_run (Cert.KernelIdeal.defs (F := Ideal)) _ _).mono (fun _ h c =>
      ⟨(h c _ (Cert.KernelIdeal.Hand.mem_uc Cert.KernelIdeal.main_v115 (by decide))).trans (Cert.KernelIdeal.Hand.W5_out m ρ c),
        (h c _ (Cert.KernelIdeal.Hand.mem_uc Cert.KernelIdeal.main_arg0 (by decide))).trans (Cert.KernelIdeal.Hand.W5_kept m ρ c Cert.KernelIdeal.main_arg0 (by decide) (by decide) (by decide) (by decide) (by decide)),
        (h c _ (Cert.KernelIdeal.Hand.mem_uc Cert.KernelIdeal.main_arg1 (by decide))).trans (Cert.KernelIdeal.Hand.W5_kept m ρ c Cert.KernelIdeal.main_arg1 (by decide) (by decide) (by decide) (by decide) (by decide)),
        (h c _ (Cert.KernelIdeal.Hand.mem_uc Cert.KernelIdeal.main_arg2 (by decide))).trans (Cert.KernelIdeal.Hand.W5_kept m ρ c Cert.KernelIdeal.main_arg2 (by decide) (by decide) (by decide) (by decide) (by decide)),
        (h c _ (Cert.KernelIdeal.Hand.mem_uc Cert.KernelIdeal.main_arg3 (by decide))).trans (Cert.KernelIdeal.Hand.W5_kept m ρ c Cert.KernelIdeal.main_arg3 (by decide) (by decide) (by decide) (by decide) (by decide)),
        (h c _ (Cert.KernelIdeal.Hand.mem_uc Cert.KernelIdeal.main_arg4 (by decide))).trans (Cert.KernelIdeal.Hand.W5_kept m ρ c Cert.KernelIdeal.main_arg4 (by decide) (by decide) (by decide) (by decide) (by decide))⟩)
      (Cert.KernelIdeal.Hand.run_main (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v149_eq, (hagree c).1, (hagree c).2.1, (hagree c).2.2.1, (hagree c).2.2.2.1, (hagree c).2.2.2.2]
    exact (Cert.Bridge.out_eq _ _ _ _ _).symm

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, trivial, algebraic⟩

end Cert.Proof

end
